-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1470 : Shape := ⟨2, ![16384, 1470]⟩
abbrev S16384x8x5 : Shape := ⟨3, ![16384, 8, 5]⟩
abbrev S16384x8x1 : Shape := ⟨3, ![16384, 8, 1]⟩
abbrev S_ : Shape := ⟨0, ![]⟩

class Facts : Prop where
  slices_S16384x8x5_S16384x8x1_0_0_3 : S16384x8x5.Slices ![0, 0, 3] S16384x8x1
  slices_S16384x8x5_S16384x8x1_0_0_1 : S16384x8x5.Slices ![0, 0, 1] S16384x8x1
  bcast_S_S16384x8x1 : S_.BroadcastsInDim S16384x8x1 (![] : Fin 0 → Fin S16384x8x1.rank)
  bcast_S_S16384x1470 : S_.BroadcastsInDim S16384x1470 (![] : Fin 0 → Fin S16384x1470.rank)
  reducesTo_S16384x1470_S_d0_1 : S16384x1470.ReducesTo [0, 1] S_
  h_S_ : 0 < S_.numel
  bcast_S_S16384x8x5 : S_.BroadcastsInDim S16384x8x5 (![] : Fin 0 → Fin S16384x8x5.rank)
  reducesTo_S16384x8x5_S_d0_1_2 : S16384x8x5.ReducesTo [0, 1, 2] S_
  reducesTo_S16384x8x1_S_d0_1_2 : S16384x8x1.ReducesTo [0, 1, 2] S_

variable [Facts]

def fn_part1 {F : FTy → Type} [FloatOps F] (main_v4 : FVec F S16384x8x1 .f32) (main_v13 : IVec S_ 1) (main_v16 : IVec S_ 1) : IVec S_ 1 :=
  let main_v17 : IVec S_ 1 := andi main_v13 main_v16
  let main_cst_5 : FVec F S_ .f32 := constant S_ .f32 0x41A00000#32
  let main_v18 : FVec F S16384x8x1 .f32 := broadcastInDim S16384x8x1 ![] bcast_S_S16384x8x1 main_cst_5
  let main_v19 : IVec S16384x8x1 1 := cmpf .olt main_v4 main_v18
  let main_c_6 : IVec S_ 1 := constantI S_ 1 1#1
  let main_v20 : IVec S_ 1 := (fun x v => Host.reduce IntOp.andi x v reducesTo_S16384x8x1_S_d0_1_2 h_S_) main_v19 main_c_6
  let main_v21 : IVec S_ 1 := andi main_v17 main_v20
  main_v21

def fn {F : FTy → Type} [FloatOps F] (main_arg0 : FVec F S16384x1470 .f32) (main_arg1 : FVec F S16384x8x5 .f32) : IVec S_ 1 :=
  let main_v0 : FVec F S16384x8x1 .f32 := (extractStridedSlice S16384x8x1 ![0, 0, 3] · slices_S16384x8x5_S16384x8x1_0_0_3) main_arg1
  let main_v1 : FVec F S16384x8x1 .f32 := (extractStridedSlice S16384x8x1 ![0, 0, 1] · slices_S16384x8x5_S16384x8x1_0_0_1) main_arg1
  let main_v2 : FVec F S16384x8x1 .f32 := subf main_v0 main_v1
  let main_cst : FVec F S_ .f32 := constant S_ .f32 0x40E00000#32
  let main_v3 : FVec F S16384x8x1 .f32 := broadcastInDim S16384x8x1 ![] bcast_S_S16384x8x1 main_cst
  let main_v4 : FVec F S16384x8x1 .f32 := mulf main_v2 main_v3
  let main_v5 : FVec F S16384x1470 .f32 := Host.absf main_arg0
  let main_cst_0 : FVec F S_ .f32 := constant S_ .f32 0x7F800000#32
  let main_v6 : FVec F S16384x1470 .f32 := broadcastInDim S16384x1470 ![] bcast_S_S16384x1470 main_cst_0
  let main_v7 : IVec S16384x1470 1 := cmpf .olt main_v5 main_v6
  let main_c : IVec S_ 1 := constantI S_ 1 1#1
  let main_v8 : IVec S_ 1 := (fun x v => Host.reduce IntOp.andi x v reducesTo_S16384x1470_S_d0_1 h_S_) main_v7 main_c
  let main_v9 : FVec F S16384x8x5 .f32 := Host.absf main_arg1
  let main_cst_1 : FVec F S_ .f32 := constant S_ .f32 0x7F800000#32
  let main_v10 : FVec F S16384x8x5 .f32 := broadcastInDim S16384x8x5 ![] bcast_S_S16384x8x5 main_cst_1
  let main_v11 : IVec S16384x8x5 1 := cmpf .olt main_v9 main_v10
  let main_c_2 : IVec S_ 1 := constantI S_ 1 1#1
  let main_v12 : IVec S_ 1 := (fun x v => Host.reduce IntOp.andi x v reducesTo_S16384x8x5_S_d0_1_2 h_S_) main_v11 main_c_2
  let main_v13 : IVec S_ 1 := andi main_v8 main_v12
  let main_cst_3 : FVec F S_ .f32 := constant S_ .f32 0xBF800000#32
  let main_v14 : FVec F S16384x8x1 .f32 := broadcastInDim S16384x8x1 ![] bcast_S_S16384x8x1 main_cst_3
  let main_v15 : IVec S16384x8x1 1 := cmpf .ogt main_v4 main_v14
  let main_c_4 : IVec S_ 1 := constantI S_ 1 1#1
  let main_v16 : IVec S_ 1 := (fun x v => Host.reduce IntOp.andi x v reducesTo_S16384x8x1_S_d0_1_2 h_S_) main_v15 main_c_4
  fn_part1 (F := F) main_v4 main_v13 main_v16
-- ==== Kernel.lean ====
abbrev S16384x1470 : Shape := ⟨2, ![16384, 1470]⟩
abbrev S16384x8x5 : Shape := ⟨3, ![16384, 8, 5]⟩
abbrev S2 : Shape := ⟨1, ![2]⟩
abbrev S16384x8x4 : Shape := ⟨3, ![16384, 8, 4]⟩
abbrev S16384x8x2 : Shape := ⟨3, ![16384, 8, 2]⟩
abbrev S_ : Shape := ⟨0, ![]⟩
abbrev S16384x8x1 : Shape := ⟨3, ![16384, 8, 1]⟩
abbrev S16384x8 : Shape := ⟨2, ![16384, 8]⟩
abbrev S16384x8x30 : Shape := ⟨3, ![16384, 8, 30]⟩
abbrev S2x1 : Shape := ⟨2, ![2, 1]⟩
abbrev S1 : Shape := ⟨1, ![1]⟩
abbrev S16384 : Shape := ⟨1, ![16384]⟩
abbrev S16384x1 : Shape := ⟨2, ![16384, 1]⟩
abbrev S16384x7x7x30 : Shape := ⟨4, ![16384, 7, 7, 30]⟩
abbrev S16384x8x3 : Shape := ⟨3, ![16384, 8, 3]⟩
abbrev S16384x49x30 : Shape := ⟨3, ![16384, 49, 30]⟩
abbrev S802816x30 : Shape := ⟨2, ![802816, 30]⟩
abbrev S1x1 : Shape := ⟨2, ![1, 1]⟩
abbrev S12544x30 : Shape := ⟨2, ![12544, 30]⟩
abbrev S12544x20 : Shape := ⟨2, ![12544, 20]⟩
abbrev S12544x1 : Shape := ⟨2, ![12544, 1]⟩
abbrev S12544 : Shape := ⟨1, ![12544]⟩
abbrev S12544x2 : Shape := ⟨2, ![12544, 2]⟩

abbrev nBuf : Space → Nat
  | .hbm => 109
  | .vmem => 8
  | .smem => 0
  | _ => 0

abbrev bufTy : (tb : Table) → Fin (tcTables nBuf tb) → BufTy
  | .hbm, ⟨0, _⟩ => ⟨S16384x1470, .f32⟩
  | .hbm, ⟨1, _⟩ => ⟨S16384x8x5, .f32⟩
  | .hbm, ⟨2, _⟩ => ⟨S2, .i32⟩
  | .hbm, ⟨3, _⟩ => ⟨S16384x8x4, .f32⟩
  | .hbm, ⟨4, _⟩ => ⟨S16384x8x2, .f32⟩
  | .hbm, ⟨5, _⟩ => ⟨S16384x8x2, .f32⟩
  | .hbm, ⟨6, _⟩ => ⟨S16384x8x2, .f32⟩
  | .hbm, ⟨7, _⟩ => ⟨S16384x8x2, .f32⟩
  | .hbm, ⟨8, _⟩ => ⟨S16384x8x2, .f32⟩
  | .hbm, ⟨9, _⟩ => ⟨S16384x8x2, .f32⟩
  | .hbm, ⟨10, _⟩ => ⟨S_, .f32⟩
  | .hbm, ⟨11, _⟩ => ⟨S16384x8x2, .f32⟩
  | .hbm, ⟨12, _⟩ => ⟨S16384x8x2, .f32⟩
  | .hbm, ⟨13, _⟩ => ⟨S_, .f32⟩
  | .hbm, ⟨14, _⟩ => ⟨S16384x8x2, .f32⟩
  | .hbm, ⟨15, _⟩ => ⟨S16384x8x2, .f32⟩
  | .hbm, ⟨16, _⟩ => ⟨S16384x8x2, .f32⟩
  | .hbm, ⟨17, _⟩ => ⟨S_, .f32⟩
  | .hbm, ⟨18, _⟩ => ⟨S16384x8x2, .f32⟩
  | .hbm, ⟨19, _⟩ => ⟨S16384x8x2, .f32⟩
  | .hbm, ⟨20, _⟩ => ⟨S_, .f32⟩
  | .hbm, ⟨21, _⟩ => ⟨S16384x8x2, .f32⟩
  | .hbm, ⟨22, _⟩ => ⟨S16384x8x2, .f32⟩
  | .hbm, ⟨23, _⟩ => ⟨S16384x8x2, .f32⟩
  | .hbm, ⟨24, _⟩ => ⟨S16384x8x1, .f32⟩
  | .hbm, ⟨25, _⟩ => ⟨S16384x8, .f32⟩
  | .hbm, ⟨26, _⟩ => ⟨S16384x8, .i32⟩
  | .hbm, ⟨27, _⟩ => ⟨S16384x8x1, .f32⟩
  | .hbm, ⟨28, _⟩ => ⟨S16384x8, .f32⟩
  | .hbm, ⟨29, _⟩ => ⟨S16384x8, .i32⟩
  | .hbm, ⟨30, _⟩ => ⟨S_, .f32⟩
  | .hbm, ⟨31, _⟩ => ⟨S16384x8x30, .f32⟩
  | .hbm, ⟨32, _⟩ => ⟨S_, .i32⟩
  | .hbm, ⟨33, _⟩ => ⟨S2, .i32⟩
  | .hbm, ⟨34, _⟩ => ⟨S2, .i1⟩
  | .hbm, ⟨35, _⟩ => ⟨S_, .i32⟩
  | .hbm, ⟨36, _⟩ => ⟨S2, .i32⟩
  | .hbm, ⟨37, _⟩ => ⟨S2, .i32⟩
  | .hbm, ⟨38, _⟩ => ⟨S2, .i32⟩
  | .hbm, ⟨39, _⟩ => ⟨S2x1, .i32⟩
  | .hbm, ⟨40, _⟩ => ⟨S_, .f32⟩
  | .hbm, ⟨41, _⟩ => ⟨S16384x8x2, .f32⟩
  | .hbm, ⟨42, _⟩ => ⟨S16384x8x30, .f32⟩
  | .hbm, ⟨43, _⟩ => ⟨S16384x8x1, .f32⟩
  | .hbm, ⟨44, _⟩ => ⟨S16384x8, .f32⟩
  | .hbm, ⟨45, _⟩ => ⟨S_, .f32⟩
  | .hbm, ⟨46, _⟩ => ⟨S16384x8, .f32⟩
  | .hbm, ⟨47, _⟩ => ⟨S16384x8, .i1⟩
  | .hbm, ⟨48, _⟩ => ⟨S16384x8, .f32⟩
  | .hbm, ⟨49, _⟩ => ⟨S16384x8, .f32⟩
  | .hbm, ⟨50, _⟩ => ⟨S16384x8, .f32⟩
  | .hbm, ⟨51, _⟩ => ⟨S_, .i32⟩
  | .hbm, ⟨52, _⟩ => ⟨S1, .i32⟩
  | .hbm, ⟨53, _⟩ => ⟨S16384x8x30, .f32⟩
  | .hbm, ⟨54, _⟩ => ⟨S_, .f32⟩
  | .hbm, ⟨55, _⟩ => ⟨S16384x8x2, .f32⟩
  | .hbm, ⟨56, _⟩ => ⟨S16384x8x2, .f32⟩
  | .hbm, ⟨57, _⟩ => ⟨S_, .i32⟩
  | .hbm, ⟨58, _⟩ => ⟨S1, .i32⟩
  | .hbm, ⟨59, _⟩ => ⟨S16384x8x30, .f32⟩
  | .hbm, ⟨60, _⟩ => ⟨S_, .i32⟩
  | .hbm, ⟨61, _⟩ => ⟨S1, .i32⟩
  | .hbm, ⟨62, _⟩ => ⟨S16384x8x30, .f32⟩
  | .hbm, ⟨63, _⟩ => ⟨S_, .f32⟩
  | .hbm, ⟨64, _⟩ => ⟨S16384x8x2, .f32⟩
  | .hbm, ⟨65, _⟩ => ⟨S16384x8x2, .f32⟩
  | .hbm, ⟨66, _⟩ => ⟨S_, .i32⟩
  | .hbm, ⟨67, _⟩ => ⟨S1, .i32⟩
  | .hbm, ⟨68, _⟩ => ⟨S16384x8x30, .f32⟩
  | .hbm, ⟨69, _⟩ => ⟨S_, .i32⟩
  | .hbm, ⟨70, _⟩ => ⟨S1, .i32⟩
  | .hbm, ⟨71, _⟩ => ⟨S16384x8x30, .f32⟩
  | .hbm, ⟨72, _⟩ => ⟨S16384, .i32⟩
  | .hbm, ⟨73, _⟩ => ⟨S16384x1, .i32⟩
  | .hbm, ⟨74, _⟩ => ⟨S_, .f32⟩
  | .hbm, ⟨75, _⟩ => ⟨S16384x7x7x30, .f32⟩
  | .hbm, ⟨76, _⟩ => ⟨S_, .i32⟩
  | .hbm, ⟨77, _⟩ => ⟨S16384x1, .i32⟩
  | .hbm, ⟨78, _⟩ => ⟨S16384x1, .i1⟩
  | .hbm, ⟨79, _⟩ => ⟨S_, .i32⟩
  | .hbm, ⟨80, _⟩ => ⟨S16384x1, .i32⟩
  | .hbm, ⟨81, _⟩ => ⟨S16384x1, .i32⟩
  | .hbm, ⟨82, _⟩ => ⟨S16384x1, .i32⟩
  | .hbm, ⟨83, _⟩ => ⟨S_, .i32⟩
  | .hbm, ⟨84, _⟩ => ⟨S16384x8, .i32⟩
  | .hbm, ⟨85, _⟩ => ⟨S16384x8, .i1⟩
  | .hbm, ⟨86, _⟩ => ⟨S_, .i32⟩
  | .hbm, ⟨87, _⟩ => ⟨S16384x8, .i32⟩
  | .hbm, ⟨88, _⟩ => ⟨S16384x8, .i32⟩
  | .hbm, ⟨89, _⟩ => ⟨S16384x8, .i32⟩
  | .hbm, ⟨90, _⟩ => ⟨S_, .i32⟩
  | .hbm, ⟨91, _⟩ => ⟨S16384x8, .i32⟩
  | .hbm, ⟨92, _⟩ => ⟨S16384x8, .i1⟩
  | .hbm, ⟨93, _⟩ => ⟨S_, .i32⟩
  | .hbm, ⟨94, _⟩ => ⟨S16384x8, .i32⟩
  | .hbm, ⟨95, _⟩ => ⟨S16384x8, .i32⟩
  | .hbm, ⟨96, _⟩ => ⟨S16384x8, .i32⟩
  | .hbm, ⟨97, _⟩ => ⟨S16384x8, .i32⟩
  | .hbm, ⟨98, _⟩ => ⟨S16384x8x1, .i32⟩
  | .hbm, ⟨99, _⟩ => ⟨S16384x8x1, .i32⟩
  | .hbm, ⟨100, _⟩ => ⟨S16384x8x1, .i32⟩
  | .hbm, ⟨101, _⟩ => ⟨S16384x8x3, .i32⟩
  | .hbm, ⟨102, _⟩ => ⟨S16384x7x7x30, .f32⟩
  | .hbm, ⟨103, _⟩ => ⟨S16384x49x30, .f32⟩
  | .hbm, ⟨104, _⟩ => ⟨S16384x49x30, .f32⟩
  | .hbm, ⟨105, _⟩ => ⟨S802816x30, .f32⟩
  | .hbm, ⟨106, _⟩ => ⟨S802816x30, .f32⟩
  | .hbm, ⟨107, _⟩ => ⟨S1x1, .f32⟩
  | .hbm, ⟨108, _⟩ => ⟨S_, .f32⟩
  | .local _ .vmem, ⟨0, _⟩ => ⟨S12544x30, .f32⟩
  | .local _ .vmem, ⟨1, _⟩ => ⟨S12544x30, .f32⟩
  | .local _ .vmem, ⟨2, _⟩ => ⟨S12544x30, .f32⟩
  | .local _ .vmem, ⟨3, _⟩ => ⟨S12544x30, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S16384x1470, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_c_12 : Ref sig .tc := ⟨.hbm, 66, rfl⟩
abbrev main_v45 : Ref sig .tc := ⟨.hbm, 67, rfl⟩
abbrev main_v46 : Ref sig .tc := ⟨.hbm, 68, rfl⟩
abbrev main_c_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_c_15 : Ref sig .tc := ⟨.hbm, 76, rfl⟩
abbrev main_v52 : Ref sig .tc := ⟨.hbm, 77, rfl⟩
abbrev main_v53 : Ref sig .tc := ⟨.hbm, 78, rfl⟩
abbrev main_c_16 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_17 : Ref sig .tc := ⟨.hbm, 83, rfl⟩
abbrev main_v57 : Ref sig .tc := ⟨.hbm, 84, rfl⟩
abbrev main_v58 : Ref sig .tc := ⟨.hbm, 85, rfl⟩
abbrev main_c_18 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_19 : Ref sig .tc := ⟨.hbm, 90, rfl⟩
abbrev main_v62 : Ref sig .tc := ⟨.hbm, 91, rfl⟩
abbrev main_v63 : Ref sig .tc := ⟨.hbm, 92, rfl⟩
abbrev main_c_20 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v82 : BitVec 1 := Scalar.cmpi .eq arg0 c63_i32
  let v83 : BitVec 32 := Scalar.extui v82
  let c0_i32_28 : BitVec 32 := 0#32
  let v84 : BitVec 1 := Scalar.cmpi .ne v83 c0_i32_28
  v84

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S12544x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12544x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S16384x8x5_S16384x8x4_0_0_0 : S16384x8x5.Slices ![0, 0, 0] S16384x8x4
  slices_S16384x8x4_S16384x8x2_0_0_2 : S16384x8x4.Slices ![0, 0, 2] S16384x8x2
  slices_S16384x8x4_S16384x8x2_0_0_0 : S16384x8x4.Slices ![0, 0, 0] S16384x8x2
  bcast_S_S16384x8x2 : S_.BroadcastsInDim S16384x8x2 (![] : Fin 0 → Fin S16384x8x2.rank)
  slices_S16384x8x2_S16384x8x1_0_0_0 : S16384x8x2.Slices ![0, 0, 0] S16384x8x1
  shapeCasts_S16384x8x1_S16384x8 : S16384x8x1.ShapeCasts S16384x8
  slices_S16384x8x2_S16384x8x1_0_0_1 : S16384x8x2.Slices ![0, 0, 1] S16384x8x1
  bcast_S_S16384x8x30 : S_.BroadcastsInDim S16384x8x30 (![] : Fin 0 → Fin S16384x8x30.rank)
  bcast_S_S2 : S_.BroadcastsInDim S2 (![] : Fin 0 → Fin S2.rank)
  bcast_S2_S2x1_0 : S2.BroadcastsInDim S2x1 (![0] : Fin 1 → Fin S2x1.rank)
  slices_S16384x8x5_S16384x8x1_0_0_4 : S16384x8x5.Slices ![0, 0, 4] S16384x8x1
  bcast_S_S16384x8 : S_.BroadcastsInDim S16384x8 (![] : Fin 0 → Fin S16384x8.rank)
  bcast_S_S1 : S_.BroadcastsInDim S1 (![] : Fin 0 → Fin S1.rank)
  bcast_S16384_S16384x1_0 : S16384.BroadcastsInDim S16384x1 (![0] : Fin 1 → Fin S16384x1.rank)
  bcast_S_S16384x7x7x30 : S_.BroadcastsInDim S16384x7x7x30 (![] : Fin 0 → Fin S16384x7x7x30.rank)
  bcast_S_S16384x1 : S_.BroadcastsInDim S16384x1 (![] : Fin 0 → Fin S16384x1.rank)
  bcast_S16384x1_S16384x8_0_1 : S16384x1.BroadcastsInDim S16384x8 (![0, 1] : Fin 2 → Fin S16384x8.rank)
  bcast_S16384x8_S16384x8x1_0_1 : S16384x8.BroadcastsInDim S16384x8x1 (![0, 1] : Fin 2 → Fin S16384x8x1.rank)
  concatenates_S16384x8x1_S16384x8x1_S16384x8x1_S16384x8x3_d2 : Shape.Concatenates [S16384x8x1, S16384x8x1, S16384x8x1] S16384x8x3 2
  shapeCasts_S16384x7x7x30_S16384x49x30 : S16384x7x7x30.ShapeCasts S16384x49x30
  shapeCasts_S16384x1470_S16384x49x30 : S16384x1470.ShapeCasts S16384x49x30
  shapeCasts_S16384x49x30_S802816x30 : S16384x49x30.ShapeCasts S802816x30
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S12544x30_S12544x30_0_0 : ∀ a, (![0, 0] : Fin 2 → Nat) a + S12544x30.size a ≤ S12544x30.size a
  h_S12544x30 : 0 < S12544x30.numel
  shapeCasts_S12544x30_S12544x30 : S12544x30.ShapeCasts S12544x30
  slices_S12544x30_o0_10_S12544x20 : S12544x30.Slices ![0, 10] S12544x20
  slices_S12544x30_o0_10_S12544x1 : S12544x30.Slices ![0, 10] S12544x1
  reduces_S12544x20_S12544 : S12544x20.Reduces [1] S12544
  shapeCasts_S12544_S12544x1 : S12544.ShapeCasts S12544x1
  broadcasts_S12544x1_S12544x20 : S12544x1.Broadcasts S12544x20
  iota_S12544x20_d1_w32 : S12544x20.Iotas .tc 32 [1]
  reduces_S12544x1_S1 : S12544x1.Reduces [0] S1
  shapeCasts_S1_S1x1 : S1.ShapeCasts S1x1
  natLt_1_32 : 1 < 32
  slices_S12544x30_o0_0_S12544x2 : S12544x30.Slices ![0, 0] S12544x2
  slices_S12544x30_o0_2_S12544x2 : S12544x30.Slices ![0, 2] S12544x2
  slices_S12544x30_o0_5_S12544x2 : S12544x30.Slices ![0, 5] S12544x2
  slices_S12544x30_o0_7_S12544x2 : S12544x30.Slices ![0, 7] S12544x2
  reduces_S12544x2_S12544 : S12544x2.Reduces [1] S12544
  shapeCasts_S1x1_S_ : S1x1.ShapeCasts S_
  scatter_S16384x8x30_S2x1_S16384x8x2_01_2_2_1_wf : ScatterDims.WF S16384x8x30 S2x1 S16384x8x2 [0, 1] [2] [2] 1
  scatter_S16384x8x30_S1_S16384x8_01_2_2_0_wf : ScatterDims.WF S16384x8x30 S1 S16384x8 [0, 1] [2] [2] 0
  scatter_S16384x8x30_S1_S16384x8x2_012_n_2_0_wf : ScatterDims.WF S16384x8x30 S1 S16384x8x2 [0, 1, 2] [] [2] 0
  scatter_S16384x7x7x30_S16384x8x3_S16384x8x30_2_012_012_2_wf : ScatterDims.WF S16384x7x7x30 S16384x8x3 S16384x8x30 [2] [0, 1, 2] [0, 1, 2] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12544x30.size a ≤ S802816x30.size a
  hwx0_0 : ∀ i : grid0.Coords, EltTy.bits .f32 = 32 ∨ (Rect.block (s := S802816x30) S12544x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12544x30.size a ≤ S802816x30.size a
  hwx0_1 : ∀ i : grid0.Coords, EltTy.bits .f32 = 32 ∨ (Rect.block (s := S802816x30) S12544x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def scatter_S16384x8x30_S2x1_S16384x8x2_01_2_2_1 : ScatterDims S16384x8x30 S2x1 S16384x8x2 where
  updateWindowDims := [0, 1]
  insertedWindowDims := [2]
  scatterDimsToOperandDims := [2]
  indexVectorDim := 1
  wf := scatter_S16384x8x30_S2x1_S16384x8x2_01_2_2_1_wf
def scatter_S16384x8x30_S1_S16384x8_01_2_2_0 : ScatterDims S16384x8x30 S1 S16384x8 where
  updateWindowDims := [0, 1]
  insertedWindowDims := [2]
  scatterDimsToOperandDims := [2]
  indexVectorDim := 0
  wf := scatter_S16384x8x30_S1_S16384x8_01_2_2_0_wf
def scatter_S16384x8x30_S1_S16384x8x2_012_n_2_0 : ScatterDims S16384x8x30 S1 S16384x8x2 where
  updateWindowDims := [0, 1, 2]
  insertedWindowDims := []
  scatterDimsToOperandDims := [2]
  indexVectorDim := 0
  wf := scatter_S16384x8x30_S1_S16384x8x2_012_n_2_0_wf
def scatter_S16384x7x7x30_S16384x8x3_S16384x8x30_2_012_012_2 : ScatterDims S16384x7x7x30 S16384x8x3 S16384x8x30 where
  updateWindowDims := [2]
  insertedWindowDims := [0, 1, 2]
  scatterDimsToOperandDims := [0, 1, 2]
  indexVectorDim := 2
  wf := scatter_S16384x7x7x30_S16384x8x3_S16384x8x30_2_012_012_2_wf

abbrev win0_0 : Pipeline.Window sig grid0 :=
  Pipeline.Window.ofSpec (Memref.whole main_v76) S12544x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v75) S12544x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v77) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x1470 : Shape := ⟨2, ![16384, 1470]⟩
abbrev S16384x8x5 : Shape := ⟨3, ![16384, 8, 5]⟩
abbrev S2 : Shape := ⟨1, ![2]⟩
abbrev S16384x8x4 : Shape := ⟨3, ![16384, 8, 4]⟩
abbrev S16384x8x2 : Shape := ⟨3, ![16384, 8, 2]⟩
abbrev S_ : Shape := ⟨0, ![]⟩
abbrev S16384x8x1 : Shape := ⟨3, ![16384, 8, 1]⟩
abbrev S16384x8 : Shape := ⟨2, ![16384, 8]⟩
abbrev S16384x8x30 : Shape := ⟨3, ![16384, 8, 30]⟩
abbrev S2x1 : Shape := ⟨2, ![2, 1]⟩
abbrev S1 : Shape := ⟨1, ![1]⟩
abbrev S16384 : Shape := ⟨1, ![16384]⟩
abbrev S16384x1 : Shape := ⟨2, ![16384, 1]⟩
abbrev S16384x7x7x30 : Shape := ⟨4, ![16384, 7, 7, 30]⟩
abbrev S16384x8x3 : Shape := ⟨3, ![16384, 8, 3]⟩
abbrev S16384x49x30 : Shape := ⟨3, ![16384, 49, 30]⟩
abbrev S802816x30 : Shape := ⟨2, ![802816, 30]⟩
abbrev S802816x20 : Shape := ⟨2, ![802816, 20]⟩
abbrev S802816x1 : Shape := ⟨2, ![802816, 1]⟩
abbrev S802816 : Shape := ⟨1, ![802816]⟩
abbrev S802816x1x1 : Shape := ⟨3, ![802816, 1, 1]⟩
abbrev S1x1x1 : Shape := ⟨3, ![1, 1, 1]⟩
abbrev S802816x10 : Shape := ⟨2, ![802816, 10]⟩
abbrev S802816x2x5 : Shape := ⟨3, ![802816, 2, 5]⟩
abbrev S802816x2x2 : Shape := ⟨3, ![802816, 2, 2]⟩

abbrev nBuf : Space → Nat
  | .hbm => 191
  | .vmem => 0
  | .smem => 0
  | _ => 0

abbrev hbmTy0_0 (i : Nat) : BufTy := match i % 128 with
  | 0 => ⟨S16384x1470, .f32⟩
  | 1 => ⟨S16384x8x5, .f32⟩
  | 2 => ⟨S2, .i32⟩
  | 3 => ⟨S16384x8x4, .f32⟩
  | 4 => ⟨S16384x8x2, .f32⟩
  | 5 => ⟨S16384x8x2, .f32⟩
  | 6 => ⟨S16384x8x2, .f32⟩
  | 7 => ⟨S16384x8x2, .f32⟩
  | 8 => ⟨S16384x8x2, .f32⟩
  | 9 => ⟨S16384x8x2, .f32⟩
  | 10 => ⟨S_, .f32⟩
  | 11 => ⟨S16384x8x2, .f32⟩
  | 12 => ⟨S16384x8x2, .f32⟩
  | 13 => ⟨S_, .f32⟩
  | 14 => ⟨S16384x8x2, .f32⟩
  | 15 => ⟨S16384x8x2, .f32⟩
  | 16 => ⟨S16384x8x2, .f32⟩
  | 17 => ⟨S_, .f32⟩
  | 18 => ⟨S16384x8x2, .f32⟩
  | 19 => ⟨S16384x8x2, .f32⟩
  | 20 => ⟨S_, .f32⟩
  | 21 => ⟨S16384x8x2, .f32⟩
  | 22 => ⟨S16384x8x2, .f32⟩
  | 23 => ⟨S16384x8x2, .f32⟩
  | 24 => ⟨S16384x8x1, .f32⟩
  | 25 => ⟨S16384x8, .f32⟩
  | 26 => ⟨S16384x8, .i32⟩
  | 27 => ⟨S16384x8x1, .f32⟩
  | 28 => ⟨S16384x8, .f32⟩
  | 29 => ⟨S16384x8, .i32⟩
  | 30 => ⟨S_, .f32⟩
  | 31 => ⟨S16384x8x30, .f32⟩
  | 32 => ⟨S_, .i32⟩
  | 33 => ⟨S2, .i32⟩
  | 34 => ⟨S2, .i1⟩
  | 35 => ⟨S_, .i32⟩
  | 36 => ⟨S2, .i32⟩
  | 37 => ⟨S2, .i32⟩
  | 38 => ⟨S2, .i32⟩
  | 39 => ⟨S2x1, .i32⟩
  | 40 => ⟨S_, .f32⟩
  | 41 => ⟨S16384x8x2, .f32⟩
  | 42 => ⟨S16384x8x30, .f32⟩
  | 43 => ⟨S16384x8x1, .f32⟩
  | 44 => ⟨S16384x8, .f32⟩
  | 45 => ⟨S_, .f32⟩
  | 46 => ⟨S16384x8, .f32⟩
  | 47 => ⟨S16384x8, .i1⟩
  | 48 => ⟨S16384x8, .f32⟩
  | 49 => ⟨S16384x8, .f32⟩
  | 50 => ⟨S16384x8, .f32⟩
  | 51 => ⟨S_, .i32⟩
  | 52 => ⟨S1, .i32⟩
  | 53 => ⟨S16384x8x30, .f32⟩
  | 54 => ⟨S_, .f32⟩
  | 55 => ⟨S16384x8x2, .f32⟩
  | 56 => ⟨S16384x8x2, .f32⟩
  | 57 => ⟨S_, .i32⟩
  | 58 => ⟨S1, .i32⟩
  | 59 => ⟨S16384x8x30, .f32⟩
  | 60 => ⟨S_, .i32⟩
  | 61 => ⟨S1, .i32⟩
  | 62 => ⟨S16384x8x30, .f32⟩
  | 63 => ⟨S_, .f32⟩
  | 64 => ⟨S16384x8x2, .f32⟩
  | 65 => ⟨S16384x8x2, .f32⟩
  | 66 => ⟨S_, .i32⟩
  | 67 => ⟨S1, .i32⟩
  | 68 => ⟨S16384x8x30, .f32⟩
  | 69 => ⟨S_, .i32⟩
  | 70 => ⟨S1, .i32⟩
  | 71 => ⟨S16384x8x30, .f32⟩
  | 72 => ⟨S16384, .i32⟩
  | 73 => ⟨S16384x1, .i32⟩
  | 74 => ⟨S_, .f32⟩
  | 75 => ⟨S16384x7x7x30, .f32⟩
  | 76 => ⟨S_, .i32⟩
  | 77 => ⟨S16384x1, .i32⟩
  | 78 => ⟨S16384x1, .i1⟩
  | 79 => ⟨S_, .i32⟩
  | 80 => ⟨S16384x1, .i32⟩
  | 81 => ⟨S16384x1, .i32⟩
  | 82 => ⟨S16384x1, .i32⟩
  | 83 => ⟨S_, .i32⟩
  | 84 => ⟨S16384x8, .i32⟩
  | 85 => ⟨S16384x8, .i1⟩
  | 86 => ⟨S_, .i32⟩
  | 87 => ⟨S16384x8, .i32⟩
  | 88 => ⟨S16384x8, .i32⟩
  | 89 => ⟨S16384x8, .i32⟩
  | 90 => ⟨S_, .i32⟩
  | 91 => ⟨S16384x8, .i32⟩
  | 92 => ⟨S16384x8, .i1⟩
  | 93 => ⟨S_, .i32⟩
  | 94 => ⟨S16384x8, .i32⟩
  | 95 => ⟨S16384x8, .i32⟩
  | 96 => ⟨S16384x8, .i32⟩
  | 97 => ⟨S16384x8, .i32⟩
  | 98 => ⟨S16384x8x1, .i32⟩
  | 99 => ⟨S16384x8x1, .i32⟩
  | 100 => ⟨S16384x8x1, .i32⟩
  | 101 => ⟨S16384x8x3, .i32⟩
  | 102 => ⟨S16384x7x7x30, .f32⟩
  | 103 => ⟨S16384x49x30, .f32⟩
  | 104 => ⟨S16384x49x30, .f32⟩
  | 105 => ⟨S802816x30, .f32⟩
  | 106 => ⟨S802816x30, .f32⟩
  | 107 => ⟨S802816x20, .f32⟩
  | 108 => ⟨S802816x1, .f32⟩
  | 109 => ⟨S802816, .f32⟩
  | 110 => ⟨S802816, .i32⟩
  | 111 => ⟨S_, .f32⟩
  | 112 => ⟨S802816, .f32⟩
  | 113 => ⟨S_, .f32⟩
  | 114 => ⟨S802816, .f32⟩
  | 115 => ⟨S802816, .f32⟩
  | 116 => ⟨S802816x1, .f32⟩
  | 117 => ⟨S802816x20, .f32⟩
  | 118 => ⟨S802816x20, .f32⟩
  | 119 => ⟨S802816x20, .f32⟩
  | 120 => ⟨S_, .f32⟩
  | 121 => ⟨S802816, .f32⟩
  | 122 => ⟨S802816x1, .f32⟩
  | 123 => ⟨S802816x1, .f32⟩
  | 124 => ⟨S802816x20, .f32⟩
  | 125 => ⟨S802816x20, .f32⟩
  | 126 => ⟨S802816x1, .i32⟩
  | 127 => ⟨S_, .i32⟩
  | _ => ⟨S16384x1470, .f32⟩

abbrev hbmTy0_1 (i : Nat) : BufTy := match i % 128 with
  | 0 => ⟨S802816x1, .i32⟩
  | 1 => ⟨S802816x1, .i1⟩
  | 2 => ⟨S_, .i32⟩
  | 3 => ⟨S802816x1, .i32⟩
  | 4 => ⟨S802816x1, .i32⟩
  | 5 => ⟨S802816x1, .i32⟩
  | 6 => ⟨S802816x1x1, .i32⟩
  | 7 => ⟨S1, .i32⟩
  | 8 => ⟨S_, .i32⟩
  | 9 => ⟨S802816x1x1, .i32⟩
  | 10 => ⟨S802816x1x1, .i1⟩
  | 11 => ⟨S1x1x1, .i32⟩
  | 12 => ⟨S802816x1x1, .i32⟩
  | 13 => ⟨S802816x1x1, .i1⟩
  | 14 => ⟨S802816x1x1, .i1⟩
  | 15 => ⟨S_, .i1⟩
  | 16 => ⟨S802816x1, .i1⟩
  | 17 => ⟨S802816x1, .f32⟩
  | 18 => ⟨S_, .f32⟩
  | 19 => ⟨S802816x1, .f32⟩
  | 20 => ⟨S802816x1, .f32⟩
  | 21 => ⟨S_, .f32⟩
  | 22 => ⟨S_, .f32⟩
  | 23 => ⟨S_, .f32⟩
  | 24 => ⟨S_, .f32⟩
  | 25 => ⟨S_, .f32⟩
  | 26 => ⟨S802816x1, .f32⟩
  | 27 => ⟨S802816, .f32⟩
  | 28 => ⟨S_, .f32⟩
  | 29 => ⟨S802816, .f32⟩
  | 30 => ⟨S802816, .i1⟩
  | 31 => ⟨S802816, .f32⟩
  | 32 => ⟨S802816x10, .f32⟩
  | 33 => ⟨S802816x2x5, .f32⟩
  | 34 => ⟨S802816x10, .f32⟩
  | 35 => ⟨S802816x2x5, .f32⟩
  | 36 => ⟨S802816x2x2, .f32⟩
  | 37 => ⟨S802816x2x2, .f32⟩
  | 38 => ⟨S802816x2x2, .f32⟩
  | 39 => ⟨S802816x2x2, .f32⟩
  | 40 => ⟨S_, .f32⟩
  | 41 => ⟨S802816, .f32⟩
  | 42 => ⟨S802816x2x2, .f32⟩
  | 43 => ⟨S802816x2x2, .f32⟩
  | 44 => ⟨S802816x2x2, .f32⟩
  | 45 => ⟨S802816x2x2, .f32⟩
  | 46 => ⟨S_, .f32⟩
  | 47 => ⟨S802816, .f32⟩
  | 48 => ⟨S_, .f32⟩
  | 49 => ⟨S_, .f32⟩
  | 50 => ⟨S_, .f32⟩
  | 51 => ⟨S_, .f32⟩
  | 52 => ⟨S802816, .f32⟩
  | 53 => ⟨S_, .f32⟩
  | 54 => ⟨S_, .f32⟩
  | 55 => ⟨S802816, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | _ => ⟨S16384x1470, .f32⟩

abbrev hbmTy (i : Nat) : BufTy := match i / 128 with
  | 0 => hbmTy0_0 i
  | 1 => hbmTy0_1 i
  | _ => ⟨S16384x1470, .f32⟩

abbrev bufTy : (tb : Table) → Fin (tcTables nBuf tb) → BufTy
  | .hbm, ⟨i, _⟩ => hbmTy i
  | _, _ => ⟨S16384x1470, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_c_12 : Ref sig .tc := ⟨.hbm, 66, rfl⟩
abbrev main_v45 : Ref sig .tc := ⟨.hbm, 67, rfl⟩
abbrev main_v46 : Ref sig .tc := ⟨.hbm, 68, rfl⟩
abbrev main_c_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_c_15 : Ref sig .tc := ⟨.hbm, 76, rfl⟩
abbrev main_v52 : Ref sig .tc := ⟨.hbm, 77, rfl⟩
abbrev main_v53 : Ref sig .tc := ⟨.hbm, 78, rfl⟩
abbrev main_c_16 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_17 : Ref sig .tc := ⟨.hbm, 83, rfl⟩
abbrev main_v57 : Ref sig .tc := ⟨.hbm, 84, rfl⟩
abbrev main_v58 : Ref sig .tc := ⟨.hbm, 85, rfl⟩
abbrev main_c_18 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_19 : Ref sig .tc := ⟨.hbm, 90, rfl⟩
abbrev main_v62 : Ref sig .tc := ⟨.hbm, 91, rfl⟩
abbrev main_v63 : Ref sig .tc := ⟨.hbm, 92, rfl⟩
abbrev main_c_20 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_call1_cst : Ref sig .tc := ⟨.hbm, 111, rfl⟩
abbrev main_call1_v0 : Ref sig .tc := ⟨.hbm, 112, rfl⟩
abbrev main_call1_cst_0 : Ref sig .tc := ⟨.hbm, 113, rfl⟩
abbrev main_call1_v1 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_cst_1 : Ref sig .tc := ⟨.hbm, 120, rfl⟩
abbrev main_call1_v7 : Ref sig .tc := ⟨.hbm, 121, rfl⟩
abbrev main_call1_v8 : Ref sig .tc := ⟨.hbm, 122, rfl⟩
abbrev main_call1_v9 : Ref sig .tc := ⟨.hbm, 123, rfl⟩
abbrev main_call1_v10 : Ref sig .tc := ⟨.hbm, 124, rfl⟩
abbrev main_v81 : Ref sig .tc := ⟨.hbm, 125, rfl⟩
abbrev main_v82 : Ref sig .tc := ⟨.hbm, 126, rfl⟩
abbrev main_call2_c : Ref sig .tc := ⟨.hbm, 127, rfl⟩
abbrev main_call2_v0 : Ref sig .tc := ⟨.hbm, 128, rfl⟩
abbrev main_call2_v1 : Ref sig .tc := ⟨.hbm, 129, rfl⟩
abbrev main_call2_c_0 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_v5 : Ref sig .tc := ⟨.hbm, 134, rfl⟩
abbrev main_call2_c_1 : Ref sig .tc := ⟨.hbm, 135, rfl⟩
abbrev main_call2_c_2 : Ref sig .tc := ⟨.hbm, 136, rfl⟩
abbrev main_call2_v6 : Ref sig .tc := ⟨.hbm, 137, rfl⟩
abbrev main_call2_v7 : Ref sig .tc := ⟨.hbm, 138, rfl⟩
abbrev main_call2_v8 : Ref sig .tc := ⟨.hbm, 139, rfl⟩
abbrev main_call2_v9 : Ref sig .tc := ⟨.hbm, 140, rfl⟩
abbrev main_call2_v10 : Ref sig .tc := ⟨.hbm, 141, rfl⟩
abbrev main_call2_v11 : Ref sig .tc := ⟨.hbm, 142, rfl⟩
abbrev main_call2_c_3 : Ref sig .tc := ⟨.hbm, 143, rfl⟩
abbrev main_call2_v12 : Ref sig .tc := ⟨.hbm, 144, rfl⟩
abbrev main_call2_v13 : Ref sig .tc := ⟨.hbm, 145, rfl⟩
abbrev main_call2_cst : Ref sig .tc := ⟨.hbm, 146, rfl⟩
abbrev main_call2_v14 : Ref sig .tc := ⟨.hbm, 147, rfl⟩
abbrev main_v83 : Ref sig .tc := ⟨.hbm, 148, rfl⟩
abbrev main_cst_21 : Ref sig .tc := ⟨.hbm, 149, rfl⟩
abbrev main_v84 : Ref sig .tc := ⟨.hbm, 150, rfl⟩
abbrev main_cst_22 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_cst_23 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_cst_24 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_cst_25 : Ref sig .tc := ⟨.hbm, 174, rfl⟩
abbrev main_v105 : Ref sig .tc := ⟨.hbm, 175, rfl⟩
abbrev main_cst_26 : Ref sig .tc := ⟨.hbm, 176, rfl⟩
abbrev main_v106 : Ref sig .tc := ⟨.hbm, 177, rfl⟩
abbrev main_cst_27 : Ref sig .tc := ⟨.hbm, 178, rfl⟩
abbrev main_v107 : Ref sig .tc := ⟨.hbm, 179, rfl⟩
abbrev main_v108 : Ref sig .tc := ⟨.hbm, 180, rfl⟩
abbrev main_cst_28 : Ref sig .tc := ⟨.hbm, 181, rfl⟩
abbrev main_v109 : Ref sig .tc := ⟨.hbm, 182, rfl⟩
abbrev main_v110 : Ref sig .tc := ⟨.hbm, 183, rfl⟩
abbrev main_cst_29 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_cst_30 : Ref sig .tc := ⟨.hbm, 188, rfl⟩
abbrev main_v114 : Ref sig .tc := ⟨.hbm, 189, rfl⟩
abbrev main_v115 : Ref sig .tc := ⟨.hbm, 190, rfl⟩

abbrev nD : Nat := 1
abbrev τ : Topo := Topo.v7x

variable {F : FTy → Type} [FloatOps F]

class Facts₀ : Prop where
  slices_S16384x8x5_S16384x8x4_0_0_0 : S16384x8x5.Slices ![0, 0, 0] S16384x8x4
  slices_S16384x8x4_S16384x8x2_0_0_2 : S16384x8x4.Slices ![0, 0, 2] S16384x8x2
  slices_S16384x8x4_S16384x8x2_0_0_0 : S16384x8x4.Slices ![0, 0, 0] S16384x8x2
  bcast_S_S16384x8x2 : S_.BroadcastsInDim S16384x8x2 (![] : Fin 0 → Fin S16384x8x2.rank)
  slices_S16384x8x2_S16384x8x1_0_0_0 : S16384x8x2.Slices ![0, 0, 0] S16384x8x1
  shapeCasts_S16384x8x1_S16384x8 : S16384x8x1.ShapeCasts S16384x8
  slices_S16384x8x2_S16384x8x1_0_0_1 : S16384x8x2.Slices ![0, 0, 1] S16384x8x1
  bcast_S_S16384x8x30 : S_.BroadcastsInDim S16384x8x30 (![] : Fin 0 → Fin S16384x8x30.rank)
  bcast_S_S2 : S_.BroadcastsInDim S2 (![] : Fin 0 → Fin S2.rank)
  bcast_S2_S2x1_0 : S2.BroadcastsInDim S2x1 (![0] : Fin 1 → Fin S2x1.rank)
  slices_S16384x8x5_S16384x8x1_0_0_4 : S16384x8x5.Slices ![0, 0, 4] S16384x8x1
  bcast_S_S16384x8 : S_.BroadcastsInDim S16384x8 (![] : Fin 0 → Fin S16384x8.rank)
  bcast_S_S1 : S_.BroadcastsInDim S1 (![] : Fin 0 → Fin S1.rank)
  bcast_S16384_S16384x1_0 : S16384.BroadcastsInDim S16384x1 (![0] : Fin 1 → Fin S16384x1.rank)
  bcast_S_S16384x7x7x30 : S_.BroadcastsInDim S16384x7x7x30 (![] : Fin 0 → Fin S16384x7x7x30.rank)
  bcast_S_S16384x1 : S_.BroadcastsInDim S16384x1 (![] : Fin 0 → Fin S16384x1.rank)
  bcast_S16384x1_S16384x8_0_1 : S16384x1.BroadcastsInDim S16384x8 (![0, 1] : Fin 2 → Fin S16384x8.rank)
  bcast_S16384x8_S16384x8x1_0_1 : S16384x8.BroadcastsInDim S16384x8x1 (![0, 1] : Fin 2 → Fin S16384x8x1.rank)
  concatenates_S16384x8x1_S16384x8x1_S16384x8x1_S16384x8x3_d2 : Shape.Concatenates [S16384x8x1, S16384x8x1, S16384x8x1] S16384x8x3 2
  shapeCasts_S16384x7x7x30_S16384x49x30 : S16384x7x7x30.ShapeCasts S16384x49x30
  shapeCasts_S16384x1470_S16384x49x30 : S16384x1470.ShapeCasts S16384x49x30
  shapeCasts_S16384x49x30_S802816x30 : S16384x49x30.ShapeCasts S802816x30
  slices_S802816x30_S802816x20_0_10 : S802816x30.Slices ![0, 10] S802816x20
  slices_S802816x30_S802816x1_0_10 : S802816x30.Slices ![0, 10] S802816x1
  shapeCasts_S802816x1_S802816 : S802816x1.ShapeCasts S802816
  reducesTo_S802816x20_S802816_d1 : S802816x20.ReducesTo [1] S802816
  h_S_ : 0 < S_.numel
  bcast_S_S802816 : S_.BroadcastsInDim S802816 (![] : Fin 0 → Fin S802816.rank)
  bcast_S802816_S802816x1_0 : S802816.BroadcastsInDim S802816x1 (![0] : Fin 1 → Fin S802816x1.rank)
  bcast_S802816x1_S802816x20_0_1 : S802816x1.BroadcastsInDim S802816x20 (![0, 1] : Fin 2 → Fin S802816x20.rank)
  bcast_S_S802816x1 : S_.BroadcastsInDim S802816x1 (![] : Fin 0 → Fin S802816x1.rank)
  shapeCasts_S802816x1_S802816x1x1 : S802816x1.ShapeCasts S802816x1x1
  bcast_S_S802816x1x1 : S_.BroadcastsInDim S802816x1x1 (![] : Fin 0 → Fin S802816x1x1.rank)
  bcast_S1_S1x1x1_2 : S1.BroadcastsInDim S1x1x1 (![2] : Fin 1 → Fin S1x1x1.rank)
  bcast_S1x1x1_S802816x1x1_0_1_2 : S1x1x1.BroadcastsInDim S802816x1x1 (![0, 1, 2] : Fin 3 → Fin S802816x1x1.rank)
  reducesTo_S802816x1x1_S802816x1_d2 : S802816x1x1.ReducesTo [2] S802816x1
  reducesTo_S802816x1_S_d0_1 : S802816x1.ReducesTo [0, 1] S_
  slices_S802816x30_S802816x10_0_0 : S802816x30.Slices ![0, 0] S802816x10
  shapeCasts_S802816x10_S802816x2x5 : S802816x10.ShapeCasts S802816x2x5
  slices_S802816x2x5_S802816x2x2_0_0_0 : S802816x2x5.Slices ![0, 0, 0] S802816x2x2
  reducesTo_S802816x2x2_S802816_d1_2 : S802816x2x2.ReducesTo [1, 2] S802816
  slices_S802816x2x5_S802816x2x2_0_0_2 : S802816x2x5.Slices ![0, 0, 2] S802816x2x2
  reducesTo_S802816_S_d0 : S802816.ReducesTo [0] S_
  scatter_S16384x8x30_S2x1_S16384x8x2_01_2_2_1_wf : ScatterDims.WF S16384x8x30 S2x1 S16384x8x2 [0, 1] [2] [2] 1
  scatter_S16384x8x30_S1_S16384x8_01_2_2_0_wf : ScatterDims.WF S16384x8x30 S1 S16384x8 [0, 1] [2] [2] 0
  scatter_S16384x8x30_S1_S16384x8x2_012_n_2_0_wf : ScatterDims.WF S16384x8x30 S1 S16384x8x2 [0, 1, 2] [] [2] 0
  scatter_S16384x7x7x30_S16384x8x3_S16384x8x30_2_012_012_2_wf : ScatterDims.WF S16384x7x7x30 S16384x8x3 S16384x8x30 [2] [0, 1, 2] [0, 1, 2] 2
  gather_S802816x20_S802816x1x1_S802816x1_n_1_0_0_1_2_11_wf : GatherDims.WF S802816x20 S802816x1x1 S802816x1 [] [1] [0] [1] [0] 2 ![1, 1]

variable [Facts₀]

def scatter_S16384x8x30_S2x1_S16384x8x2_01_2_2_1 : ScatterDims S16384x8x30 S2x1 S16384x8x2 where
  updateWindowDims := [0, 1]
  insertedWindowDims := [2]
  scatterDimsToOperandDims := [2]
  indexVectorDim := 1
  wf := scatter_S16384x8x30_S2x1_S16384x8x2_01_2_2_1_wf
def scatter_S16384x8x30_S1_S16384x8_01_2_2_0 : ScatterDims S16384x8x30 S1 S16384x8 where
  updateWindowDims := [0, 1]
  insertedWindowDims := [2]
  scatterDimsToOperandDims := [2]
  indexVectorDim := 0
  wf := scatter_S16384x8x30_S1_S16384x8_01_2_2_0_wf
def scatter_S16384x8x30_S1_S16384x8x2_012_n_2_0 : ScatterDims S16384x8x30 S1 S16384x8x2 where
  updateWindowDims := [0, 1, 2]
  insertedWindowDims := []
  scatterDimsToOperandDims := [2]
  indexVectorDim := 0
  wf := scatter_S16384x8x30_S1_S16384x8x2_012_n_2_0_wf
def scatter_S16384x7x7x30_S16384x8x3_S16384x8x30_2_012_012_2 : ScatterDims S16384x7x7x30 S16384x8x3 S16384x8x30 where
  updateWindowDims := [2]
  insertedWindowDims := [0, 1, 2]
  scatterDimsToOperandDims := [0, 1, 2]
  indexVectorDim := 2
  wf := scatter_S16384x7x7x30_S16384x8x3_S16384x8x30_2_012_012_2_wf
def gather_S802816x20_S802816x1x1_S802816x1_n_1_0_0_1_2_11 : GatherDims S802816x20 S802816x1x1 S802816x1 where
  offsetDims := []
  collapsedSliceDims := [1]
  operandBatchingDims := [0]
  startIndicesBatchingDims := [0]
  startIndexMap := [1]
  indexVectorDim := 2
  sliceSizes := ![1, 1]
  wf := gather_S802816x20_S802816x1x1_S802816x1_n_1_0_0_1_2_11_wf

class Facts : Prop extends Facts₀ where

variable [Facts]
-- ==== Proof.BitsKit.lean ====
/-
  The launch side of the kernel's frame, for any float instance. @main is three stretches of host operations
  (the box encode: slices, the cell index, seven scatters, two reshapes), the pallas region over 64 grid points,
  and one reshape of the region's 1x1 result to a scalar. Here: the buffers' contents when the region is entered
  (the fold of the host operations before it over the launch memory), @main read as "region continued by the
  reshape", and the three facts the launch theorem asks of the reshape: it touches only unscoped TensorCore
  buffers, allocates nothing, and writes none of the region's three arrays.
-/
import proofs.«142171_j11467562680721_2_alg».proof.Proof.Gen.Kernel.Launch
import proofs.«142171_j11467562680721_2_alg».proof.Proof.Gen.Kernel.Skeleton
import proofs.«142171_j11467562680721_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the region, stretch by stretch. -/
abbrev before : List (List (HloOp τ sig (Elt F))) := [hostOps0, hostOps0_1, hostOps0_2]

/-- Core c's TensorCore buffers when the region is entered: the host operations before it folded over the launch memory. -/
abbrev V0 (c : Dev nD) : Valuation τ sig (Elt F) := StableHlo.after (List.flatten (before (F := F))) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the closing reshape: so it is the region
    entered at `V` and continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The closing reshape touches unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes the scalar result only, which is none of the region's arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

end Cert.Kernel.Hand

end
-- ==== Proof.BitsCases.lean ====
/-
  The kernel body's two branch conditions over the 64 grid points, and what they mean for the output window.
  The first branch (zero the three accumulators) is taken exactly at point 0; the second (combine the
  accumulators into the loss and store it) exactly at point 63. The 1x1 output window is stored into only at
  point 63, where it is also written back; at every other point it is idle and handed back untouched. The three
  accumulators are whole scoped buffers of the kernel's own, owned by the class invariant between points.
-/
import proofs.«142171_j11467562680721_2_alg».proof.Proof.BitsKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the coordinate. -/
abbrev isFirst (i : grid0.Coords) : Prop :=
  (Scalar.cmpi .ne (Scalar.extui (Scalar.cmpi .eq (BitVec.ofNat 32 (i 0).val) 0#32)) 0#32) = 1#1
/-- "This is the last grid point", as the body computes it. -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 63 :=
  (by decide +kernel : ∀ t : Fin grid0.N, isLast (grid0.coords t) ↔ t.val = 63)

/-- The two input windows are live at every point. -/
theorem live0 : ∀ t : Fin cfg0.N, cfg0.idle 0 (grid0.coords t) = false := by decide +kernel
theorem live1 : ∀ t : Fin cfg0.N, cfg0.idle 1 (grid0.coords t) = false := by decide +kernel
/-- The output window is idle, and not written back, at every point but the last. -/
theorem idle2 : ∀ t : Fin cfg0.N, ¬isLast (grid0.coords t) → cfg0.idle 2 (grid0.coords t) = true := by decide +kernel
theorem noFlush2 : ∀ t : Fin cfg0.N, ¬isLast (grid0.coords t) → (cfg0.win 2).flush t = false := by decide +kernel
theorem live2 : ∀ t : Fin cfg0.N, isLast (grid0.coords t) → cfg0.idle 2 (grid0.coords t) = false := by decide +kernel

/-- Each window's current staging memref at point t, as the pipeline passes it to the body. -/
abbrev stg0 (t : Fin cfg0.N) : Memref sig .tc .vmem S12544x30 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S12544x30 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1x1 .f32 := win0_2.stage (cfg0.slots t 2)
abbrev hstg2 (t : Fin cfg0.N) : (stg2 t).IsWhole := hstage0_2 ((cfg0.slots t 2).cast nbuf0_2)
/-- The three accumulators. -/
abbrev acc0 : Memref sig .tc .vmem S1x1 .f32 := Memref.whole cc0_scratch0
abbrev acc1 : Memref sig .tc .vmem S1x1 .f32 := Memref.whole cc0_scratch1
abbrev acc2 : Memref sig .tc .vmem S1x1 .f32 := Memref.whole cc0_scratch2

/-- The class invariant opened: the three accumulators each owned whole at some contents, and the generator register. -/
theorem PhiA_open (c : Dev nD) :
    (Pipeline.ΦA spec0 c : sProp 𝕄)
      = iprop(iprop((∃ d, owns (c : Thread nD τ) acc0 fullShare d) ∗ (∃ d, owns (c : Thread nD τ) acc1 fullShare d) ∗ (∃ d, owns (c : Thread nD τ) acc2 fullShare d)) ∗ (∃ r, prngReg c r)) := by
  unfold Pipeline.ΦA; rw [scopedRest0_eq]; simp only [acc0, acc1, acc2, owns_whole]; try rfl

end Cert.Kernel.Hand

end
-- ==== Proof.LibWholeStore.lean ====
import Idealize.ShloMosaic.Lib.Pipeline.FrameBody
import Idealize.ShloMosaic.Lib.Pipeline.Frame
import Idealize.ShloMosaic.Lib.Pipeline.Value

/-!
# A whole buffer after a last store through its whole rectangle

A kernel that keeps a running value in a small scratch buffer loads the buffer whole and stores it whole. After
such a store the buffer's contents are the stored value, whatever it held before and whatever was stored
earlier: the last piece covers every index. Stated for a memref that is a whole buffer, as ownership at the
stored value; and the matching fact for a whole-rectangle load of plain contents.
-/

noncomputable section

namespace Cert.WholeStore

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {Val : EltTy → Type} [∀ e, Nonempty (Val e)] {S : Shape} {e : EltTy}

/-- What the view of a buffer reads after a list of stores whose LAST one (the head) goes through the whole
    rectangle at zero offsets: that store's value. -/
theorem read_after_whole_store {sig : RefSig} {κ : Kind} {sp : Space} (v : View sig κ sp S e) (f : v.ty.Contents Val)
    {off : Fin S.rank → Nat} (hz : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero hz inb y⟩),
    View.canon_cons_unit_zero hz inb w L]

/-- A whole-rectangle load at zero offsets of plain contents reads them. -/
theorem readAt_whole {sig : RefSig} {κ : Kind} {sp : Space} (v : View sig κ sp S e) (f : v.ty.Contents Val)
    {off : Fin S.rank → Nat} (hz : off = fun _ => 0) (inb : ∀ a, off a + S.size a ≤ S.size a) :
    v.readAt Val (Rect.unit off S.size inb).toLoadRect f = v.read Val f := by
  rw [View.readAt_eq_ld, View.ld_unit_zero hz inb]

end Cert.WholeStore

end
-- ==== Proof.BitsRunDefs.lean ====
/-
  One grid point of the loss kernel's body, run on whole staging buffers, in each of the three cases of its two
  branches. Write p, q for the prediction and target blocks (12544 rows of 30) and a0, a1, a2 for what the
  three 1x1 accumulators hold when the point starts. Every point adds the block's terms: a0 gets minus the sum
  of the selected log-probabilities, a1 the number of object rows, a2 the masked squared box error. The first
  point zeroes the accumulators first; the last point then stores the loss, a function of the three updated
  accumulators, into the 1x1 output block. The inputs are handed back as they were; at a point that is not the
  last the output block is not touched.
-/
import proofs.«142171_j11467562680721_2_alg».proof.Proof.BitsCases
import proofs.«142171_j11467562680721_2_alg».proof.Proof.LibWholeStore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first accumulator after a point: its old value plus minus the block's sum of selected log-probabilities. -/
def upd0 (p q : Vec F S12544x30 .f32) (a0 : Vec F S1x1 .f32) : Vec F S1x1 .f32 := k0_pay17 (k0_pay8 p q) a0
/-- The second: its old value plus the block's count of object rows. -/
def upd1 (q : Vec F S12544x30 .f32) (a1 : Vec F S1x1 .f32) : Vec F S1x1 .f32 := k0_pay18 (k0_pay9 q) a1
/-- The third: its old value plus the block's masked squared box error. -/
def upd2 (p q : Vec F S12544x30 .f32) (a2 : Vec F S1x1 .f32) : Vec F S1x1 .f32 :=
  k0_pay19 (k0_pay9 q) (k0_pay10 p) (k0_pay11 q) (k0_pay12 p) (k0_pay13 q) (k0_pay14 p) (k0_pay15 q) (k0_pay16 p q) a2
/-- The loss from the three accumulators: a0 / N + 5 * (a2 / (4 * a1)). -/
def lossOf (a0 a1 a2 : Vec F S1x1 .f32) : Vec F S1x1 .f32 := k0_pay1 a0 a1 a2

theorem zero11 : (![0, 0] : Fin S1x1.rank → Nat) = fun _ => 0 := by funext a; fin_cases a <;> rfl
theorem zero30 : (![0, 0] : Fin S12544x30.rank → Nat) = fun _ => 0 := by funext a; fin_cases a <;> rfl

/-- A whole-block load of a 1x1 buffer, or of a 12544x30 block, at plain contents reads them. -/
theorem readAt11 {sig' : RefSig} {κ : Kind} {sp : Space} (v : View sig' κ sp S1x1 .f32) (f : v.ty.Contents (Elt F))
    (inb : ∀ a, (![0, 0] : Fin S1x1.rank → Nat) a + S1x1.size a ≤ S1x1.size a) :
    v.readAt (Elt F) (Rect.unit (s := S1x1) ![0, 0] S1x1.size inb).toLoadRect f = v.read (Elt F) f :=
  Cert.WholeStore.readAt_whole v f zero11 inb
theorem readAt30 {sig' : RefSig} {κ : Kind} {sp : Space} (v : View sig' κ sp S12544x30 .f32) (f : v.ty.Contents (Elt F))
    (inb : ∀ a, (![0, 0] : Fin S12544x30.rank → Nat) a + S12544x30.size a ≤ S12544x30.size a) :
    v.readAt (Elt F) (Rect.unit (s := S12544x30) ![0, 0] S12544x30.size inb).toLoadRect f = v.read (Elt F) f :=
  Cert.WholeStore.readAt_whole v f zero30 inb
/-- A 1x1 buffer after stores the last of which is whole holds that store's value. -/
theorem stored11 {sig' : RefSig} {κ : Kind} {sp : Space} (v : View sig' κ sp S1x1 .f32) (f : v.ty.Contents (Elt F))
    (inb : ∀ a, (![0, 0] : Fin S1x1.rank → Nat) a + S1x1.size a ≤ S1x1.size a) (w : Vec F S1x1 .f32) (L : List (View.Piece (Elt F) S1x1 .f32)) :
    v.read (Elt F) (v.writes (Elt F) f ((⟨Rect.unit (s := S1x1) ![0, 0] S1x1.size inb, w⟩ : View.Piece (Elt F) S1x1 .f32) :: L)) = w :=
  Cert.WholeStore.read_after_whole_store v f zero11 inb w L

/-- A whole load of a 1x1 buffer after ONE whole store reads that store's value. -/
theorem readCov11 {sig' : RefSig} {κ : Kind} {sp : Space} (v : View sig' κ sp S1x1 .f32)
    (inb : ∀ a, (![0, 0] : Fin S1x1.rank → Nat) a + S1x1.size a ≤ S1x1.size a) (w : Vec F S1x1 .f32) :
    v.readCov [(⟨Rect.unit (s := S1x1) ![0, 0] S1x1.size inb, w⟩ : View.Piece (Elt F) S1x1 .f32)] (Rect.unit (s := S1x1) ![0, 0] S1x1.size inb).toLoadRect = w :=
  View.readCov_unit_zero v zero11 inb w

end Cert.Kernel.Hand

end
-- ==== Proof.BitsRunMid.lean ====
/-
  The loss kernel's body at one grid point, neither first nor last: what it leaves in the accumulators and the output block,
  on whole staging buffers at given contents.
-/
import proofs.«142171_j11467562680721_2_alg».proof.Proof.BitsRunDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- A point that is neither first nor last: the three accumulators are updated, nothing else changes. -/
theorem run_mid (c : Dev nD) (i : grid0.Coords)
    (arg1 : Memref sig .tc .vmem S12544x30 .f32) (harg1 : arg1.IsWhole) (arg2 : Memref sig .tc .vmem S12544x30 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hF : ¬isFirst i) (hL : ¬isLast i)
    (p q : Vec F S12544x30 .f32) (x3 a0 a1 a2 : Vec F S1x1 .f32) (E : Set ℕ) (K : PUnit → sProp 𝕄) :
    iprop(owns (c : Thread nD τ) arg1 fullShare p ∗ owns (c : Thread nD τ) arg2 fullShare q ∗ owns (c : Thread nD τ) arg3 fullShare x3
        ∗ owns (c : Thread nD τ) arg4 fullShare a0 ∗ owns (c : Thread nD τ) arg5 fullShare a1 ∗ owns (c : Thread nD τ) arg6 fullShare a2
        ∗ (iprop(owns (c : Thread nD τ) arg1 fullShare p ∗ owns (c : Thread nD τ) arg2 fullShare q ∗ owns (c : Thread nD τ) arg3 fullShare (x3)
            ∗ owns (c : Thread nD τ) arg4 fullShare (upd0 p q a0) ∗ owns (c : Thread nD τ) arg5 fullShare (upd1 q a1)
            ∗ owns (c : Thread nD τ) arg6 fullShare (upd2 p q a2)) -∗ K ⟨⟩))
      ⊢ wp frame (wpE (defs₀ (F := F)) Variants.none c none) E (cc0__loss_kernel i arg1 harg1 arg2 harg2 arg3 harg3 arg4 harg4 arg5 harg5 arg6 harg6) K := by
  simp only [cc0__loss_kernel_eq_skeleton]; unfold cc0__loss_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hF | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    (try unfold lossOf); (try unfold upd0); (try unfold upd1); (try unfold upd2)
    repeat (first | rw [stored11] | rw [readCov11] | rw [readAt30] | rw [readAt11] | rw [Memref.IsWhole.read_unread])
  isplitl [H5]
  · iexists _; isplitr
    swap; · iexact H5
    ipureintro
    sl_unfold_run_names
    (try unfold lossOf); (try unfold upd0); (try unfold upd1); (try unfold upd2)
    repeat (first | rw [stored11] | rw [readCov11] | rw [readAt30] | rw [readAt11] | rw [Memref.IsWhole.read_unread])
  · iexists _; isplitr
    swap; · iexact H6
    ipureintro
    sl_unfold_run_names
    (try unfold lossOf); (try unfold upd0); (try unfold upd1); (try unfold upd2)
    repeat (first | rw [stored11] | rw [readCov11] | rw [readAt30] | rw [readAt11] | rw [Memref.IsWhole.read_unread])

end Cert.Kernel.Hand

end
-- ==== Proof.BitsRunFirst.lean ====
/-
  The loss kernel's body at one grid point, the first: what it leaves in the accumulators and the output block,
  on whole staging buffers at given contents.
-/
import proofs.«142171_j11467562680721_2_alg».proof.Proof.BitsRunDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The first point: the accumulators are zeroed, then updated; what they held before does not matter. -/
theorem run_first (c : Dev nD) (i : grid0.Coords)
    (arg1 : Memref sig .tc .vmem S12544x30 .f32) (harg1 : arg1.IsWhole) (arg2 : Memref sig .tc .vmem S12544x30 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hF : isFirst i) (hL : ¬isLast i)
    (p q : Vec F S12544x30 .f32) (x3 a0 a1 a2 : Vec F S1x1 .f32) (E : Set ℕ) (K : PUnit → sProp 𝕄) :
    iprop(owns (c : Thread nD τ) arg1 fullShare p ∗ owns (c : Thread nD τ) arg2 fullShare q ∗ owns (c : Thread nD τ) arg3 fullShare x3
        ∗ owns (c : Thread nD τ) arg4 fullShare a0 ∗ owns (c : Thread nD τ) arg5 fullShare a1 ∗ owns (c : Thread nD τ) arg6 fullShare a2
        ∗ (iprop(owns (c : Thread nD τ) arg1 fullShare p ∗ owns (c : Thread nD τ) arg2 fullShare q ∗ owns (c : Thread nD τ) arg3 fullShare (x3)
            ∗ owns (c : Thread nD τ) arg4 fullShare (upd0 p q k0_pay2) ∗ owns (c : Thread nD τ) arg5 fullShare (upd1 q k0_pay3)
            ∗ owns (c : Thread nD τ) arg6 fullShare (upd2 p q k0_pay4)) -∗ K ⟨⟩))
      ⊢ wp frame (wpE (defs₀ (F := F)) Variants.none c none) E (cc0__loss_kernel i arg1 harg1 arg2 harg2 arg3 harg3 arg4 harg4 arg5 harg5 arg6 harg6) K := by
  simp only [cc0__loss_kernel_eq_skeleton]; unfold cc0__loss_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hF | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    (try unfold lossOf); (try unfold upd0); (try unfold upd1); (try unfold upd2)
    repeat (first | rw [stored11] | rw [readCov11] | rw [readAt30] | rw [readAt11] | rw [Memref.IsWhole.read_unread])
  isplitl [H5]
  · iexists _; isplitr
    swap; · iexact H5
    ipureintro
    sl_unfold_run_names
    (try unfold lossOf); (try unfold upd0); (try unfold upd1); (try unfold upd2)
    repeat (first | rw [stored11] | rw [readCov11] | rw [readAt30] | rw [readAt11] | rw [Memref.IsWhole.read_unread])
  · iexists _; isplitr
    swap; · iexact H6
    ipureintro
    sl_unfold_run_names
    (try unfold lossOf); (try unfold upd0); (try unfold upd1); (try unfold upd2)
    repeat (first | rw [stored11] | rw [readCov11] | rw [readAt30] | rw [readAt11] | rw [Memref.IsWhole.read_unread])

end Cert.Kernel.Hand

end
-- ==== Proof.BitsRunLast.lean ====
/-
  The loss kernel's body at one grid point, the last: what it leaves in the accumulators and the output block,
  on whole staging buffers at given contents.
-/
import proofs.«142171_j11467562680721_2_alg».proof.Proof.BitsRunDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The last point: the accumulators are updated, and the loss of the updated accumulators is stored into the output block. -/
theorem run_last (c : Dev nD) (i : grid0.Coords)
    (arg1 : Memref sig .tc .vmem S12544x30 .f32) (harg1 : arg1.IsWhole) (arg2 : Memref sig .tc .vmem S12544x30 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hF : ¬isFirst i) (hL : isLast i)
    (p q : Vec F S12544x30 .f32) (x3 a0 a1 a2 : Vec F S1x1 .f32) (E : Set ℕ) (K : PUnit → sProp 𝕄) :
    iprop(owns (c : Thread nD τ) arg1 fullShare p ∗ owns (c : Thread nD τ) arg2 fullShare q ∗ owns (c : Thread nD τ) arg3 fullShare x3
        ∗ owns (c : Thread nD τ) arg4 fullShare a0 ∗ owns (c : Thread nD τ) arg5 fullShare a1 ∗ owns (c : Thread nD τ) arg6 fullShare a2
        ∗ (iprop(owns (c : Thread nD τ) arg1 fullShare p ∗ owns (c : Thread nD τ) arg2 fullShare q ∗ owns (c : Thread nD τ) arg3 fullShare (lossOf (upd0 p q a0) (upd1 q a1) (upd2 p q a2))
            ∗ owns (c : Thread nD τ) arg4 fullShare (upd0 p q a0) ∗ owns (c : Thread nD τ) arg5 fullShare (upd1 q a1)
            ∗ owns (c : Thread nD τ) arg6 fullShare (upd2 p q a2)) -∗ K ⟨⟩))
      ⊢ wp frame (wpE (defs₀ (F := F)) Variants.none c none) E (cc0__loss_kernel i arg1 harg1 arg2 harg2 arg3 harg3 arg4 harg4 arg5 harg5 arg6 harg6) K := by
  simp only [cc0__loss_kernel_eq_skeleton]; unfold cc0__loss_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hF | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_run_names
    (try unfold lossOf); (try unfold upd0); (try unfold upd1); (try unfold upd2)
    repeat (first | rw [stored11] | rw [readCov11] | rw [readAt30] | rw [readAt11] | rw [Memref.IsWhole.read_unread])
  isplitl [H4]
  · iexists _; isplitr
    swap; · iexact H4
    ipureintro
    sl_unfold_run_names
    (try unfold lossOf); (try unfold upd0); (try unfold upd1); (try unfold upd2)
    repeat (first | rw [stored11] | rw [readCov11] | rw [readAt30] | rw [readAt11] | rw [Memref.IsWhole.read_unread])
  isplitl [H5]
  · iexists _; isplitr
    swap; · iexact H5
    ipureintro
    sl_unfold_run_names
    (try unfold lossOf); (try unfold upd0); (try unfold upd1); (try unfold upd2)
    repeat (first | rw [stored11] | rw [readCov11] | rw [readAt30] | rw [readAt11] | rw [Memref.IsWhole.read_unread])
  · iexists _; isplitr
    swap; · iexact H6
    ipureintro
    sl_unfold_run_names
    (try unfold lossOf); (try unfold upd0); (try unfold upd1); (try unfold upd2)
    repeat (first | rw [stored11] | rw [readCov11] | rw [readAt30] | rw [readAt11] | rw [Memref.IsWhole.read_unread])

end Cert.Kernel.Hand

end
-- ==== Proof.BitsData.lean ====
/-
  The proof data of the one pipeline. The two input windows walk the prediction and target arrays block by block
  (point t reads rows 12544 t .. 12544 t + 12543); the three accumulators after point n hold the sums over blocks
  0..n of minus the selected log-probabilities, of the object count, and of the masked squared box error; the
  output block after the last point holds the loss of those totals. Between points the class invariant owns the
  three accumulators at exactly these contents.
-/
import proofs.«142171_j11467562680721_2_alg».proof.Proof.BitsRunMid
import proofs.«142171_j11467562680721_2_alg».proof.Proof.BitsRunFirst
import proofs.«142171_j11467562680721_2_alg».proof.Proof.BitsRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three accumulators after point n: zeroed before point 0, then one update per block. -/
def accs (c : Dev nD) : (n : ℕ) → n < cfg0.N → Vec F S1x1 .f32 × Vec F S1x1 .f32 × Vec F S1x1 .f32
  | 0, h => (upd0 (iblk m c 0 ⟨0, h⟩) (iblk m c 1 ⟨0, h⟩) k0_pay2, upd1 (iblk m c 1 ⟨0, h⟩) k0_pay3,
      upd2 (iblk m c 0 ⟨0, h⟩) (iblk m c 1 ⟨0, h⟩) k0_pay4)
  | n + 1, h => (upd0 (iblk m c 0 ⟨n + 1, h⟩) (iblk m c 1 ⟨n + 1, h⟩) (accs c n (Nat.lt_of_succ_lt h)).1,
      upd1 (iblk m c 1 ⟨n + 1, h⟩) (accs c n (Nat.lt_of_succ_lt h)).2.1,
      upd2 (iblk m c 0 ⟨n + 1, h⟩) (iblk m c 1 ⟨n + 1, h⟩) (accs c n (Nat.lt_of_succ_lt h)).2.2)

theorem accs_zero (c : Dev nD) (h : 0 < cfg0.N) : accs m c 0 h = (upd0 (iblk m c 0 ⟨0, h⟩) (iblk m c 1 ⟨0, h⟩) k0_pay2, upd1 (iblk m c 1 ⟨0, h⟩) k0_pay3,
      upd2 (iblk m c 0 ⟨0, h⟩) (iblk m c 1 ⟨0, h⟩) k0_pay4) := rfl
theorem accs_succ (c : Dev nD) (n : ℕ) (h : n + 1 < cfg0.N) : accs m c (n + 1) h =
    (upd0 (iblk m c 0 ⟨n + 1, h⟩) (iblk m c 1 ⟨n + 1, h⟩) (accs m c n (Nat.lt_of_succ_lt h)).1,
      upd1 (iblk m c 1 ⟨n + 1, h⟩) (accs m c n (Nat.lt_of_succ_lt h)).2.1,
      upd2 (iblk m c 0 ⟨n + 1, h⟩) (iblk m c 1 ⟨n + 1, h⟩) (accs m c n (Nat.lt_of_succ_lt h)).2.2) := rfl

/-- The invariant before point n: the class's own before the first point; afterwards the three accumulators at
    what the point before left, and the generator register. -/
def PhiS (c : Dev nD) : (n : ℕ) → n ≤ cfg0.N → sProp 𝕄
  | 0, _ => Pipeline.ΦA spec0 c
  | n + 1, h => iprop(iprop(owns (c : Thread nD τ) acc0 fullShare (accs m c n h).1 ∗ owns (c : Thread nD τ) acc1 fullShare (accs m c n h).2.1
      ∗ owns (c : Thread nD τ) acc2 fullShare (accs m c n h).2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) acc0 fullShare (accs m c n hn).1 ∗ owns (c : Thread nD τ) acc1 fullShare (accs m c n hn).2.1
      ∗ owns (c : Thread nD τ) acc2 fullShare (accs m c n hn).2.2) ∗ (∃ r, prngReg c r)) := rfl
theorem PhiS_pos (c : Dev nD) (n : ℕ) (h : n ≤ cfg0.N) (hz : n ≠ 0) :
    PhiS m c n h = iprop(iprop(owns (c : Thread nD τ) acc0 fullShare (accs m c (n - 1) (by omega)).1 ∗ owns (c : Thread nD τ) acc1 fullShare (accs m c (n - 1) (by omega)).2.1
      ∗ owns (c : Thread nD τ) acc2 fullShare (accs m c (n - 1) (by omega)).2.2) ∗ (∃ r, prngReg c r)) := by
  cases n with
  | zero => exact absurd rfl hz
  | succ n => rfl

/-- The proof data: the arrays as the region finds them; after the body each input's buffer at its block and the
    output's at the loss of the accumulators so far (consulted at the last point only: elsewhere the window is idle);
    the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => lossOf (accs m c t.val t.isLt).1 (accs m c t.val t.isLt).2.1 (accs m c t.val t.isLt).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t
    = lossOf (accs m c t.val t.isLt).1 (accs m c t.val t.isLt).2.1 (accs m c t.val t.isLt).2.2 := by dsimp only [dats]

/-- Each input's staging buffer holds its block when the body starts: both inputs are fetched at every point. -/
theorem before0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)

end Cert.Kernel.Hand

end
-- ==== Proof.BitsFrame.lean ====
/-
  The body obligation of the pipeline and the frame run. At every grid point the body is handed the two input
  blocks, the output block at whatever it holds, and the invariant's accumulators; by the point's case it
  hands back the inputs as they were, the accumulators one update further, and the output block untouched, or
  at the last point holding the loss. So every weakly fair execution of @main terminates without a fault, the
  region's arrays end where the proof data says and every other buffer where the closing reshape leaves it.
-/
import proofs.«142171_j11467562680721_2_alg».proof.Proof.BitsData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  have hN : t.val < 64 := lt_of_lt_of_eq t.isLt (show cfg0.N = 64 from N_0)
  by_cases h0 : t.val = 0
  ·
      have hF : isFirst (grid0.coords t) := (isFirst_iff t).mpr h0
      have hL : ¬isLast (grid0.coords t) := fun h => by have := (isLast_iff t).mp h; omega
      rw [Dat.leavesExact_idle (dats m 0 c) 2 t (idle2 t hL) (noFlush2 t hL)]
      have ha : accs m c t.val t.isLt = (upd0 (iblk m c 0 t) (iblk m c 1 t) k0_pay2, upd1 (iblk m c 1 t) k0_pay3, upd2 (iblk m c 0 t) (iblk m c 1 t) k0_pay4) := by
        obtain ⟨n, hn⟩ := t; simp only at h0; subst h0; rfl
      rw [ha]
      rw [PhiS_castSucc m c t, PhiS_zero m c _ _ h0, PhiA_open]
      iintro ⟨⟨⟨⟨%d0, HS0⟩, ⟨%d1, HS1⟩, ⟨%d2, HS2⟩⟩, Hg⟩, Ho, ⟨%e0, H0⟩, ⟨%e1, H1⟩, ⟨%e2, H2⟩⟩
      iapply (run_first c (grid0.coords t) _ _ _ _ _ _ _ _ _ _ _ _ hF hL (iblk m c 0 t) (iblk m c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      iexists _; iexact H2
  · by_cases h63 : t.val = 63
    ·
        have hF : ¬isFirst (grid0.coords t) := fun h => h0 ((isFirst_iff t).mp h)
        have hL : isLast (grid0.coords t) := (isLast_iff t).mpr h63
        rw [show (dats m 0 c).leavesExact 2 t = owns (c : Thread nD τ) (stg2 t) fullShare ((dats m 0 c).after 2 t) from by
          unfold Dat.leavesExact; rw [live2 t hL], after2]
        have ha : accs m c t.val t.isLt = (upd0 (iblk m c 0 t) (iblk m c 1 t) (accs m c (t.val - 1) (by omega)).1, upd1 (iblk m c 1 t) (accs m c (t.val - 1) (by omega)).2.1,
            upd2 (iblk m c 0 t) (iblk m c 1 t) (accs m c (t.val - 1) (by omega)).2.2) := by
          obtain ⟨n, hn⟩ := t
          cases n with
          | zero => exact absurd rfl h0
          | succ k => rfl
        rw [ha]
        rw [PhiS_castSucc m c t, PhiS_pos m c _ _ h0]
        iintro ⟨⟨⟨HS0, HS1, HS2⟩, Hg⟩, Ho, ⟨%e0, H0⟩, ⟨%e1, H1⟩, ⟨%e2, H2⟩⟩
        iapply (run_last c (grid0.coords t) _ _ _ _ _ _ _ _ _ _ _ _ hF hL (iblk m c 0 t) (iblk m c 1 t) _ _ _ _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        iexact H2
    ·
        have hF : ¬isFirst (grid0.coords t) := fun h => h0 ((isFirst_iff t).mp h)
        have hL : ¬isLast (grid0.coords t) := fun h => h63 ((isLast_iff t).mp h)
        rw [Dat.leavesExact_idle (dats m 0 c) 2 t (idle2 t hL) (noFlush2 t hL)]
        have ha : accs m c t.val t.isLt = (upd0 (iblk m c 0 t) (iblk m c 1 t) (accs m c (t.val - 1) (by omega)).1, upd1 (iblk m c 1 t) (accs m c (t.val - 1) (by omega)).2.1,
            upd2 (iblk m c 0 t) (iblk m c 1 t) (accs m c (t.val - 1) (by omega)).2.2) := by
          obtain ⟨n, hn⟩ := t
          cases n with
          | zero => exact absurd rfl h0
          | succ k => rfl
        rw [ha]
        rw [PhiS_castSucc m c t, PhiS_pos m c _ _ h0]
        iintro ⟨⟨⟨HS0, HS1, HS2⟩, Hg⟩, Ho, ⟨%e0, H0⟩, ⟨%e1, H1⟩, ⟨%e2, H2⟩⟩
        iapply (run_mid c (grid0.coords t) _ _ _ _ _ _ _ _ _ _ _ _ hF hL (iblk m c 0 t) (iblk m c 1 t) _ _ _ _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's own back: the accumulators' contents are forgotten. -/
theorem hout (c : Dev nD) : (dats m 0 c).Φ (Fin.last cfg0.N) ⊢ Pipeline.ΦA spec0 c := by
  have hN : cfg0.N = 64 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_open]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- From any memory with zero counters every weakly fair execution of @main on the TensorCores terminates, and
    every final state has the region's arrays where the proof data says and every other unscoped buffer as the
    closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

end Cert.Kernel.Hand

end
-- ==== Proof.BitsArgs.lean ====
/-
  The frame of the kernel's program: its two argument arrays end as they were launched. Neither is an array of
  the region (the region reads the reshaped prediction and the encoded target, and writes its own 1x1 result), the
  closing reshape writes only the scalar result, and none of the host operations before the region writes an
  argument: each writes its own result buffer.
-/
import proofs.«142171_j11467562680721_2_alg».proof.Proof.BitsFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 4000000 in
/-- No host operation before the region writes the prediction argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 4000000 in
/-- Nor the labels argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- A buffer that is no array of the region and that the closing reshape does not write is, after the run, what
    the region found. -/
theorem tail_keeps_buffer (c : Dev nD) (b : Ref sig .tc) (hb : ∀ w, Pipeline.arrRef spec0 w ≠ b) (hr : b ≠ main_v78) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne hr))]
  exact Pipeline.withArrays_of_ne spec0 c (V0 m c) _ b hb

theorem arg0_rest : main_arg0 ∈ Pipeline.restRefs sig spec0 :=
  Pipeline.mem_restRefs_of main_arg0 rfl (fun w => by fin_cases w <;> decide)
theorem arg1_rest : main_arg1 ∈ Pipeline.restRefs sig spec0 :=
  Pipeline.mem_restRefs_of main_arg1 rfl (fun w => by fin_cases w <;> decide)

/-- THE FRAME: every weakly fair execution of @main terminates without a fault and leaves both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_arg0 arg0_rest).trans ((tail_keeps_buffer m c main_arg0 (fun w => by fin_cases w <;> decide) (by decide)).trans (V_main_arg0 m c)),
     ((h c).2 main_arg1 arg1_rest).trans ((tail_keeps_buffer m c main_arg1 (fun w => by fin_cases w <;> decide) (by decide)).trans (V_main_arg1 m c))⟩)
    (run_main m ρ)

end Cert.Kernel.Hand

end
-- ==== Proof.IdealKit.lean ====
/-
  The launch side of the kernel's frame, for any float instance. @main is three stretches of host operations
  (the box encode: slices, the cell index, seven scatters, two reshapes), the pallas region over 64 grid points,
  and one reshape of the region's 1x1 result to a scalar. Here: the buffers' contents when the region is entered
  (the fold of the host operations before it over the launch memory), @main read as "region continued by the
  reshape", and the three facts the launch theorem asks of the reshape: it touches only unscoped TensorCore
  buffers, allocates nothing, and writes none of the region's three arrays.
-/
import proofs.«142171_j11467562680721_2_alg».proof.Proof.Gen.KernelIdeal.Launch
import proofs.«142171_j11467562680721_2_alg».proof.Proof.Gen.KernelIdeal.Skeleton
import proofs.«142171_j11467562680721_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the region, stretch by stretch. -/
abbrev before : List (List (HloOp τ sig (Elt F))) := [hostOps0, hostOps0_1, hostOps0_2]

/-- Core c's TensorCore buffers when the region is entered: the host operations before it folded over the launch memory. -/
abbrev V0 (c : Dev nD) : Valuation τ sig (Elt F) := StableHlo.after (List.flatten (before (F := F))) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the closing reshape: so it is the region
    entered at `V` and continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The closing reshape touches unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes the scalar result only, which is none of the region's arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

end Cert.KernelIdeal.Hand

end
-- ==== Proof.IdealCases.lean ====
/-
  The kernel body's two branch conditions over the 64 grid points, and what they mean for the output window.
  The first branch (zero the three accumulators) is taken exactly at point 0; the second (combine the
  accumulators into the loss and store it) exactly at point 63. The 1x1 output window is stored into only at
  point 63, where it is also written back; at every other point it is idle and handed back untouched. The three
  accumulators are whole scoped buffers of the kernel's own, owned by the class invariant between points.
-/
import proofs.«142171_j11467562680721_2_alg».proof.Proof.IdealKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first grid point", as the body computes it from the coordinate. -/
abbrev isFirst (i : grid0.Coords) : Prop :=
  (Scalar.cmpi .ne (Scalar.extui (Scalar.cmpi .eq (BitVec.ofNat 32 (i 0).val) 0#32)) 0#32) = 1#1
/-- "This is the last grid point", as the body computes it. -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 63 :=
  (by decide +kernel : ∀ t : Fin grid0.N, isLast (grid0.coords t) ↔ t.val = 63)

/-- The two input windows are live at every point. -/
theorem live0 : ∀ t : Fin cfg0.N, cfg0.idle 0 (grid0.coords t) = false := by decide +kernel
theorem live1 : ∀ t : Fin cfg0.N, cfg0.idle 1 (grid0.coords t) = false := by decide +kernel
/-- The output window is idle, and not written back, at every point but the last. -/
theorem idle2 : ∀ t : Fin cfg0.N, ¬isLast (grid0.coords t) → cfg0.idle 2 (grid0.coords t) = true := by decide +kernel
theorem noFlush2 : ∀ t : Fin cfg0.N, ¬isLast (grid0.coords t) → (cfg0.win 2).flush t = false := by decide +kernel
theorem live2 : ∀ t : Fin cfg0.N, isLast (grid0.coords t) → cfg0.idle 2 (grid0.coords t) = false := by decide +kernel

/-- Each window's current staging memref at point t, as the pipeline passes it to the body. -/
abbrev stg0 (t : Fin cfg0.N) : Memref sig .tc .vmem S12544x30 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S12544x30 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S1x1 .f32 := win0_2.stage (cfg0.slots t 2)
abbrev hstg2 (t : Fin cfg0.N) : (stg2 t).IsWhole := hstage0_2 ((cfg0.slots t 2).cast nbuf0_2)
/-- The three accumulators. -/
abbrev acc0 : Memref sig .tc .vmem S1x1 .f32 := Memref.whole cc0_scratch0
abbrev acc1 : Memref sig .tc .vmem S1x1 .f32 := Memref.whole cc0_scratch1
abbrev acc2 : Memref sig .tc .vmem S1x1 .f32 := Memref.whole cc0_scratch2

/-- The class invariant opened: the three accumulators each owned whole at some contents, and the generator register. -/
theorem PhiA_open (c : Dev nD) :
    (Pipeline.ΦA spec0 c : sProp 𝕄)
      = iprop(iprop((∃ d, owns (c : Thread nD τ) acc0 fullShare d) ∗ (∃ d, owns (c : Thread nD τ) acc1 fullShare d) ∗ (∃ d, owns (c : Thread nD τ) acc2 fullShare d)) ∗ (∃ r, prngReg c r)) := by
  unfold Pipeline.ΦA; rw [scopedRest0_eq]; simp only [acc0, acc1, acc2, owns_whole]; try rfl

end Cert.KernelIdeal.Hand

end
-- ==== Proof.IdealRunDefs.lean ====
/-
  One grid point of the loss kernel's body, run on whole staging buffers, in each of the three cases of its two
  branches. Write p, q for the prediction and target blocks (12544 rows of 30) and a0, a1, a2 for what the
  three 1x1 accumulators hold when the point starts. Every point adds the block's terms: a0 gets minus the sum
  of the selected log-probabilities, a1 the number of object rows, a2 the masked squared box error. The first
  point zeroes the accumulators first; the last point then stores the loss, a function of the three updated
  accumulators, into the 1x1 output block. The inputs are handed back as they were; at a point that is not the
  last the output block is not touched.
-/
import proofs.«142171_j11467562680721_2_alg».proof.Proof.IdealCases
import proofs.«142171_j11467562680721_2_alg».proof.Proof.LibWholeStore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first accumulator after a point: its old value plus minus the block's sum of selected log-probabilities. -/
def upd0 (p q : Vec F S12544x30 .f32) (a0 : Vec F S1x1 .f32) : Vec F S1x1 .f32 := k0_pay17 (k0_pay8 p q) a0
/-- The second: its old value plus the block's count of object rows. -/
def upd1 (q : Vec F S12544x30 .f32) (a1 : Vec F S1x1 .f32) : Vec F S1x1 .f32 := k0_pay18 (k0_pay9 q) a1
/-- The third: its old value plus the block's masked squared box error. -/
def upd2 (p q : Vec F S12544x30 .f32) (a2 : Vec F S1x1 .f32) : Vec F S1x1 .f32 :=
  k0_pay19 (k0_pay9 q) (k0_pay10 p) (k0_pay11 q) (k0_pay12 p) (k0_pay13 q) (k0_pay14 p) (k0_pay15 q) (k0_pay16 p q) a2
/-- The loss from the three accumulators: a0 / N + 5 * (a2 / (4 * a1)). -/
def lossOf (a0 a1 a2 : Vec F S1x1 .f32) : Vec F S1x1 .f32 := k0_pay1 a0 a1 a2

theorem zero11 : (![0, 0] : Fin S1x1.rank → Nat) = fun _ => 0 := by funext a; fin_cases a <;> rfl
theorem zero30 : (![0, 0] : Fin S12544x30.rank → Nat) = fun _ => 0 := by funext a; fin_cases a <;> rfl

/-- A whole-block load of a 1x1 buffer, or of a 12544x30 block, at plain contents reads them. -/
theorem readAt11 {sig' : RefSig} {κ : Kind} {sp : Space} (v : View sig' κ sp S1x1 .f32) (f : v.ty.Contents (Elt F))
    (inb : ∀ a, (![0, 0] : Fin S1x1.rank → Nat) a + S1x1.size a ≤ S1x1.size a) :
    v.readAt (Elt F) (Rect.unit (s := S1x1) ![0, 0] S1x1.size inb).toLoadRect f = v.read (Elt F) f :=
  Cert.WholeStore.readAt_whole v f zero11 inb
theorem readAt30 {sig' : RefSig} {κ : Kind} {sp : Space} (v : View sig' κ sp S12544x30 .f32) (f : v.ty.Contents (Elt F))
    (inb : ∀ a, (![0, 0] : Fin S12544x30.rank → Nat) a + S12544x30.size a ≤ S12544x30.size a) :
    v.readAt (Elt F) (Rect.unit (s := S12544x30) ![0, 0] S12544x30.size inb).toLoadRect f = v.read (Elt F) f :=
  Cert.WholeStore.readAt_whole v f zero30 inb
/-- A 1x1 buffer after stores the last of which is whole holds that store's value. -/
theorem stored11 {sig' : RefSig} {κ : Kind} {sp : Space} (v : View sig' κ sp S1x1 .f32) (f : v.ty.Contents (Elt F))
    (inb : ∀ a, (![0, 0] : Fin S1x1.rank → Nat) a + S1x1.size a ≤ S1x1.size a) (w : Vec F S1x1 .f32) (L : List (View.Piece (Elt F) S1x1 .f32)) :
    v.read (Elt F) (v.writes (Elt F) f ((⟨Rect.unit (s := S1x1) ![0, 0] S1x1.size inb, w⟩ : View.Piece (Elt F) S1x1 .f32) :: L)) = w :=
  Cert.WholeStore.read_after_whole_store v f zero11 inb w L

/-- A whole load of a 1x1 buffer after ONE whole store reads that store's value. -/
theorem readCov11 {sig' : RefSig} {κ : Kind} {sp : Space} (v : View sig' κ sp S1x1 .f32)
    (inb : ∀ a, (![0, 0] : Fin S1x1.rank → Nat) a + S1x1.size a ≤ S1x1.size a) (w : Vec F S1x1 .f32) :
    v.readCov [(⟨Rect.unit (s := S1x1) ![0, 0] S1x1.size inb, w⟩ : View.Piece (Elt F) S1x1 .f32)] (Rect.unit (s := S1x1) ![0, 0] S1x1.size inb).toLoadRect = w :=
  View.readCov_unit_zero v zero11 inb w

end Cert.KernelIdeal.Hand

end
-- ==== Proof.IdealRunMid.lean ====
/-
  The loss kernel's body at one grid point, neither first nor last: what it leaves in the accumulators and the output block,
  on whole staging buffers at given contents.
-/
import proofs.«142171_j11467562680721_2_alg».proof.Proof.IdealRunDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- A point that is neither first nor last: the three accumulators are updated, nothing else changes. -/
theorem run_mid (c : Dev nD) (i : grid0.Coords)
    (arg1 : Memref sig .tc .vmem S12544x30 .f32) (harg1 : arg1.IsWhole) (arg2 : Memref sig .tc .vmem S12544x30 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hF : ¬isFirst i) (hL : ¬isLast i)
    (p q : Vec F S12544x30 .f32) (x3 a0 a1 a2 : Vec F S1x1 .f32) (E : Set ℕ) (K : PUnit → sProp 𝕄) :
    iprop(owns (c : Thread nD τ) arg1 fullShare p ∗ owns (c : Thread nD τ) arg2 fullShare q ∗ owns (c : Thread nD τ) arg3 fullShare x3
        ∗ owns (c : Thread nD τ) arg4 fullShare a0 ∗ owns (c : Thread nD τ) arg5 fullShare a1 ∗ owns (c : Thread nD τ) arg6 fullShare a2
        ∗ (iprop(owns (c : Thread nD τ) arg1 fullShare p ∗ owns (c : Thread nD τ) arg2 fullShare q ∗ owns (c : Thread nD τ) arg3 fullShare (x3)
            ∗ owns (c : Thread nD τ) arg4 fullShare (upd0 p q a0) ∗ owns (c : Thread nD τ) arg5 fullShare (upd1 q a1)
            ∗ owns (c : Thread nD τ) arg6 fullShare (upd2 p q a2)) -∗ K ⟨⟩))
      ⊢ wp frame (wpE (defs₀ (F := F)) Variants.none c none) E (cc0__loss_kernel i arg1 harg1 arg2 harg2 arg3 harg3 arg4 harg4 arg5 harg5 arg6 harg6) K := by
  simp only [cc0__loss_kernel_eq_skeleton]; unfold cc0__loss_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hF | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    (try unfold lossOf); (try unfold upd0); (try unfold upd1); (try unfold upd2)
    repeat (first | rw [stored11] | rw [readCov11] | rw [readAt30] | rw [readAt11] | rw [Memref.IsWhole.read_unread])
  isplitl [H5]
  · iexists _; isplitr
    swap; · iexact H5
    ipureintro
    sl_unfold_run_names
    (try unfold lossOf); (try unfold upd0); (try unfold upd1); (try unfold upd2)
    repeat (first | rw [stored11] | rw [readCov11] | rw [readAt30] | rw [readAt11] | rw [Memref.IsWhole.read_unread])
  · iexists _; isplitr
    swap; · iexact H6
    ipureintro
    sl_unfold_run_names
    (try unfold lossOf); (try unfold upd0); (try unfold upd1); (try unfold upd2)
    repeat (first | rw [stored11] | rw [readCov11] | rw [readAt30] | rw [readAt11] | rw [Memref.IsWhole.read_unread])

end Cert.KernelIdeal.Hand

end
-- ==== Proof.IdealRunFirst.lean ====
/-
  The loss kernel's body at one grid point, the first: what it leaves in the accumulators and the output block,
  on whole staging buffers at given contents.
-/
import proofs.«142171_j11467562680721_2_alg».proof.Proof.IdealRunDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The first point: the accumulators are zeroed, then updated; what they held before does not matter. -/
theorem run_first (c : Dev nD) (i : grid0.Coords)
    (arg1 : Memref sig .tc .vmem S12544x30 .f32) (harg1 : arg1.IsWhole) (arg2 : Memref sig .tc .vmem S12544x30 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hF : isFirst i) (hL : ¬isLast i)
    (p q : Vec F S12544x30 .f32) (x3 a0 a1 a2 : Vec F S1x1 .f32) (E : Set ℕ) (K : PUnit → sProp 𝕄) :
    iprop(owns (c : Thread nD τ) arg1 fullShare p ∗ owns (c : Thread nD τ) arg2 fullShare q ∗ owns (c : Thread nD τ) arg3 fullShare x3
        ∗ owns (c : Thread nD τ) arg4 fullShare a0 ∗ owns (c : Thread nD τ) arg5 fullShare a1 ∗ owns (c : Thread nD τ) arg6 fullShare a2
        ∗ (iprop(owns (c : Thread nD τ) arg1 fullShare p ∗ owns (c : Thread nD τ) arg2 fullShare q ∗ owns (c : Thread nD τ) arg3 fullShare (x3)
            ∗ owns (c : Thread nD τ) arg4 fullShare (upd0 p q k0_pay2) ∗ owns (c : Thread nD τ) arg5 fullShare (upd1 q k0_pay3)
            ∗ owns (c : Thread nD τ) arg6 fullShare (upd2 p q k0_pay4)) -∗ K ⟨⟩))
      ⊢ wp frame (wpE (defs₀ (F := F)) Variants.none c none) E (cc0__loss_kernel i arg1 harg1 arg2 harg2 arg3 harg3 arg4 harg4 arg5 harg5 arg6 harg6) K := by
  simp only [cc0__loss_kernel_eq_skeleton]; unfold cc0__loss_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hF | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    (try unfold lossOf); (try unfold upd0); (try unfold upd1); (try unfold upd2)
    repeat (first | rw [stored11] | rw [readCov11] | rw [readAt30] | rw [readAt11] | rw [Memref.IsWhole.read_unread])
  isplitl [H5]
  · iexists _; isplitr
    swap; · iexact H5
    ipureintro
    sl_unfold_run_names
    (try unfold lossOf); (try unfold upd0); (try unfold upd1); (try unfold upd2)
    repeat (first | rw [stored11] | rw [readCov11] | rw [readAt30] | rw [readAt11] | rw [Memref.IsWhole.read_unread])
  · iexists _; isplitr
    swap; · iexact H6
    ipureintro
    sl_unfold_run_names
    (try unfold lossOf); (try unfold upd0); (try unfold upd1); (try unfold upd2)
    repeat (first | rw [stored11] | rw [readCov11] | rw [readAt30] | rw [readAt11] | rw [Memref.IsWhole.read_unread])

end Cert.KernelIdeal.Hand

end
-- ==== Proof.IdealRunLast.lean ====
/-
  The loss kernel's body at one grid point, the last: what it leaves in the accumulators and the output block,
  on whole staging buffers at given contents.
-/
import proofs.«142171_j11467562680721_2_alg».proof.Proof.IdealRunDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The last point: the accumulators are updated, and the loss of the updated accumulators is stored into the output block. -/
theorem run_last (c : Dev nD) (i : grid0.Coords)
    (arg1 : Memref sig .tc .vmem S12544x30 .f32) (harg1 : arg1.IsWhole) (arg2 : Memref sig .tc .vmem S12544x30 .f32) (harg2 : arg2.IsWhole)
    (arg3 : Memref sig .tc .vmem S1x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (hF : ¬isFirst i) (hL : isLast i)
    (p q : Vec F S12544x30 .f32) (x3 a0 a1 a2 : Vec F S1x1 .f32) (E : Set ℕ) (K : PUnit → sProp 𝕄) :
    iprop(owns (c : Thread nD τ) arg1 fullShare p ∗ owns (c : Thread nD τ) arg2 fullShare q ∗ owns (c : Thread nD τ) arg3 fullShare x3
        ∗ owns (c : Thread nD τ) arg4 fullShare a0 ∗ owns (c : Thread nD τ) arg5 fullShare a1 ∗ owns (c : Thread nD τ) arg6 fullShare a2
        ∗ (iprop(owns (c : Thread nD τ) arg1 fullShare p ∗ owns (c : Thread nD τ) arg2 fullShare q ∗ owns (c : Thread nD τ) arg3 fullShare (lossOf (upd0 p q a0) (upd1 q a1) (upd2 p q a2))
            ∗ owns (c : Thread nD τ) arg4 fullShare (upd0 p q a0) ∗ owns (c : Thread nD τ) arg5 fullShare (upd1 q a1)
            ∗ owns (c : Thread nD τ) arg6 fullShare (upd2 p q a2)) -∗ K ⟨⟩))
      ⊢ wp frame (wpE (defs₀ (F := F)) Variants.none c none) E (cc0__loss_kernel i arg1 harg1 arg2 harg2 arg3 harg3 arg4 harg4 arg5 harg5 arg6 harg6) K := by
  simp only [cc0__loss_kernel_eq_skeleton]; unfold cc0__loss_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hF | exact hL)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_run_names
    (try unfold lossOf); (try unfold upd0); (try unfold upd1); (try unfold upd2)
    repeat (first | rw [stored11] | rw [readCov11] | rw [readAt30] | rw [readAt11] | rw [Memref.IsWhole.read_unread])
  isplitl [H4]
  · iexists _; isplitr
    swap; · iexact H4
    ipureintro
    sl_unfold_run_names
    (try unfold lossOf); (try unfold upd0); (try unfold upd1); (try unfold upd2)
    repeat (first | rw [stored11] | rw [readCov11] | rw [readAt30] | rw [readAt11] | rw [Memref.IsWhole.read_unread])
  isplitl [H5]
  · iexists _; isplitr
    swap; · iexact H5
    ipureintro
    sl_unfold_run_names
    (try unfold lossOf); (try unfold upd0); (try unfold upd1); (try unfold upd2)
    repeat (first | rw [stored11] | rw [readCov11] | rw [readAt30] | rw [readAt11] | rw [Memref.IsWhole.read_unread])
  · iexists _; isplitr
    swap; · iexact H6
    ipureintro
    sl_unfold_run_names
    (try unfold lossOf); (try unfold upd0); (try unfold upd1); (try unfold upd2)
    repeat (first | rw [stored11] | rw [readCov11] | rw [readAt30] | rw [readAt11] | rw [Memref.IsWhole.read_unread])

end Cert.KernelIdeal.Hand

end
-- ==== Proof.IdealData.lean ====
/-
  The proof data of the one pipeline. The two input windows walk the prediction and target arrays block by block
  (point t reads rows 12544 t .. 12544 t + 12543); the three accumulators after point n hold the sums over blocks
  0..n of minus the selected log-probabilities, of the object count, and of the masked squared box error; the
  output block after the last point holds the loss of those totals. Between points the class invariant owns the
  three accumulators at exactly these contents.
-/
import proofs.«142171_j11467562680721_2_alg».proof.Proof.IdealRunMid
import proofs.«142171_j11467562680721_2_alg».proof.Proof.IdealRunFirst
import proofs.«142171_j11467562680721_2_alg».proof.Proof.IdealRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three accumulators after point n: zeroed before point 0, then one update per block. -/
def accs (c : Dev nD) : (n : ℕ) → n < cfg0.N → Vec F S1x1 .f32 × Vec F S1x1 .f32 × Vec F S1x1 .f32
  | 0, h => (upd0 (iblk m c 0 ⟨0, h⟩) (iblk m c 1 ⟨0, h⟩) k0_pay2, upd1 (iblk m c 1 ⟨0, h⟩) k0_pay3,
      upd2 (iblk m c 0 ⟨0, h⟩) (iblk m c 1 ⟨0, h⟩) k0_pay4)
  | n + 1, h => (upd0 (iblk m c 0 ⟨n + 1, h⟩) (iblk m c 1 ⟨n + 1, h⟩) (accs c n (Nat.lt_of_succ_lt h)).1,
      upd1 (iblk m c 1 ⟨n + 1, h⟩) (accs c n (Nat.lt_of_succ_lt h)).2.1,
      upd2 (iblk m c 0 ⟨n + 1, h⟩) (iblk m c 1 ⟨n + 1, h⟩) (accs c n (Nat.lt_of_succ_lt h)).2.2)

theorem accs_zero (c : Dev nD) (h : 0 < cfg0.N) : accs m c 0 h = (upd0 (iblk m c 0 ⟨0, h⟩) (iblk m c 1 ⟨0, h⟩) k0_pay2, upd1 (iblk m c 1 ⟨0, h⟩) k0_pay3,
      upd2 (iblk m c 0 ⟨0, h⟩) (iblk m c 1 ⟨0, h⟩) k0_pay4) := rfl
theorem accs_succ (c : Dev nD) (n : ℕ) (h : n + 1 < cfg0.N) : accs m c (n + 1) h =
    (upd0 (iblk m c 0 ⟨n + 1, h⟩) (iblk m c 1 ⟨n + 1, h⟩) (accs m c n (Nat.lt_of_succ_lt h)).1,
      upd1 (iblk m c 1 ⟨n + 1, h⟩) (accs m c n (Nat.lt_of_succ_lt h)).2.1,
      upd2 (iblk m c 0 ⟨n + 1, h⟩) (iblk m c 1 ⟨n + 1, h⟩) (accs m c n (Nat.lt_of_succ_lt h)).2.2) := rfl

/-- The invariant before point n: the class's own before the first point; afterwards the three accumulators at
    what the point before left, and the generator register. -/
def PhiS (c : Dev nD) : (n : ℕ) → n ≤ cfg0.N → sProp 𝕄
  | 0, _ => Pipeline.ΦA spec0 c
  | n + 1, h => iprop(iprop(owns (c : Thread nD τ) acc0 fullShare (accs m c n h).1 ∗ owns (c : Thread nD τ) acc1 fullShare (accs m c n h).2.1
      ∗ owns (c : Thread nD τ) acc2 fullShare (accs m c n h).2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) acc0 fullShare (accs m c n hn).1 ∗ owns (c : Thread nD τ) acc1 fullShare (accs m c n hn).2.1
      ∗ owns (c : Thread nD τ) acc2 fullShare (accs m c n hn).2.2) ∗ (∃ r, prngReg c r)) := rfl
theorem PhiS_pos (c : Dev nD) (n : ℕ) (h : n ≤ cfg0.N) (hz : n ≠ 0) :
    PhiS m c n h = iprop(iprop(owns (c : Thread nD τ) acc0 fullShare (accs m c (n - 1) (by omega)).1 ∗ owns (c : Thread nD τ) acc1 fullShare (accs m c (n - 1) (by omega)).2.1
      ∗ owns (c : Thread nD τ) acc2 fullShare (accs m c (n - 1) (by omega)).2.2) ∗ (∃ r, prngReg c r)) := by
  cases n with
  | zero => exact absurd rfl hz
  | succ n => rfl

/-- The proof data: the arrays as the region finds them; after the body each input's buffer at its block and the
    output's at the loss of the accumulators so far (consulted at the last point only: elsewhere the window is idle);
    the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => lossOf (accs m c t.val t.isLt).1 (accs m c t.val t.isLt).2.1 (accs m c t.val t.isLt).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t
    = lossOf (accs m c t.val t.isLt).1 (accs m c t.val t.isLt).2.1 (accs m c t.val t.isLt).2.2 := by dsimp only [dats]

/-- Each input's staging buffer holds its block when the body starts: both inputs are fetched at every point. -/
theorem before0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
theorem before1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)

end Cert.KernelIdeal.Hand

end
-- ==== Proof.IdealFrame.lean ====
/-
  The body obligation of the pipeline and the frame run. At every grid point the body is handed the two input
  blocks, the output block at whatever it holds, and the invariant's accumulators; by the point's case it
  hands back the inputs as they were, the accumulators one update further, and the output block untouched, or
  at the last point holding the loss. So every weakly fair execution of @main terminates without a fault, the
  region's arrays end where the proof data says and every other buffer where the closing reshape leaves it.
-/
import proofs.«142171_j11467562680721_2_alg».proof.Proof.IdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  have hN : t.val < 64 := lt_of_lt_of_eq t.isLt (show cfg0.N = 64 from N_0)
  by_cases h0 : t.val = 0
  ·
      have hF : isFirst (grid0.coords t) := (isFirst_iff t).mpr h0
      have hL : ¬isLast (grid0.coords t) := fun h => by have := (isLast_iff t).mp h; omega
      rw [Dat.leavesExact_idle (dats m 0 c) 2 t (idle2 t hL) (noFlush2 t hL)]
      have ha : accs m c t.val t.isLt = (upd0 (iblk m c 0 t) (iblk m c 1 t) k0_pay2, upd1 (iblk m c 1 t) k0_pay3, upd2 (iblk m c 0 t) (iblk m c 1 t) k0_pay4) := by
        obtain ⟨n, hn⟩ := t; simp only at h0; subst h0; rfl
      rw [ha]
      rw [PhiS_castSucc m c t, PhiS_zero m c _ _ h0, PhiA_open]
      iintro ⟨⟨⟨⟨%d0, HS0⟩, ⟨%d1, HS1⟩, ⟨%d2, HS2⟩⟩, Hg⟩, Ho, ⟨%e0, H0⟩, ⟨%e1, H1⟩, ⟨%e2, H2⟩⟩
      iapply (run_first c (grid0.coords t) _ _ _ _ _ _ _ _ _ _ _ _ hF hL (iblk m c 0 t) (iblk m c 1 t) _ _ _ _ Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      iexists _; iexact H2
  · by_cases h63 : t.val = 63
    ·
        have hF : ¬isFirst (grid0.coords t) := fun h => h0 ((isFirst_iff t).mp h)
        have hL : isLast (grid0.coords t) := (isLast_iff t).mpr h63
        rw [show (dats m 0 c).leavesExact 2 t = owns (c : Thread nD τ) (stg2 t) fullShare ((dats m 0 c).after 2 t) from by
          unfold Dat.leavesExact; rw [live2 t hL], after2]
        have ha : accs m c t.val t.isLt = (upd0 (iblk m c 0 t) (iblk m c 1 t) (accs m c (t.val - 1) (by omega)).1, upd1 (iblk m c 1 t) (accs m c (t.val - 1) (by omega)).2.1,
            upd2 (iblk m c 0 t) (iblk m c 1 t) (accs m c (t.val - 1) (by omega)).2.2) := by
          obtain ⟨n, hn⟩ := t
          cases n with
          | zero => exact absurd rfl h0
          | succ k => rfl
        rw [ha]
        rw [PhiS_castSucc m c t, PhiS_pos m c _ _ h0]
        iintro ⟨⟨⟨HS0, HS1, HS2⟩, Hg⟩, Ho, ⟨%e0, H0⟩, ⟨%e1, H1⟩, ⟨%e2, H2⟩⟩
        iapply (run_last c (grid0.coords t) _ _ _ _ _ _ _ _ _ _ _ _ hF hL (iblk m c 0 t) (iblk m c 1 t) _ _ _ _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        iexact H2
    ·
        have hF : ¬isFirst (grid0.coords t) := fun h => h0 ((isFirst_iff t).mp h)
        have hL : ¬isLast (grid0.coords t) := fun h => h63 ((isLast_iff t).mp h)
        rw [Dat.leavesExact_idle (dats m 0 c) 2 t (idle2 t hL) (noFlush2 t hL)]
        have ha : accs m c t.val t.isLt = (upd0 (iblk m c 0 t) (iblk m c 1 t) (accs m c (t.val - 1) (by omega)).1, upd1 (iblk m c 1 t) (accs m c (t.val - 1) (by omega)).2.1,
            upd2 (iblk m c 0 t) (iblk m c 1 t) (accs m c (t.val - 1) (by omega)).2.2) := by
          obtain ⟨n, hn⟩ := t
          cases n with
          | zero => exact absurd rfl h0
          | succ k => rfl
        rw [ha]
        rw [PhiS_castSucc m c t, PhiS_pos m c _ _ h0]
        iintro ⟨⟨⟨HS0, HS1, HS2⟩, Hg⟩, Ho, ⟨%e0, H0⟩, ⟨%e1, H1⟩, ⟨%e2, H2⟩⟩
        iapply (run_mid c (grid0.coords t) _ _ _ _ _ _ _ _ _ _ _ _ hF hL (iblk m c 0 t) (iblk m c 1 t) _ _ _ _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, HS0, HS1, HS2⟩
        isplitl [HS0 HS1 HS2 Hg]
        · isplitl [HS0 HS1 HS2]
          · isplitl [HS0]; · iexact HS0
            isplitl [HS1]; · iexact HS1
            iexact HS2
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's own back: the accumulators' contents are forgotten. -/
theorem hout (c : Dev nD) : (dats m 0 c).Φ (Fin.last cfg0.N) ⊢ Pipeline.ΦA spec0 c := by
  have hN : cfg0.N = 64 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_open]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- From any memory with zero counters every weakly fair execution of @main on the TensorCores terminates, and
    every final state has the region's arrays where the proof data says and every other unscoped buffer as the
    closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hin := hin m) (hout := hout m)

end Cert.KernelIdeal.Hand

end
-- ==== Proof.IdealArgs.lean ====
/-
  The frame of the kernel's program: its two argument arrays end as they were launched. Neither is an array of
  the region (the region reads the reshaped prediction and the encoded target, and writes its own 1x1 result), the
  closing reshape writes only the scalar result, and none of the host operations before the region writes an
  argument: each writes its own result buffer.
-/
import proofs.«142171_j11467562680721_2_alg».proof.Proof.IdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 4000000 in
/-- No host operation before the region writes the prediction argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [before, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

set_option maxHeartbeats 4000000 in
/-- Nor the labels argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [before, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- A buffer that is no array of the region and that the closing reshape does not write is, after the run, what
    the region found. -/
theorem tail_keeps_buffer (c : Dev nD) (b : Ref sig .tc) (hb : ∀ w, Pipeline.arrRef spec0 w ≠ b) (hr : b ≠ main_v78) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne hr))]
  exact Pipeline.withArrays_of_ne spec0 c (V0 m c) _ b hb

theorem arg0_rest : main_arg0 ∈ Pipeline.restRefs sig spec0 :=
  Pipeline.mem_restRefs_of main_arg0 rfl (fun w => by fin_cases w <;> decide)
theorem arg1_rest : main_arg1 ∈ Pipeline.restRefs sig spec0 :=
  Pipeline.mem_restRefs_of main_arg1 rfl (fun w => by fin_cases w <;> decide)

/-- THE FRAME: every weakly fair execution of @main terminates without a fault and leaves both arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_arg0 arg0_rest).trans ((tail_keeps_buffer m c main_arg0 (fun w => by fin_cases w <;> decide) (by decide)).trans (V_main_arg0 m c)),
     ((h c).2 main_arg1 arg1_rest).trans ((tail_keeps_buffer m c main_arg1 (fun w => by fin_cases w <;> decide) (by decide)).trans (V_main_arg1 m c))⟩)
    (run_main m ρ)

end Cert.KernelIdeal.Hand

end
-- ==== Proof.IdealValue.lean ====
/-
  What the kernel's program returns. The 1x1 output array is written back once, at the last grid point, by a block
  that covers it; so after the run it holds the loss of the three accumulators after point 63, that is, of the
  sums over all 64 blocks. The program's scalar result is that array reshaped.
-/
import proofs.«142171_j11467562680721_2_alg».proof.Proof.IdealArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem last_lt : 63 < cfg0.N := by rw [show cfg0.N = 64 from N_0]; omega

/-- The loss of the accumulators after the last point. -/
def total (c : Dev nD) : Vec F S1x1 .f32 :=
  lossOf (accs m c 63 last_lt).1 (accs m c 63 last_lt).2.1 (accs m c 63 last_lt).2.2

/-- The output window is written back at point 63 only. -/
theorem flush2_iff (t : Fin cfg0.N) : (cfg0.win 2).flush t = true ↔ t.val = 63 := by
  rw [flush0_2 t]
  have : t.val < 64 := lt_of_lt_of_eq t.isLt (show cfg0.N = 64 from N_0)
  omega

/-- The output window's block index is (0, 0) at every point. -/
theorem idx2 : ∀ t : Fin cfg0.N, win0_2.index t (0 : Fin 2) = 0 ∧ win0_2.index t (1 : Fin 2) = 0 :=
  (by decide +kernel : ∀ t : Fin grid0.N, _)

/-- What the flushing point writes back is the (one) block of the total. -/
theorem flushed2_eq (c : Dev nD) (t : Fin cfg0.N) (hf : (cfg0.win 2).flush t = true) :
    (dats m 0 c).flushed 2 t = ((cfg0.win 2).blk t).view.read (Elt F) (total m c) := by
  have ht : t.val = 63 := (flush2_iff t).mp hf
  show (cfg0.win 2).cut (grid0.coords t) ((dats m 0 c).after 2 t) = _
  rw [after2]
  obtain ⟨e0, e1⟩ := idx2 t
  obtain ⟨n, hn⟩ := t
  simp only at ht
  subst ht
  funext j
  show lossOf (accs m c 63 hn).1 (accs m c 63 hn).2.1 (accs m c 63 hn).2.2 j = total m c (((cfg0.win 2).blk ⟨63, hn⟩).view.emb j)
  have he : ((cfg0.win 2).blk ⟨63, hn⟩).view.emb j = j := by
    funext a; apply Fin.ext
    match a with
    | ⟨0, _⟩ => show win0_2.index ⟨63, hn⟩ (0 : Fin 2) * 1 + 1 * (j 0).val = (j 0).val; omega
    | ⟨1, _⟩ => show win0_2.index ⟨63, hn⟩ (1 : Fin 2) * 1 + 1 * (j 1).val = (j 1).val; omega
  rw [he]
  rfl

/-- Every index of the 1x1 array is in the last point's block. -/
theorem cover2 (i : S1x1.Idx) : ∃ t : Fin cfg0.N, (cfg0.win 2).flush t = true ∧ i ∈ ((cfg0.win 2).blk t).view.set := by
  refine ⟨⟨63, last_lt⟩, (flush2_iff _).mpr rfl, ?_⟩
  obtain ⟨e0, e1⟩ := idx2 ⟨63, last_lt⟩
  show i ∈ ((View.whole main_v77).slice (win0_2.rect ⟨63, last_lt⟩)).set
  rw [View.set_slice_whole, Rect.mem_set_unit]
  have h0 : (i 0).val < 1 := (i 0).isLt
  have h1 : (i 1).val < 1 := (i 1).isLt
  intro a
  match a with
  | ⟨0, _⟩ => show win0_2.index ⟨63, last_lt⟩ (0 : Fin 2) * 1 ≤ (i 0).val ∧ (i 0).val < win0_2.index ⟨63, last_lt⟩ (0 : Fin 2) * 1 + 1; omega
  | ⟨1, _⟩ => show win0_2.index ⟨63, last_lt⟩ (1 : Fin 2) * 1 ≤ (i 1).val ∧ (i 1).val < win0_2.index ⟨63, last_lt⟩ (1 : Fin 2) * 1 + 1; omega

/-- The output array after the run. -/
theorem final2 (c : Dev nD) : (dats m 0 c).arrAt 2 cfg0.N = total m c :=
  (dats m 0 c).arrAt_eq_of_cover 2 (total m c) (fun t hf => flushed2_eq m c t hf) cover2

/-- The scalar result after the closing reshape: the total, reshaped from [1, 1] to a scalar. -/
theorem tail_result (c : Dev nD) :
    Pipeline.afterTail₀ cfgs (dats m) 0 (V0 m) [hostOps1] c main_v78
      = shapeCast S_ (total m c) shapeCasts_S1x1_S_ := by
  unfold Pipeline.afterTail₀
  show StableHlo.after hostOps1 _ (Proc.devRef .tc main_v78) = _
  after_results
  rw [Pipeline.withArrays_arr spec0 launch0.win.arr_inj c _ _ 2, final2]
  rfl

theorem res_rest : main_v78 ∈ Pipeline.restRefs sig spec0 :=
  Pipeline.mem_restRefs_of main_v78 rfl (fun w => by fin_cases w <;> decide)

/-- THE RUN, READ: every weakly fair execution of @main terminates without a fault, with the scalar result at the
    reshaped total and both arguments unchanged. -/
theorem run_value : θ_run defs (onTc (τ := τ) (main (F := F))) ⟨m, fun _ => 0, ρ⟩ (fun r => ∀ c : Dev nD,
      r.2.mem ((c.tc : Thread nD τ).loc main_v78) = shapeCast S_ (total m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v78 res_rest).trans (tail_result m c),
     ((h c).2 main_arg0 arg0_rest).trans ((tail_keeps_buffer m c main_arg0 (fun w => by fin_cases w <;> decide) (by decide)).trans (V_main_arg0 m c)),
     ((h c).2 main_arg1 arg1_rest).trans ((tail_keeps_buffer m c main_arg1 (fun w => by fin_cases w <;> decide) (by decide)).trans (V_main_arg1 m c))⟩)
    (run_main m ρ)

end Cert.KernelIdeal.Hand

end
-- ==== Proof.RefOps.lean ====
/- The reference program's 189 operations as lists, in order:
   each printed statement's operation, a called function's operations listed at the call over that call's buffers. -/
import proofs.«142171_j11467562680721_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- 43 operations of @main: operations 1 … 43 of the program, in window 0. -/
abbrev ops0 : List (HloOp τ sig (Elt F)) :=
  [ StableHlo.nullary main_c (fun i => lit0 (S2.rowMajor i)),
    StableHlo.unary main_arg1 main_v0 ((extractStridedSlice S16384x8x4 ![0, 0, 0] · slices_S16384x8x5_S16384x8x4_0_0_0) : (⟨S16384x8x5, .f32⟩ : BufTy).Contents (Elt F) → (⟨S16384x8x4, .f32⟩ : BufTy).Contents (Elt F)),
    StableHlo.unary main_v0 main_v1 ((extractStridedSlice S16384x8x2 ![0, 0, 2] · slices_S16384x8x4_S16384x8x2_0_0_2) : (⟨S16384x8x4, .f32⟩ : BufTy).Contents (Elt F) → (⟨S16384x8x2, .f32⟩ : BufTy).Contents (Elt F)),
    StableHlo.unary main_v0 main_v2 ((extractStridedSlice S16384x8x2 ![0, 0, 0] · slices_S16384x8x4_S16384x8x2_0_0_0) : (⟨S16384x8x4, .f32⟩ : BufTy).Contents (Elt F) → (⟨S16384x8x2, .f32⟩ : BufTy).Contents (Elt F)),
    StableHlo.binary main_v1 main_v2 main_v3 (subf : (⟨S16384x8x2, .f32⟩ : BufTy).Contents (Elt F) → (⟨S16384x8x2, .f32⟩ : BufTy).Contents (Elt F) → (⟨S16384x8x2, .f32⟩ : BufTy).Contents (Elt F)),
    StableHlo.unary main_v0 main_v4 ((extractStridedSlice S16384x8x2 ![0, 0, 2] · slices_S16384x8x4_S16384x8x2_0_0_2) : (⟨S16384x8x4, .f32⟩ : BufTy).Contents (Elt F) → (⟨S16384x8x2, .f32⟩ : BufTy).Contents (Elt F)),
    StableHlo.unary main_v0 main_v5 ((extractStridedSlice S16384x8x2 ![0, 0, 0] · slices_S16384x8x4_S16384x8x2_0_0_0) : (⟨S16384x8x4, .f32⟩ : BufTy).Contents (Elt F) → (⟨S16384x8x2, .f32⟩ : BufTy).Contents (Elt F)),
    StableHlo.binary main_v4 main_v5 main_v6 (addf : (⟨S16384x8x2, .f32⟩ : BufTy).Contents (Elt F) → (⟨S16384x8x2, .f32⟩ : BufTy).Contents (Elt F) → (⟨S16384x8x2, .f32⟩ : BufTy).Contents (Elt F)),
    StableHlo.nullary main_cst (constant S_ .f32 0x3F000000#32),
    StableHlo.unary main_cst main_v7 (broadcastInDim S16384x8x2 ![] bcast_S_S16384x8x2 : (⟨S_, .f32⟩ : BufTy).Contents (Elt F) → (⟨S16384x8x2, .f32⟩ : BufTy).Contents (Elt F)),
    StableHlo.binary main_v6 main_v7 main_v8 (mulf : (⟨S16384x8x2, .f32⟩ : BufTy).Contents (Elt F) → (⟨S16384x8x2, .f32⟩ : BufTy).Contents (Elt F) → (⟨S16384x8x2, .f32⟩ : BufTy).Contents (Elt F)),
    StableHlo.nullary main_cst_0 (constant S_ .f32 0x40E00000#32),
    StableHlo.unary main_cst_0 main_v9 (broadcastInDim S16384x8x2 ![] bcast_S_S16384x8x2 : (⟨S_, .f32⟩ : BufTy).Contents (Elt F) → (⟨S16384x8x2, .f32⟩ : BufTy).Contents (Elt F)),
    StableHlo.binary main_v8 main_v9 main_v10 (mulf : (⟨S16384x8x2, .f32⟩ : BufTy).Contents (Elt F) → (⟨S16384x8x2, .f32⟩ : BufTy).Contents (Elt F) → (⟨S16384x8x2, .f32⟩ : BufTy).Contents (Elt F)),
    StableHlo.unary main_v10 main_v11 (Host.ceil : (⟨S16384x8x2, .f32⟩ : BufTy).Contents (Elt F) → (⟨S16384x8x2, .f32⟩ : BufTy).Contents (Elt F)),
    StableHlo.nullary main_cst_1 (constant S_ .f32 0x3F800000#32),
    StableHlo.unary main_cst_1 main_v12 (broadcastInDim S16384x8x2 ![] bcast_S_S16384x8x2 : (⟨S_, .f32⟩ : BufTy).Contents (Elt F) → (⟨S16384x8x2, .f32⟩ : BufTy).Contents (Elt F)),
    StableHlo.binary main_v11 main_v12 main_v13 (subf : (⟨S16384x8x2, .f32⟩ : BufTy).Contents (Elt F) → (⟨S16384x8x2, .f32⟩ : BufTy).Contents (Elt F) → (⟨S16384x8x2, .f32⟩ : BufTy).Contents (Elt F)),
    StableHlo.nullary main_cst_2 (constant S_ .f32 0x40E00000#32),
    StableHlo.unary main_cst_2 main_v14 (broadcastInDim S16384x8x2 ![] bcast_S_S16384x8x2 : (⟨S_, .f32⟩ : BufTy).Contents (Elt F) → (⟨S16384x8x2, .f32⟩ : BufTy).Contents (Elt F)),
    StableHlo.binary main_v8 main_v14 main_v15 (mulf : (⟨S16384x8x2, .f32⟩ : BufTy).Contents (Elt F) → (⟨S16384x8x2, .f32⟩ : BufTy).Contents (Elt F) → (⟨S16384x8x2, .f32⟩ : BufTy).Contents (Elt F)),
    StableHlo.binary main_v15 main_v13 main_v16 (subf : (⟨S16384x8x2, .f32⟩ : BufTy).Contents (Elt F) → (⟨S16384x8x2, .f32⟩ : BufTy).Contents (Elt F) → (⟨S16384x8x2, .f32⟩ : BufTy).Contents (Elt F)),
    StableHlo.unary main_v13 main_v17 ((extractStridedSlice S16384x8x1 ![0, 0, 0] · slices_S16384x8x2_S16384x8x1_0_0_0) : (⟨S16384x8x2, .f32⟩ : BufTy).Contents (Elt F) → (⟨S16384x8x1, .f32⟩ : BufTy).Contents (Elt F)),
    StableHlo.reshape main_v17 main_v18 rfl shapeCasts_S16384x8x1_S16384x8,
    StableHlo.unary main_v18 main_v19 (fptosi 32 : (⟨S16384x8, .f32⟩ : BufTy).Contents (Elt F) → (⟨S16384x8, .i32⟩ : BufTy).Contents (Elt F)),
    StableHlo.unary main_v13 main_v20 ((extractStridedSlice S16384x8x1 ![0, 0, 1] · slices_S16384x8x2_S16384x8x1_0_0_1) : (⟨S16384x8x2, .f32⟩ : BufTy).Contents (Elt F) → (⟨S16384x8x1, .f32⟩ : BufTy).Contents (Elt F)),
    StableHlo.reshape main_v20 main_v21 rfl shapeCasts_S16384x8x1_S16384x8,
    StableHlo.unary main_v21 main_v22 (fptosi 32 : (⟨S16384x8, .f32⟩ : BufTy).Contents (Elt F) → (⟨S16384x8, .i32⟩ : BufTy).Contents (Elt F)),
    StableHlo.nullary main_cst_3 (constant S_ .f32 0x00000000#32),
    StableHlo.unary main_cst_3 main_v23 (broadcastInDim S16384x8x30 ![] bcast_S_S16384x8x30 : (⟨S_, .f32⟩ : BufTy).Contents (Elt F) → (⟨S16384x8x30, .f32⟩ : BufTy).Contents (Elt F)),
    StableHlo.nullary main_c_4 (constantI S_ 32 0#32),
    StableHlo.unary main_c_4 main_v24 (broadcastInDim S2 ![] bcast_S_S2 : (⟨S_, .i32⟩ : BufTy).Contents (Elt F) → (⟨S2, .i32⟩ : BufTy).Contents (Elt F)),
    StableHlo.binary main_c main_v24 main_v25 (cmpi .slt : (⟨S2, .i32⟩ : BufTy).Contents (Elt F) → (⟨S2, .i32⟩ : BufTy).Contents (Elt F) → (⟨S2, .i1⟩ : BufTy).Contents (Elt F)),
    StableHlo.nullary main_c_5 (constantI S_ 32 30#32),
    StableHlo.unary main_c_5 main_v26 (broadcastInDim S2 ![] bcast_S_S2 : (⟨S_, .i32⟩ : BufTy).Contents (Elt F) → (⟨S2, .i32⟩ : BufTy).Contents (Elt F)),
    StableHlo.binary main_c main_v26 main_v27 (addi : (⟨S2, .i32⟩ : BufTy).Contents (Elt F) → (⟨S2, .i32⟩ : BufTy).Contents (Elt F) → (⟨S2, .i32⟩ : BufTy).Contents (Elt F)),
    StableHlo.ternary main_v25 main_v27 main_c main_v28 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v28 main_v29 (broadcastInDim S2x1 ![0] bcast_S2_S2x1_0 : (⟨S2, .i32⟩ : BufTy).Contents (Elt F) → (⟨S2x1, .i32⟩ : BufTy).Contents (Elt F)),
    StableHlo.nullary main_cst_6 (constant S_ .f32 0x3F800000#32),
    StableHlo.unary main_cst_6 main_v30 (broadcastInDim S16384x8x2 ![] bcast_S_S16384x8x2 : (⟨S_, .f32⟩ : BufTy).Contents (Elt F) → (⟨S16384x8x2, .f32⟩ : BufTy).Contents (Elt F)),
    StableHlo.ternary main_v23 main_v29 main_v30 main_v31 ((fun x i u => Host.scatter scatter_S16384x8x30_S2x1_S16384x8x2_01_2_2_1 (fun _ b => b) x i u) : (⟨S16384x8x30, .f32⟩ : BufTy).Contents (Elt F) → (⟨S2x1, .i32⟩ : BufTy).Contents (Elt F) → (⟨S16384x8x2, .f32⟩ : BufTy).Contents (Elt F) → (⟨S16384x8x30, .f32⟩ : BufTy).Contents (Elt F)),
    StableHlo.unary main_arg1 main_v32 ((extractStridedSlice S16384x8x1 ![0, 0, 4] · slices_S16384x8x5_S16384x8x1_0_0_4) : (⟨S16384x8x5, .f32⟩ : BufTy).Contents (Elt F) → (⟨S16384x8x1, .f32⟩ : BufTy).Contents (Elt F)),
    StableHlo.reshape main_v32 main_v33 rfl shapeCasts_S16384x8x1_S16384x8 ]
/-- Each touches TensorCore references only. -/
theorem ops0_sub : (ops0 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.unary_bufs_sub .., StableHlo.reshape_bufs_sub ..⟩

/-- The 6 operations of the call of @trunc (calls inside it inlined): operations 44 … 49 of the program, in window 0. -/
abbrev ops1 : List (HloOp τ sig (Elt F)) :=
  [ StableHlo.nullary main_call0_cst ((constant S_ .f32 0x00000000#32) : (⟨S_, .f32⟩ : BufTy).Contents (Elt F)),
    StableHlo.unary main_call0_cst main_call0_v0 ((broadcastInDim S16384x8 ![] bcast_S_S16384x8) : (⟨S_, .f32⟩ : BufTy).Contents (Elt F) → (⟨S16384x8, .f32⟩ : BufTy).Contents (Elt F)),
    StableHlo.binary main_v33 main_call0_v0 main_call0_v1 ((cmpf .olt) : (⟨S16384x8, .f32⟩ : BufTy).Contents (Elt F) → (⟨S16384x8, .f32⟩ : BufTy).Contents (Elt F) → (⟨S16384x8, .i1⟩ : BufTy).Contents (Elt F)),
    StableHlo.unary main_v33 main_call0_v2 (Host.ceil : (⟨S16384x8, .f32⟩ : BufTy).Contents (Elt F) → (⟨S16384x8, .f32⟩ : BufTy).Contents (Elt F)),
    StableHlo.unary main_v33 main_call0_v3 (Host.floor : (⟨S16384x8, .f32⟩ : BufTy).Contents (Elt F) → (⟨S16384x8, .f32⟩ : BufTy).Contents (Elt F)),
    StableHlo.ternary main_call0_v1 main_call0_v2 main_call0_v3 main_v34 (select : (⟨S16384x8, .i1⟩ : BufTy).Contents (Elt F) → (⟨S16384x8, .f32⟩ : BufTy).Contents (Elt F) → (⟨S16384x8, .f32⟩ : BufTy).Contents (Elt F) → (⟨S16384x8, .f32⟩ : BufTy).Contents (Elt F)) ]
/-- Each touches TensorCore references only. -/
theorem ops1_sub : (ops1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.ternary_bufs_sub ..⟩

/-- 16 operations of @main: operations 50 … 65 of the program, in window 0. -/
abbrev ops2 : List (HloOp τ sig (Elt F)) :=
  [ StableHlo.nullary main_c_7 (constantI S_ 32 10#32),
    StableHlo.unary main_c_7 main_v35 (broadcastInDim S1 ![] bcast_S_S1 : (⟨S_, .i32⟩ : BufTy).Contents (Elt F) → (⟨S1, .i32⟩ : BufTy).Contents (Elt F)),
    StableHlo.ternary main_v31 main_v35 main_v34 main_v36 ((fun x i u => Host.scatter scatter_S16384x8x30_S1_S16384x8_01_2_2_0 (fun _ b => b) x i u) : (⟨S16384x8x30, .f32⟩ : BufTy).Contents (Elt F) → (⟨S1, .i32⟩ : BufTy).Contents (Elt F) → (⟨S16384x8, .f32⟩ : BufTy).Contents (Elt F) → (⟨S16384x8x30, .f32⟩ : BufTy).Contents (Elt F)),
    StableHlo.nullary main_cst_8 (constant S_ .f32 0x40E00000#32),
    StableHlo.unary main_cst_8 main_v37 (broadcastInDim S16384x8x2 ![] bcast_S_S16384x8x2 : (⟨S_, .f32⟩ : BufTy).Contents (Elt F) → (⟨S16384x8x2, .f32⟩ : BufTy).Contents (Elt F)),
    StableHlo.binary main_v3 main_v37 main_v38 (mulf : (⟨S16384x8x2, .f32⟩ : BufTy).Contents (Elt F) → (⟨S16384x8x2, .f32⟩ : BufTy).Contents (Elt F) → (⟨S16384x8x2, .f32⟩ : BufTy).Contents (Elt F)),
    StableHlo.nullary main_c_9 (constantI S_ 32 2#32),
    StableHlo.unary main_c_9 main_v39 (broadcastInDim S1 ![] bcast_S_S1 : (⟨S_, .i32⟩ : BufTy).Contents (Elt F) → (⟨S1, .i32⟩ : BufTy).Contents (Elt F)),
    StableHlo.ternary main_v36 main_v39 main_v38 main_v40 ((fun x i u => Host.scatter scatter_S16384x8x30_S1_S16384x8x2_012_n_2_0 (fun _ b => b) x i u) : (⟨S16384x8x30, .f32⟩ : BufTy).Contents (Elt F) → (⟨S1, .i32⟩ : BufTy).Contents (Elt F) → (⟨S16384x8x2, .f32⟩ : BufTy).Contents (Elt F) → (⟨S16384x8x30, .f32⟩ : BufTy).Contents (Elt F)),
    StableHlo.nullary main_c_10 (constantI S_ 32 0#32),
    StableHlo.unary main_c_10 main_v41 (broadcastInDim S1 ![] bcast_S_S1 : (⟨S_, .i32⟩ : BufTy).Contents (Elt F) → (⟨S1, .i32⟩ : BufTy).Contents (Elt F)),
    StableHlo.ternary main_v40 main_v41 main_v16 main_v42 ((fun x i u => Host.scatter scatter_S16384x8x30_S1_S16384x8x2_012_n_2_0 (fun _ b => b) x i u) : (⟨S16384x8x30, .f32⟩ : BufTy).Contents (Elt F) → (⟨S1, .i32⟩ : BufTy).Contents (Elt F) → (⟨S16384x8x2, .f32⟩ : BufTy).Contents (Elt F) → (⟨S16384x8x30, .f32⟩ : BufTy).Contents (Elt F)),
    StableHlo.nullary main_cst_11 (constant S_ .f32 0x40E00000#32),
    StableHlo.unary main_cst_11 main_v43 (broadcastInDim S16384x8x2 ![] bcast_S_S16384x8x2 : (⟨S_, .f32⟩ : BufTy).Contents (Elt F) → (⟨S16384x8x2, .f32⟩ : BufTy).Contents (Elt F)),
    StableHlo.binary main_v3 main_v43 main_v44 (mulf : (⟨S16384x8x2, .f32⟩ : BufTy).Contents (Elt F) → (⟨S16384x8x2, .f32⟩ : BufTy).Contents (Elt F) → (⟨S16384x8x2, .f32⟩ : BufTy).Contents (Elt F)),
    StableHlo.nullary main_c_12 (constantI S_ 32 9#32) ]
/-- Each touches TensorCore references only. -/
theorem ops2_sub : (ops2 : List (HloOp τ sig (Elt F))).Forall fun op => op.bufs ⊆ StableHlo.tcRefs τ sig :=
  ⟨StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub ..⟩

/-- 40 operations of @main: operations 66 … 105 of the program, in window 1. -/
abbrev ops3 : List (HloOp τ sig (Elt F)) :=
  [ StableHlo.unary main_c_12 main_v45 (broadcastInDim S1 ![] bcast_S_S1 : (⟨S_, .i32⟩ : BufTy).Contents (Elt F) → (⟨S1, .i32⟩ : BufTy).Contents (Elt F)),
    StableHlo.ternary main_v42 main_v45 main_v44 main_v46 ((fun x i u => Host.scatter scatter_S16384x8x30_S1_S16384x8x2_012_n_2_0 (fun _ b => b) x i u) : (⟨S16384x8x30, .f32⟩ : BufTy).Contents (Elt F) → (⟨S1, .i32⟩ : BufTy).Contents (Elt F) → (⟨S16384x8x2, .f32⟩ : BufTy).Contents (Elt F) → (⟨S16384x8x30, .f32⟩ : BufTy).Contents (Elt F)),
    StableHlo.nullary main_c_13 (constantI S_ 32 7#32),
    StableHlo.unary main_c_13 main_v47 (broadcastInDim S1 ![] bcast_S_S1 : (⟨S_, .i32⟩ : BufTy).Contents (Elt F) → (⟨S1, .i32⟩ : BufTy).Contents (Elt F)),
    StableHlo.ternary main_v46 main_v47 main_v16 main_v48 ((fun x i u => Host.scatter scatter_S16384x8x30_S1_S16384x8x2_012_n_2_0 (fun _ b => b) x i u) : (⟨S16384x8x30, .f32⟩ : BufTy).Contents (Elt F) → (⟨S1, .i32⟩ : BufTy).Contents (Elt F) → (⟨S16384x8x2, .f32⟩ : BufTy).Contents (Elt F) → (⟨S16384x8x30, .f32⟩ : BufTy).Contents (Elt F)),
    StableHlo.nullary main_v49 (iotaInDim S16384 32 0),
    StableHlo.unary main_v49 main_v50 (broadcastInDim S16384x1 ![0] bcast_S16384_S16384x1_0 : (⟨S16384, .i32⟩ : BufTy).Contents (Elt F) → (⟨S16384x1, .i32⟩ : BufTy).Contents (Elt F)),
    StableHlo.nullary main_cst_14 (constant S_ .f32 0x00000000#32),
    StableHlo.unary main_cst_14 main_v51 (broadcastInDim S16384x7x7x30 ![] bcast_S_S16384x7x7x30 : (⟨S_, .f32⟩ : BufTy).Contents (Elt F) → (⟨S16384x7x7x30, .f32⟩ : BufTy).Contents (Elt F)),
    StableHlo.nullary main_c_15 (constantI S_ 32 0#32),
    StableHlo.unary main_c_15 main_v52 (broadcastInDim S16384x1 ![] bcast_S_S16384x1 : (⟨S_, .i32⟩ : BufTy).Contents (Elt F) → (⟨S16384x1, .i32⟩ : BufTy).Contents (Elt F)),
    StableHlo.binary main_v50 main_v52 main_v53 (cmpi .slt : (⟨S16384x1, .i32⟩ : BufTy).Contents (Elt F) → (⟨S16384x1, .i32⟩ : BufTy).Contents (Elt F) → (⟨S16384x1, .i1⟩ : BufTy).Contents (Elt F)),
    StableHlo.nullary main_c_16 (constantI S_ 32 16384#32),
    StableHlo.unary main_c_16 main_v54 (broadcastInDim S16384x1 ![] bcast_S_S16384x1 : (⟨S_, .i32⟩ : BufTy).Contents (Elt F) → (⟨S16384x1, .i32⟩ : BufTy).Contents (Elt F)),
    StableHlo.binary main_v50 main_v54 main_v55 (addi : (⟨S16384x1, .i32⟩ : BufTy).Contents (Elt F) → (⟨S16384x1, .i32⟩ : BufTy).Contents (Elt F) → (⟨S16384x1, .i32⟩ : BufTy).Contents (Elt F)),
    StableHlo.ternary main_v53 main_v55 main_v50 main_v56 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    StableHlo.nullary main_c_17 (constantI S_ 32 0#32),
    StableHlo.unary main_c_17 main_v57 (broadcastInDim S16384x8 ![] bcast_S_S16384x8 : (⟨S_, .i32⟩ : BufTy).Contents (Elt F) → (⟨S16384x8, .i32⟩ : BufTy).Contents (Elt F)),
    StableHlo.binary main_v22 main_v57 main_v58 (cmpi .slt : (⟨S16384x8, .i32⟩ : BufTy).Contents (Elt F) → (⟨S16384x8, .i32⟩ : BufTy).Contents (Elt F) → (⟨S16384x8, .i1⟩ : BufTy).Contents (Elt F)),
    StableHlo.nullary main_c_18 (constantI S_ 32 7#32),
    StableHlo.unary main_c_18 main_v59 (broadcastInDim S16384x8 ![] bcast_S_S16384x8 : (⟨S_, .i32⟩ : BufTy).Contents (Elt F) → (⟨S16384x8, .i32⟩ : BufTy).Contents (Elt F)),
    StableHlo.binary main_v22 main_v59 main_v60 (addi : (⟨S16384x8, .i32⟩ : BufTy).Contents (Elt F) → (⟨S16384x8, .i32⟩ : BufTy).Contents (Elt F) → (⟨S16384x8, .i32⟩ : BufTy).Contents (Elt F)),
    StableHlo.ternary main_v58 main_v60 main_v22 main_v61 (select : (⟨S16384x8, .i1⟩ : BufTy).Contents (Elt F) → (⟨S16384x8, .i32⟩ : BufTy).Contents (Elt F) → (⟨S16384x8, .i32⟩ : BufTy).Contents (Elt F) → (⟨S16384x8, .i32⟩ : BufTy).Contents (Elt F)),
    StableHlo.nullary main_c_19 (constantI S_ 32 0#32),
    StableHlo.unary main_c_19 main_v62 (broadcastInDim S16384x8 ![] bcast_S_S16384x8 : (⟨S_, .i32⟩ : BufTy).Contents (Elt F) → (⟨S16384x8, .i32⟩ : BufTy).Contents (Elt F)),
    StableHlo.binary main_v19 main_v62 main_v63 (cmpi .slt : (⟨S16384x8, .i32⟩ : BufTy).Contents (Elt F) → (⟨S16384x8, .i32⟩ : BufTy).Contents (Elt F) → (⟨S16384x8, .i1⟩ : BufTy).Contents (Elt F)),
    StableHlo.nullary main_c_20 (constantI S_ 32 7#32),
    StableHlo.unary main_c_20 main_v64 (broadcastInDim S16384x8 ![] bcast_S_S16384x8 : (⟨S_, .i32⟩ : BufTy).Contents (Elt F) → (⟨S16384x8, .i32⟩ : BufTy).Contents (Elt F)),
    StableHlo.binary main_v19 main_v64 main_v65 (addi : (⟨S16384x8, .i32⟩ : BufTy).Contents (Elt F) → (⟨S16384x8, .i32⟩ : BufTy).Contents (Elt F) → (⟨S16384x8, .i32⟩ : BufTy).Contents (Elt F)),
    StableHlo.ternary main_v63 main_v65 main_v19 main_v66 (select : (⟨S16384x8, .i1⟩ : BufTy).Contents (Elt F) → (⟨S16384x8, .i32⟩ : BufTy).Contents (Elt F) → (⟨S16384x8, .i32⟩ : BufTy).Contents (Elt F) → (⟨S16384x8, .i32⟩ : BufTy).Contents (Elt F)),
    StableHlo.unary main_v56 main_v67 (broadcastInDim S16384x8 ![0, 1] bcast_S16384x1_S16384x8_0_1 : (⟨S16384x1, .i32⟩ : BufTy).Contents (Elt F) → (⟨S16384x8, .i32⟩ : BufTy).Contents (Elt F)),
    StableHlo.unary main_v67 main_v68 (broadcastInDim S16384x8x1 ![0, 1] bcast_S16384x8_S16384x8x1_0_1 : (⟨S16384x8, .i32⟩ : BufTy).Contents (Elt F) → (⟨S16384x8x1, .i32⟩ : BufTy).Contents (Elt F)),
    StableHlo.unary main_v61 main_v69 (broadcastInDim S16384x8x1 ![0, 1] bcast_S16384x8_S16384x8x1_0_1 : (⟨S16384x8, .i32⟩ : BufTy).Contents (Elt F) → (⟨S16384x8x1, .i32⟩ : BufTy).Contents (Elt F)),
    StableHlo.unary main_v66 main_v70 (broadcastInDim S16384x8x1 ![0, 1] bcast_S16384x8_S16384x8x1_0_1 : (⟨S16384x8, .i32⟩ : BufTy).Contents (Elt F) → (⟨S16384x8x1, .i32⟩ : BufTy).Contents (Elt F)),
    StableHlo.nary ![main_v68, main_v69, main_v70] main_v71 (fun u => concatenate S16384x8x3 2 [⟨S16384x8x1, u 0⟩, ⟨S16384x8x1, u 1⟩, ⟨S16384x8x1, u 2⟩] concatenates_S16384x8x1_S16384x8x1_S16384x8x1_S16384x8x3_d2),
    StableHlo.ternary main_v51 main_v71 main_v48 main_v72 ((fun x i u => Host.scatter scatter_S16384x7x7x30_S16384x8x3_S16384x8x30_2_012_012_2 (fun _ b => b) x i u) : (⟨S16384x7x7x30, .f32⟩ : BufTy).Contents (Elt F) → (⟨S16384x8x3, .i32⟩ : BufTy).Contents (Elt F) → (⟨S16384x8x30, .f32⟩ : BufTy).Contents (Elt F) → (⟨S16384x7x7x30, .f32⟩ : BufTy).Contents (Elt F)),
    StableHlo.reshape main_v72 main_v73 rfl shapeCasts_S16384x7x7x30_S16384x49x30,
    StableHlo.reshape main_arg0 main_v74 rfl shapeCasts_S16384x1470_S16384x49x30,
    StableHlo.reshape main_v73 main_v75 rfl shapeCasts_S16384x49x30_S802816x30,
    StableHlo.reshape main_v74 main_v76 rfl shapeCasts_S16384x49x30_S802816x30 ]
/-- Each touches TensorCore references only. -/
theorem ops3_sub : (ops3 : List (HloOp τ sig (Elt F))).Forall fun op => op.bufs ⊆ StableHlo.tcRefs τ sig :=
  ⟨StableHlo.unary_bufs_sub .., StableHlo.ternary_bufs_sub .., StableHlo.nullary_bufs_sub .., StableHlo.unary_bufs_sub .., StableHlo.ternary_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.nary_bufs_sub .., StableHlo.ternary_bufs_sub .., StableHlo.reshape_bufs_sub .., StableHlo.reshape_bufs_sub .., StableHlo.reshape_bufs_sub .., StableHlo.reshape_bufs_sub ..⟩

/-- 4 operations of @main: operations 106 … 109 of the program, in window 1. -/
abbrev ops4 : List (HloOp τ sig (Elt F)) :=
  [ StableHlo.unary main_v76 main_v77 ((extractStridedSlice S802816x20 ![0, 10] · slices_S802816x30_S802816x20_0_10) : (⟨S802816x30, .f32⟩ : BufTy).Contents (Elt F) → (⟨S802816x20, .f32⟩ : BufTy).Contents (Elt F)),
    StableHlo.unary main_v75 main_v78 ((extractStridedSlice S802816x1 ![0, 10] · slices_S802816x30_S802816x1_0_10) : (⟨S802816x30, .f32⟩ : BufTy).Contents (Elt F) → (⟨S802816x1, .f32⟩ : BufTy).Contents (Elt F)),
    StableHlo.reshape main_v78 main_v79 rfl shapeCasts_S802816x1_S802816,
    StableHlo.unary main_v79 main_v80 (fptosi 32 : (⟨S802816, .f32⟩ : BufTy).Contents (Elt F) → (⟨S802816, .i32⟩ : BufTy).Contents (Elt F)) ]
/-- Each touches TensorCore references only. -/
theorem ops4_sub : (ops4 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub ..⟩

/-- The 15 operations of the call of @log_softmax (calls inside it inlined): operations 110 … 124 of the program, in window 1. -/
abbrev ops5 : List (HloOp τ sig (Elt F)) :=
  [ StableHlo.nullary main_call1_cst ((constant S_ .f32 0xFF800000#32) : (⟨S_, .f32⟩ : BufTy).Contents (Elt F)),
    StableHlo.binary main_v77 main_call1_cst main_call1_v0 ((fun x v => Host.reduce FloatOps.maximumf x v reducesTo_S802816x20_S802816_d1 h_S_) : (⟨S802816x20, .f32⟩ : BufTy).Contents (Elt F) → (⟨S_, .f32⟩ : BufTy).Contents (Elt F) → (⟨S802816, .f32⟩ : BufTy).Contents (Elt F)),
    StableHlo.nullary main_call1_cst_0 ((constant S_ .f32 0xFF800000#32) : (⟨S_, .f32⟩ : BufTy).Contents (Elt F)),
    StableHlo.unary main_call1_cst_0 main_call1_v1 ((broadcastInDim S802816 ![] bcast_S_S802816) : (⟨S_, .f32⟩ : BufTy).Contents (Elt F) → (⟨S802816, .f32⟩ : BufTy).Contents (Elt F)),
    StableHlo.binary main_call1_v1 main_call1_v0 main_call1_v2 (maximumf : (⟨S802816, .f32⟩ : BufTy).Contents (Elt F) → (⟨S802816, .f32⟩ : BufTy).Contents (Elt F) → (⟨S802816, .f32⟩ : BufTy).Contents (Elt F)),
    StableHlo.unary main_call1_v2 main_call1_v3 ((broadcastInDim S802816x1 ![0] bcast_S802816_S802816x1_0) : (⟨S802816, .f32⟩ : BufTy).Contents (Elt F) → (⟨S802816x1, .f32⟩ : BufTy).Contents (Elt F)),
    StableHlo.unary main_call1_v3 main_call1_v4 ((broadcastInDim S802816x20 ![0, 1] bcast_S802816x1_S802816x20_0_1) : (⟨S802816x1, .f32⟩ : BufTy).Contents (Elt F) → (⟨S802816x20, .f32⟩ : BufTy).Contents (Elt F)),
    StableHlo.binary main_v77 main_call1_v4 main_call1_v5 (subf : (⟨S802816x20, .f32⟩ : BufTy).Contents (Elt F) → (⟨S802816x20, .f32⟩ : BufTy).Contents (Elt F) → (⟨S802816x20, .f32⟩ : BufTy).Contents (Elt F)),
    StableHlo.unary main_call1_v5 main_call1_v6 (Host.exp : (⟨S802816x20, .f32⟩ : BufTy).Contents (Elt F) → (⟨S802816x20, .f32⟩ : BufTy).Contents (Elt F)),
    StableHlo.nullary main_call1_cst_1 ((constant S_ .f32 0x00000000#32) : (⟨S_, .f32⟩ : BufTy).Contents (Elt F)),
    StableHlo.binary main_call1_v6 main_call1_cst_1 main_call1_v7 ((fun x v => Host.reduceAdd x v reducesTo_S802816x20_S802816_d1 h_S_) : (⟨S802816x20, .f32⟩ : BufTy).Contents (Elt F) → (⟨S_, .f32⟩ : BufTy).Contents (Elt F) → (⟨S802816, .f32⟩ : BufTy).Contents (Elt F)),
    StableHlo.unary main_call1_v7 main_call1_v8 ((broadcastInDim S802816x1 ![0] bcast_S802816_S802816x1_0) : (⟨S802816, .f32⟩ : BufTy).Contents (Elt F) → (⟨S802816x1, .f32⟩ : BufTy).Contents (Elt F)),
    StableHlo.unary main_call1_v8 main_call1_v9 (Host.log : (⟨S802816x1, .f32⟩ : BufTy).Contents (Elt F) → (⟨S802816x1, .f32⟩ : BufTy).Contents (Elt F)),
    StableHlo.unary main_call1_v9 main_call1_v10 ((broadcastInDim S802816x20 ![0, 1] bcast_S802816x1_S802816x20_0_1) : (⟨S802816x1, .f32⟩ : BufTy).Contents (Elt F) → (⟨S802816x20, .f32⟩ : BufTy).Contents (Elt F)),
    StableHlo.binary main_call1_v5 main_call1_v10 main_v81 (subf : (⟨S802816x20, .f32⟩ : BufTy).Contents (Elt F) → (⟨S802816x20, .f32⟩ : BufTy).Contents (Elt F) → (⟨S802816x20, .f32⟩ : BufTy).Contents (Elt F)) ]
/-- Each touches TensorCore references only. -/
theorem ops5_sub : (ops5 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

/-- 1 operations of @main: operations 125 … 125 of the program, in window 1. -/
abbrev ops6 : List (HloOp τ sig (Elt F)) :=
  [ StableHlo.unary main_v80 main_v82 (broadcastInDim S802816x1 ![0] bcast_S802816_S802816x1_0 : (⟨S802816, .i32⟩ : BufTy).Contents (Elt F) → (⟨S802816x1, .i32⟩ : BufTy).Contents (Elt F)) ]
/-- Each touches TensorCore references only. -/
theorem ops6_sub : (ops6 : List (HloOp τ sig (Elt F))).Forall fun op => op.bufs ⊆ StableHlo.tcRefs τ sig :=
  StableHlo.unary_bufs_sub ..

/-- The 22 operations of the call of @take_along_axis (calls inside it inlined): operations 126 … 147 of the program, in window 1. -/
abbrev ops7 : List (HloOp τ sig (Elt F)) :=
  [ StableHlo.nullary main_call2_c ((constantI S_ 32 0#32) : (⟨S_, .i32⟩ : BufTy).Contents (Elt F)),
    StableHlo.unary main_call2_c main_call2_v0 ((broadcastInDim S802816x1 ![] bcast_S_S802816x1) : (⟨S_, .i32⟩ : BufTy).Contents (Elt F) → (⟨S802816x1, .i32⟩ : BufTy).Contents (Elt F)),
    StableHlo.binary main_v82 main_call2_v0 main_call2_v1 ((cmpi .slt) : (⟨S802816x1, .i32⟩ : BufTy).Contents (Elt F) → (⟨S802816x1, .i32⟩ : BufTy).Contents (Elt F) → (⟨S802816x1, .i1⟩ : BufTy).Contents (Elt F)),
    StableHlo.nullary main_call2_c_0 ((constantI S_ 32 20#32) : (⟨S_, .i32⟩ : BufTy).Contents (Elt F)),
    StableHlo.unary main_call2_c_0 main_call2_v2 ((broadcastInDim S802816x1 ![] bcast_S_S802816x1) : (⟨S_, .i32⟩ : BufTy).Contents (Elt F) → (⟨S802816x1, .i32⟩ : BufTy).Contents (Elt F)),
    StableHlo.binary main_v82 main_call2_v2 main_call2_v3 (addi : (⟨S802816x1, .i32⟩ : BufTy).Contents (Elt F) → (⟨S802816x1, .i32⟩ : BufTy).Contents (Elt F) → (⟨S802816x1, .i32⟩ : BufTy).Contents (Elt F)),
    StableHlo.ternary main_call2_v1 main_call2_v3 main_v82 main_call2_v4 (select : (⟨S802816x1, .i1⟩ : BufTy).Contents (Elt F) → (⟨S802816x1, .i32⟩ : BufTy).Contents (Elt F) → (⟨S802816x1, .i32⟩ : BufTy).Contents (Elt F) → (⟨S802816x1, .i32⟩ : BufTy).Contents (Elt F)),
    StableHlo.reshape main_call2_v4 main_call2_v5 rfl shapeCasts_S802816x1_S802816x1x1,
    StableHlo.nullary main_call2_c_1 ((constantI S1 32 19#32) : (⟨S1, .i32⟩ : BufTy).Contents (Elt F)),
    StableHlo.nullary main_call2_c_2 ((constantI S_ 32 0#32) : (⟨S_, .i32⟩ : BufTy).Contents (Elt F)),
    StableHlo.unary main_call2_c_2 main_call2_v6 ((broadcastInDim S802816x1x1 ![] bcast_S_S802816x1x1) : (⟨S_, .i32⟩ : BufTy).Contents (Elt F) → (⟨S802816x1x1, .i32⟩ : BufTy).Contents (Elt F)),
    StableHlo.binary main_call2_v5 main_call2_v6 main_call2_v7 ((cmpi .sge) : (⟨S802816x1x1, .i32⟩ : BufTy).Contents (Elt F) → (⟨S802816x1x1, .i32⟩ : BufTy).Contents (Elt F) → (⟨S802816x1x1, .i1⟩ : BufTy).Contents (Elt F)),
    StableHlo.unary main_call2_c_1 main_call2_v8 ((broadcastInDim S1x1x1 ![2] bcast_S1_S1x1x1_2) : (⟨S1, .i32⟩ : BufTy).Contents (Elt F) → (⟨S1x1x1, .i32⟩ : BufTy).Contents (Elt F)),
    StableHlo.unary main_call2_v8 main_call2_v9 ((broadcastInDim S802816x1x1 ![0, 1, 2] bcast_S1x1x1_S802816x1x1_0_1_2) : (⟨S1x1x1, .i32⟩ : BufTy).Contents (Elt F) → (⟨S802816x1x1, .i32⟩ : BufTy).Contents (Elt F)),
    StableHlo.binary main_call2_v5 main_call2_v9 main_call2_v10 ((cmpi .sle) : (⟨S802816x1x1, .i32⟩ : BufTy).Contents (Elt F) → (⟨S802816x1x1, .i32⟩ : BufTy).Contents (Elt F) → (⟨S802816x1x1, .i1⟩ : BufTy).Contents (Elt F)),
    StableHlo.binary main_call2_v7 main_call2_v10 main_call2_v11 (andi : (⟨S802816x1x1, .i1⟩ : BufTy).Contents (Elt F) → (⟨S802816x1x1, .i1⟩ : BufTy).Contents (Elt F) → (⟨S802816x1x1, .i1⟩ : BufTy).Contents (Elt F)),
    StableHlo.nullary main_call2_c_3 ((constantI S_ 1 1#1) : (⟨S_, .i1⟩ : BufTy).Contents (Elt F)),
    StableHlo.binary main_call2_v11 main_call2_c_3 main_call2_v12 ((fun x v => Host.reduce IntOp.andi x v reducesTo_S802816x1x1_S802816x1_d2 h_S_) : (⟨S802816x1x1, .i1⟩ : BufTy).Contents (Elt F) → (⟨S_, .i1⟩ : BufTy).Contents (Elt F) → (⟨S802816x1, .i1⟩ : BufTy).Contents (Elt F)),
    StableHlo.binary main_v81 main_call2_v5 main_call2_v13 ((fun x i => Host.gather gather_S802816x20_S802816x1x1_S802816x1_n_1_0_0_1_2_11 x i) : (⟨S802816x20, .f32⟩ : BufTy).Contents (Elt F) → (⟨S802816x1x1, .i32⟩ : BufTy).Contents (Elt F) → (⟨S802816x1, .f32⟩ : BufTy).Contents (Elt F)),
    StableHlo.nullary main_call2_cst ((constant S_ .f32 0x7FC00000#32) : (⟨S_, .f32⟩ : BufTy).Contents (Elt F)),
    StableHlo.unary main_call2_cst main_call2_v14 ((broadcastInDim S802816x1 ![] bcast_S_S802816x1) : (⟨S_, .f32⟩ : BufTy).Contents (Elt F) → (⟨S802816x1, .f32⟩ : BufTy).Contents (Elt F)),
    StableHlo.ternary main_call2_v12 main_call2_v13 main_call2_v14 main_v83 (select : (⟨S802816x1, .i1⟩ : BufTy).Contents (Elt F) → (⟨S802816x1, .f32⟩ : BufTy).Contents (Elt F) → (⟨S802816x1, .f32⟩ : BufTy).Contents (Elt F) → (⟨S802816x1, .f32⟩ : BufTy).Contents (Elt F)) ]
/-- Each touches TensorCore references only. -/
theorem ops7_sub : (ops7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- 13 operations of @main: operations 148 … 160 of the program, in window 1. -/
abbrev ops8 : List (HloOp τ sig (Elt F)) :=
  [ StableHlo.nullary main_cst_21 (constant S_ .f32 0x00000000#32),
    StableHlo.binary main_v83 main_cst_21 main_v84 ((fun x v => Host.reduceAdd x v reducesTo_S802816x1_S_d0_1 h_S_) : (⟨S802816x1, .f32⟩ : BufTy).Contents (Elt F) → (⟨S_, .f32⟩ : BufTy).Contents (Elt F) → (⟨S_, .f32⟩ : BufTy).Contents (Elt F)),
    StableHlo.nullary main_cst_22 (constant S_ .f32 0x49440000#32),
    StableHlo.binary main_v84 main_cst_22 main_v85 (Host.divf : (⟨S_, .f32⟩ : BufTy).Contents (Elt F) → (⟨S_, .f32⟩ : BufTy).Contents (Elt F) → (⟨S_, .f32⟩ : BufTy).Contents (Elt F)),
    StableHlo.unary main_v85 main_v86 (Host.negf : (⟨S_, .f32⟩ : BufTy).Contents (Elt F) → (⟨S_, .f32⟩ : BufTy).Contents (Elt F)),
    StableHlo.unary main_v75 main_v87 ((extractStridedSlice S802816x1 ![0, 10] · slices_S802816x30_S802816x1_0_10) : (⟨S802816x30, .f32⟩ : BufTy).Contents (Elt F) → (⟨S802816x1, .f32⟩ : BufTy).Contents (Elt F)),
    StableHlo.reshape main_v87 main_v88 rfl shapeCasts_S802816x1_S802816,
    StableHlo.nullary main_cst_23 (constant S_ .f32 0x00000000#32),
    StableHlo.unary main_cst_23 main_v89 (broadcastInDim S802816 ![] bcast_S_S802816 : (⟨S_, .f32⟩ : BufTy).Contents (Elt F) → (⟨S802816, .f32⟩ : BufTy).Contents (Elt F)),
    StableHlo.binary main_v88 main_v89 main_v90 (cmpf .ogt : (⟨S802816, .f32⟩ : BufTy).Contents (Elt F) → (⟨S802816, .f32⟩ : BufTy).Contents (Elt F) → (⟨S802816, .i1⟩ : BufTy).Contents (Elt F)),
    StableHlo.unary main_v90 main_v91 (uitofp .f32 : (⟨S802816, .i1⟩ : BufTy).Contents (Elt F) → (⟨S802816, .f32⟩ : BufTy).Contents (Elt F)),
    StableHlo.unary main_v76 main_v92 ((extractStridedSlice S802816x10 ![0, 0] · slices_S802816x30_S802816x10_0_0) : (⟨S802816x30, .f32⟩ : BufTy).Contents (Elt F) → (⟨S802816x10, .f32⟩ : BufTy).Contents (Elt F)),
    StableHlo.reshape main_v92 main_v93 rfl shapeCasts_S802816x10_S802816x2x5 ]
/-- Each touches TensorCore references only. -/
theorem ops8_sub : (ops8 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.unary_bufs_sub .., StableHlo.reshape_bufs_sub .., StableHlo.nullary_bufs_sub .., StableHlo.unary_bufs_sub .., StableHlo.binary_bufs_sub .., StableHlo.unary_bufs_sub .., StableHlo.unary_bufs_sub .., StableHlo.reshape_bufs_sub ..⟩

/-- 29 operations of @main: operations 161 … 189 of the program, in window 2. -/
abbrev ops9 : List (HloOp τ sig (Elt F)) :=
  [ StableHlo.unary main_v75 main_v94 ((extractStridedSlice S802816x10 ![0, 0] · slices_S802816x30_S802816x10_0_0) : (⟨S802816x30, .f32⟩ : BufTy).Contents (Elt F) → (⟨S802816x10, .f32⟩ : BufTy).Contents (Elt F)),
    StableHlo.reshape main_v94 main_v95 rfl shapeCasts_S802816x10_S802816x2x5,
    StableHlo.unary main_v93 main_v96 ((extractStridedSlice S802816x2x2 ![0, 0, 0] · slices_S802816x2x5_S802816x2x2_0_0_0) : (⟨S802816x2x5, .f32⟩ : BufTy).Contents (Elt F) → (⟨S802816x2x2, .f32⟩ : BufTy).Contents (Elt F)),
    StableHlo.unary main_v95 main_v97 ((extractStridedSlice S802816x2x2 ![0, 0, 0] · slices_S802816x2x5_S802816x2x2_0_0_0) : (⟨S802816x2x5, .f32⟩ : BufTy).Contents (Elt F) → (⟨S802816x2x2, .f32⟩ : BufTy).Contents (Elt F)),
    StableHlo.binary main_v96 main_v97 main_v98 (subf : (⟨S802816x2x2, .f32⟩ : BufTy).Contents (Elt F) → (⟨S802816x2x2, .f32⟩ : BufTy).Contents (Elt F) → (⟨S802816x2x2, .f32⟩ : BufTy).Contents (Elt F)),
    StableHlo.binary main_v98 main_v98 main_v99 (mulf : (⟨S802816x2x2, .f32⟩ : BufTy).Contents (Elt F) → (⟨S802816x2x2, .f32⟩ : BufTy).Contents (Elt F) → (⟨S802816x2x2, .f32⟩ : BufTy).Contents (Elt F)),
    StableHlo.nullary main_cst_24 (constant S_ .f32 0x00000000#32),
    StableHlo.binary main_v99 main_cst_24 main_v100 ((fun x v => Host.reduceAdd x v reducesTo_S802816x2x2_S802816_d1_2 h_S_) : (⟨S802816x2x2, .f32⟩ : BufTy).Contents (Elt F) → (⟨S_, .f32⟩ : BufTy).Contents (Elt F) → (⟨S802816, .f32⟩ : BufTy).Contents (Elt F)),
    StableHlo.unary main_v93 main_v101 ((extractStridedSlice S802816x2x2 ![0, 0, 2] · slices_S802816x2x5_S802816x2x2_0_0_2) : (⟨S802816x2x5, .f32⟩ : BufTy).Contents (Elt F) → (⟨S802816x2x2, .f32⟩ : BufTy).Contents (Elt F)),
    StableHlo.unary main_v95 main_v102 ((extractStridedSlice S802816x2x2 ![0, 0, 2] · slices_S802816x2x5_S802816x2x2_0_0_2) : (⟨S802816x2x5, .f32⟩ : BufTy).Contents (Elt F) → (⟨S802816x2x2, .f32⟩ : BufTy).Contents (Elt F)),
    StableHlo.binary main_v101 main_v102 main_v103 (subf : (⟨S802816x2x2, .f32⟩ : BufTy).Contents (Elt F) → (⟨S802816x2x2, .f32⟩ : BufTy).Contents (Elt F) → (⟨S802816x2x2, .f32⟩ : BufTy).Contents (Elt F)),
    StableHlo.binary main_v103 main_v103 main_v104 (mulf : (⟨S802816x2x2, .f32⟩ : BufTy).Contents (Elt F) → (⟨S802816x2x2, .f32⟩ : BufTy).Contents (Elt F) → (⟨S802816x2x2, .f32⟩ : BufTy).Contents (Elt F)),
    StableHlo.nullary main_cst_25 (constant S_ .f32 0x00000000#32),
    StableHlo.binary main_v104 main_cst_25 main_v105 ((fun x v => Host.reduceAdd x v reducesTo_S802816x2x2_S802816_d1_2 h_S_) : (⟨S802816x2x2, .f32⟩ : BufTy).Contents (Elt F) → (⟨S_, .f32⟩ : BufTy).Contents (Elt F) → (⟨S802816, .f32⟩ : BufTy).Contents (Elt F)),
    StableHlo.nullary main_cst_26 (constant S_ .f32 0x00000000#32),
    StableHlo.binary main_v91 main_cst_26 main_v106 ((fun x v => Host.reduceAdd x v reducesTo_S802816_S_d0 h_S_) : (⟨S802816, .f32⟩ : BufTy).Contents (Elt F) → (⟨S_, .f32⟩ : BufTy).Contents (Elt F) → (⟨S_, .f32⟩ : BufTy).Contents (Elt F)),
    StableHlo.nullary main_cst_27 (constant S_ .f32 0x40800000#32),
    StableHlo.binary main_v106 main_cst_27 main_v107 (mulf : (⟨S_, .f32⟩ : BufTy).Contents (Elt F) → (⟨S_, .f32⟩ : BufTy).Contents (Elt F) → (⟨S_, .f32⟩ : BufTy).Contents (Elt F)),
    StableHlo.binary main_v91 main_v100 main_v108 (mulf : (⟨S802816, .f32⟩ : BufTy).Contents (Elt F) → (⟨S802816, .f32⟩ : BufTy).Contents (Elt F) → (⟨S802816, .f32⟩ : BufTy).Contents (Elt F)),
    StableHlo.nullary main_cst_28 (constant S_ .f32 0x00000000#32),
    StableHlo.binary main_v108 main_cst_28 main_v109 ((fun x v => Host.reduceAdd x v reducesTo_S802816_S_d0 h_S_) : (⟨S802816, .f32⟩ : BufTy).Contents (Elt F) → (⟨S_, .f32⟩ : BufTy).Contents (Elt F) → (⟨S_, .f32⟩ : BufTy).Contents (Elt F)),
    StableHlo.binary main_v91 main_v105 main_v110 (mulf : (⟨S802816, .f32⟩ : BufTy).Contents (Elt F) → (⟨S802816, .f32⟩ : BufTy).Contents (Elt F) → (⟨S802816, .f32⟩ : BufTy).Contents (Elt F)),
    StableHlo.nullary main_cst_29 (constant S_ .f32 0x00000000#32),
    StableHlo.binary main_v110 main_cst_29 main_v111 ((fun x v => Host.reduceAdd x v reducesTo_S802816_S_d0 h_S_) : (⟨S802816, .f32⟩ : BufTy).Contents (Elt F) → (⟨S_, .f32⟩ : BufTy).Contents (Elt F) → (⟨S_, .f32⟩ : BufTy).Contents (Elt F)),
    StableHlo.binary main_v109 main_v111 main_v112 (addf : (⟨S_, .f32⟩ : BufTy).Contents (Elt F) → (⟨S_, .f32⟩ : BufTy).Contents (Elt F) → (⟨S_, .f32⟩ : BufTy).Contents (Elt F)),
    StableHlo.binary main_v112 main_v107 main_v113 (Host.divf : (⟨S_, .f32⟩ : BufTy).Contents (Elt F) → (⟨S_, .f32⟩ : BufTy).Contents (Elt F) → (⟨S_, .f32⟩ : BufTy).Contents (Elt F)),
    StableHlo.nullary main_cst_30 (constant S_ .f32 0x40A00000#32),
    StableHlo.binary main_cst_30 main_v113 main_v114 (mulf : (⟨S_, .f32⟩ : BufTy).Contents (Elt F) → (⟨S_, .f32⟩ : BufTy).Contents (Elt F) → (⟨S_, .f32⟩ : BufTy).Contents (Elt F)),
    StableHlo.binary main_v86 main_v114 main_v115 (addf : (⟨S_, .f32⟩ : BufTy).Contents (Elt F) → (⟨S_, .f32⟩ : BufTy).Contents (Elt F) → (⟨S_, .f32⟩ : BufTy).Contents (Elt F)) ]
/-- Each touches TensorCore references only. -/
theorem ops9_sub : (ops9 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.binary_bufs_sub .., StableHlo.binary_bufs_sub ..⟩

/-- The stretches, in order: a window of @main is cut at its calls, a called function's operations a stretch of their own. -/
abbrev stretches : List (List (HloOp τ sig (Elt F))) := [ops0, ops1, ops2, ops3, ops4, ops5, ops6, ops7, ops8, ops9]

/-- The program's 189 operations, in order. -/
abbrev ops : List (HloOp τ sig (Elt F)) := List.flatten stretches

end Cert.ReferenceIdeal.Hand

end
-- ==== Proof.RefRun.lean ====
/-
  The reference program's run. Its @main is three windows of statements with three calls of outlined functions
  (one of them calling a fourth). With the calls unfolded it is one straight line of 189 host operations, each
  writing its own result buffer. So every weakly fair execution terminates, without a fault, with every buffer
  at the fold of the operations' results over the launch contents; and since no operation writes an argument
  buffer, both arguments end as they were launched.
-/
import proofs.«142171_j11467562680721_2_alg».proof.Proof.RefOps
import Idealize.ShloMosaic.Lib.Pipeline.Regions

noncomputable section

namespace Cert.ReferenceIdeal.Hand

open Idealize.ShloMosaic Idealize.SL.Sem

/-- Straight lines run one after the other are the straight line of all their operations. -/
theorem chain_map_seq {n : Nat} {t : Topo} {s : RefSig} {Val : EltTy → Type} {L : Labels} :
    ∀ ls : List (List (HloOp t s Val)),
      (Pipeline.chain (ls.map StableHlo.seq) : Prog (TpuEff n t s Val L .tc) PUnit) = StableHlo.seq ls.flatten
  | [] => rfl
  | l :: ls => by
    rw [List.map_cons, Pipeline.chain_cons, chain_map_seq ls, List.flatten_cons, StableHlo.seq_append]

/-- What holds of every element of every list holds of every element of their concatenation. -/
theorem forall_flatten {α : Type} {p : α → Prop} :
    ∀ {L : List (List α)}, (L.Forall fun l => l.Forall p) → L.flatten.Forall p
  | [], _ => trivial
  | l :: L, h => by
    rw [List.flatten_cons, List.forall_append]
    exact ⟨((List.forall_cons _ _ _).1 h).1, forall_flatten ((List.forall_cons _ _ _).1 h).2⟩

open Cert.ReferenceIdeal Cert.ReferenceIdeal.Gen Idealize.ShloMosaic.TcCoe

variable {F : FTy → Type} [FloatOps F]

/-! ## @main is the straight line of the operations -/

/-- The first window: its operations up to the call of @trunc, the call's, the rest (the last in tail position). -/
theorem main_part0_chain (c : Dev nD) : main_part0 (F := F) c = (Pipeline.chainK
    [ StableHlo.seq ops0, StableHlo.seq ops1 ] (StableHlo.seq ops2)
    : Prog (TpuEff nD τ sig (Elt F) (Pipeline.Sig Λ₀ (Fin 0) fun p => (pcfgs (F := F) p).Adm) .tc) PUnit) := by
  chain_rfl

/-- The second window: cut where the flattened prediction and target are in place (the loss is computed from there on)
    and at the calls of @log_softmax and @take_along_axis. -/
theorem main_part1_chain (c : Dev nD) : main_part1 (F := F) c = (Pipeline.chainK
    [ StableHlo.seq ops3, StableHlo.seq ops4, StableHlo.seq ops5, StableHlo.seq ops6, StableHlo.seq ops7 ] (StableHlo.seq ops8)
    : Prog (TpuEff nD τ sig (Elt F) (Pipeline.Sig Λ₀ (Fin 0) fun p => (pcfgs (F := F) p).Adm) .tc) PUnit) := by
  chain_rfl

/-- The last window, closed by the return. -/
theorem main_part2_chain (c : Dev nD) : main_part2 (F := F) c = (Pipeline.chain
    [ StableHlo.seq ops9 ]
    : Prog (TpuEff nD τ sig (Elt F) (Pipeline.Sig Λ₀ (Fin 0) fun p => (pcfgs (F := F) p).Adm) .tc) PUnit) := by
  chain_rfl

/-- @main is its stretches run in order. -/
theorem main_chain (c : Dev nD) : main (F := F) c = (Pipeline.chain (stretches.map StableHlo.seq)
    : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  rfl

/-- @main is the straight line of the 189 operations. -/
theorem main_eq (c : Dev nD) : main (F := F) c = StableHlo.seq ops :=
  (main_chain c).trans (chain_map_seq stretches)

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ StableHlo.tcRefs τ sig :=
  forall_flatten ⟨ops0_sub, ops1_sub, ops2_sub, ops3_sub, ops4_sub, ops5_sub, ops6_sub, ops7_sub, ops8_sub, ops9_sub⟩

/-- On every device, for any float values, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ

/-! ## The frame -/

/-- Closes "no operation of these stretches writes the reference": each operation writes its own result buffer only, and
    that is another reference. -/
local macro "result_is_another" : tactic => `(tactic| (
  simp only [ops0, ops1, ops2, ops3, ops4, ops5, ops6, ops7, ops8, ops9, List.Forall, StableHlo.nullary_writes, StableHlo.unary_writes,
    StableHlo.binary_writes, StableHlo.ternary_writes, StableHlo.reshape_writes, StableHlo.nary_writes, Finset.mem_singleton]
  repeat' apply And.intro
  all_goals exact StableHlo.devRef_ne_of_ne (by decide)))

/-- No operation writes the prediction argument. -/
theorem arg0_not_written : (stretches (F := F)).Forall fun l => l.Forall fun op => Proc.devRef (τ := τ) .tc main_arg0 ∉ op.writes :=
  ⟨by result_is_another, by result_is_another, by result_is_another, by result_is_another, by result_is_another,
   by result_is_another, by result_is_another, by result_is_another, by result_is_another, by result_is_another⟩

/-- Nor the labels argument. -/
theorem arg1_not_written : (stretches (F := F)).Forall fun l => l.Forall fun op => Proc.devRef (τ := τ) .tc main_arg1 ∉ op.writes :=
  ⟨by result_is_another, by result_is_another, by result_is_another, by result_is_another, by result_is_another,
   by result_is_another, by result_is_another, by result_is_another, by result_is_another, by result_is_another⟩

/-- The prediction argument's buffer after the operations is what it was before them. -/
theorem after_arg0 (V : Valuation τ sig (Elt F)) :
    StableHlo.after ops V (Proc.devRef .tc main_arg0) = V (Proc.devRef .tc main_arg0) :=
  StableHlo.after_of_forall_not_mem _ _ (List.forall_iff_forall_mem.mp (forall_flatten arg0_not_written))

/-- The labels argument's likewise. -/
theorem after_arg1 (V : Valuation τ sig (Elt F)) :
    StableHlo.after ops V (Proc.devRef .tc main_arg1) = V (Proc.devRef .tc main_arg1) :=
  StableHlo.after_of_forall_not_mem _ _ (List.forall_iff_forall_mem.mp (forall_flatten arg1_not_written))

/-- THE FRAME: every weakly fair execution of @main terminates without a fault and leaves both arguments unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_arg0).trans (after_arg0 (StableHlo.launchContents m c)),
     (h c main_arg1).trans (after_arg1 (StableHlo.launchContents m c))⟩)
    (run_all m ρ)

end Cert.ReferenceIdeal.Hand

end
-- ==== Proof.IdealEncode.lean ====
/-
  The two arrays the region reads, as functions of the arguments. The flattened prediction is the prediction argument
  reshaped twice. The flattened target is the last six host operations — the concatenate of the three index columns
  (image, cell row, cell column), the scatter of the eight per-box rows of every image into the cells of a zero array,
  and two reshapes — applied to five arrays that the operations before them compute from the labels alone.
-/
import proofs.«142171_j11467562680721_2_alg».proof.Proof.IdealKit
import Idealize.ShloMosaic.Lib.StableHlo.Run
import Idealize.ShloMosaic.Lib.Pipeline.Frame
import Idealize.ShloMosaic.PureOps.Ideal

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

/-- The last six host operations before the region, and the ones before them. -/
abbrev postOps : List (HloOp τ sig (Elt Ideal)) := (hostOps0_2 (F := Ideal)).drop 50
abbrev preOps : List (HloOp τ sig (Elt Ideal)) := hostOps0 (F := Ideal) ++ hostOps0_1 (F := Ideal) ++ (hostOps0_2 (F := Ideal)).take 50

theorem split_ops : List.flatten (before (F := Ideal)) = preOps ++ postOps := by
  simp only [before, preOps, postOps, List.flatten_cons, List.flatten_nil, List.append_nil, List.append_assoc, List.take_append_drop]

/-- The tail of the encode: the three index columns concatenated, the rows scattered into the zero array's cells, and
    the result flattened to [802816, 30]. -/
def encTail (z : FVec Ideal S16384x7x7x30 .f32) (c0 c1 c2 : IVec S16384x8x1 32) (rows : FVec Ideal S16384x8x30 .f32) :
    FVec Ideal S802816x30 .f32 :=
  shapeCast S802816x30 (shapeCast S16384x49x30
    (Host.scatter scatter_S16384x7x7x30_S16384x8x3_S16384x8x30_2_012_012_2 (fun _ b => b) z
      (concatenate S16384x8x3 2 [⟨S16384x8x1, c0⟩, ⟨S16384x8x1, c1⟩, ⟨S16384x8x1, c2⟩] concatenates_S16384x8x1_S16384x8x1_S16384x8x1_S16384x8x3_d2) rows)
    shapeCasts_S16384x7x7x30_S16384x49x30) shapeCasts_S16384x49x30_S802816x30

set_option maxHeartbeats 4000000 in
theorem post_read75 (V0 : Valuation τ sig (Elt Ideal)) :
    StableHlo.after postOps V0 (Proc.devRef .tc main_v75)
      = encTail (V0 (Proc.devRef .tc main_v51)) (V0 (Proc.devRef .tc main_v68)) (V0 (Proc.devRef .tc main_v69)) (V0 (Proc.devRef .tc main_v70)) (V0 (Proc.devRef .tc main_v48)) := by
  simp only [postOps, hostOps0_2, List.drop_succ_cons, List.drop_zero]
  after_results
  rfl

set_option maxHeartbeats 4000000 in
theorem post_read76 (V0 : Valuation τ sig (Elt Ideal)) :
    StableHlo.after postOps V0 (Proc.devRef .tc main_v76)
      = shapeCast S802816x30 (shapeCast S16384x49x30 (V0 (Proc.devRef .tc main_arg0)) shapeCasts_S16384x1470_S16384x49x30) shapeCasts_S16384x49x30_S802816x30 := by
  simp only [postOps, hostOps0_2, List.drop_succ_cons, List.drop_zero]
  after_results
  rfl

end Cert.KernelIdeal.Hand

end
-- ==== Proof.IdealPre48.lean ====
/-
  What the host operations before the encode's tail leave in one of the buffers the tail consumes, as a function of
  the labels argument alone (every buffer read on the way is written before it is read).
-/
import proofs.«142171_j11467562680721_2_alg».proof.Proof.IdealEncode

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

set_option maxHeartbeats 16000000 in
def pre48 : { G : ((⟨S16384x8x5, .f32⟩ : BufTy).Contents (Elt Ideal)) → ((⟨S16384x8x30, .f32⟩ : BufTy).Contents (Elt Ideal)) //
    ∀ W : Valuation τ sig (Elt Ideal), StableHlo.after preOps W (Proc.devRef .tc main_v48) = G (W (Proc.devRef .tc main_arg1)) } := by
  refine ⟨?G, fun W => ?_⟩
  show StableHlo.after (hostOps0 (F := Ideal) ++ hostOps0_1 (F := Ideal) ++ (hostOps0_2 (F := Ideal)).take 50) W (Proc.devRef .tc main_v48) = _
  simp only [hostOps0, hostOps0_1, hostOps0_2, List.take_succ_cons, List.take_zero, List.cons_append, List.nil_append]
  after_results_simp
  generalize W (Proc.devRef .tc main_arg1) = L
  exact rfl

end Cert.KernelIdeal.Hand

end
-- ==== Proof.IdealPre51.lean ====
/-
  What the host operations before the encode's tail leave in one of the buffers the tail consumes, as a function of
  the labels argument alone (every buffer read on the way is written before it is read).
-/
import proofs.«142171_j11467562680721_2_alg».proof.Proof.IdealEncode

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

set_option maxHeartbeats 16000000 in
def pre51 : { G : ((⟨S16384x8x5, .f32⟩ : BufTy).Contents (Elt Ideal)) → ((⟨S16384x7x7x30, .f32⟩ : BufTy).Contents (Elt Ideal)) //
    ∀ W : Valuation τ sig (Elt Ideal), StableHlo.after preOps W (Proc.devRef .tc main_v51) = G (W (Proc.devRef .tc main_arg1)) } := by
  refine ⟨?G, fun W => ?_⟩
  show StableHlo.after (hostOps0 (F := Ideal) ++ hostOps0_1 (F := Ideal) ++ (hostOps0_2 (F := Ideal)).take 50) W (Proc.devRef .tc main_v51) = _
  simp only [hostOps0, hostOps0_1, hostOps0_2, List.take_succ_cons, List.take_zero, List.cons_append, List.nil_append]
  after_results_simp
  generalize W (Proc.devRef .tc main_arg1) = L
  exact rfl

end Cert.KernelIdeal.Hand

end
-- ==== Proof.IdealPre68.lean ====
/-
  What the host operations before the encode's tail leave in one of the buffers the tail consumes, as a function of
  the labels argument alone (every buffer read on the way is written before it is read).
-/
import proofs.«142171_j11467562680721_2_alg».proof.Proof.IdealEncode

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

set_option maxHeartbeats 16000000 in
def pre68 : { G : ((⟨S16384x8x5, .f32⟩ : BufTy).Contents (Elt Ideal)) → ((⟨S16384x8x1, .i32⟩ : BufTy).Contents (Elt Ideal)) //
    ∀ W : Valuation τ sig (Elt Ideal), StableHlo.after preOps W (Proc.devRef .tc main_v68) = G (W (Proc.devRef .tc main_arg1)) } := by
  refine ⟨?G, fun W => ?_⟩
  show StableHlo.after (hostOps0 (F := Ideal) ++ hostOps0_1 (F := Ideal) ++ (hostOps0_2 (F := Ideal)).take 50) W (Proc.devRef .tc main_v68) = _
  simp only [hostOps0, hostOps0_1, hostOps0_2, List.take_succ_cons, List.take_zero, List.cons_append, List.nil_append]
  after_results_simp
  generalize W (Proc.devRef .tc main_arg1) = L
  exact rfl

end Cert.KernelIdeal.Hand

end
-- ==== Proof.IdealPre69.lean ====
/-
  What the host operations before the encode's tail leave in one of the buffers the tail consumes, as a function of
  the labels argument alone (every buffer read on the way is written before it is read).
-/
import proofs.«142171_j11467562680721_2_alg».proof.Proof.IdealEncode

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

set_option maxHeartbeats 16000000 in
def pre69 : { G : ((⟨S16384x8x5, .f32⟩ : BufTy).Contents (Elt Ideal)) → ((⟨S16384x8x1, .i32⟩ : BufTy).Contents (Elt Ideal)) //
    ∀ W : Valuation τ sig (Elt Ideal), StableHlo.after preOps W (Proc.devRef .tc main_v69) = G (W (Proc.devRef .tc main_arg1)) } := by
  refine ⟨?G, fun W => ?_⟩
  show StableHlo.after (hostOps0 (F := Ideal) ++ hostOps0_1 (F := Ideal) ++ (hostOps0_2 (F := Ideal)).take 50) W (Proc.devRef .tc main_v69) = _
  simp only [hostOps0, hostOps0_1, hostOps0_2, List.take_succ_cons, List.take_zero, List.cons_append, List.nil_append]
  after_results_simp
  generalize W (Proc.devRef .tc main_arg1) = L
  exact rfl

end Cert.KernelIdeal.Hand

end
-- ==== Proof.IdealPre70.lean ====
/-
  What the host operations before the encode's tail leave in one of the buffers the tail consumes, as a function of
  the labels argument alone (every buffer read on the way is written before it is read).
-/
import proofs.«142171_j11467562680721_2_alg».proof.Proof.IdealEncode

set_option maxRecDepth 65536

noncomputable section

namespace Cert.KernelIdeal.Hand

open Cert.KernelIdeal Cert.KernelIdeal.Gen
open Idealize.ShloMosaic Idealize.ShloMosaic.TcCoe Idealize.ShloMosaic.StableHlo Idealize.SL.Sem

set_option maxHeartbeats 16000000 in
def pre70 : { G : ((⟨S16384x8x5, .f32⟩ : BufTy).Contents (Elt Ideal)) → ((⟨S16384x8x1, .i32⟩ : BufTy).Contents (Elt Ideal)) //
    ∀ W : Valuation τ sig (Elt Ideal), StableHlo.after preOps W (Proc.devRef .tc main_v70) = G (W (Proc.devRef .tc main_arg1)) } := by
  refine ⟨?G, fun W => ?_⟩
  show StableHlo.after (hostOps0 (F := Ideal) ++ hostOps0_1 (F := Ideal) ++ (hostOps0_2 (F := Ideal)).take 50) W (Proc.devRef .tc main_v70) = _
  simp only [hostOps0, hostOps0_1, hostOps0_2, List.take_succ_cons, List.take_zero, List.cons_append, List.nil_append]
  after_results_simp
  generalize W (Proc.devRef .tc main_arg1) = L
  exact rfl

end Cert.KernelIdeal.Hand

end
-- ==== Proof.LibRowLayout.lean ====
/-
  Rows of a matrix read by coordinates: what the layout and reduction operations of a row-wise computation give at
  an index written `ix1 p` / `ix2 p j`.

  • a vector `[a]` cast to a column `[a, 1]` reads, at `(p, u)`, entry `p`;
  • a column `[a, 1]` broadcast to `[a, b]` reads, at `(p, j)`, the column's entry `(p, 0)`;
  • the index obtained from the reduced index `p` by putting coordinate `k` back on axis 1 is `(p, k)`;
  • hence a reduction of an `[a, b]` array over axis 1, read at `p`, runs over the row `j ↦ (p, j)`: a sum for an
    `add` reduction (the kernel's and the host's), a fold of `max` for a `maximumf` one (the kernel's and the host's).
-/
import Idealize.ShloMosaic.Lib.ValueLayout
import Idealize.ShloMosaic.Lib.ValueIdx
import Idealize.ShloMosaic.PureOps.Ideal.Laws
import Idealize.ShloMosaic.PureOps.Reduce

noncomputable section

open scoped BigOperators

namespace Cert.RowLayout

open Idealize.ShloMosaic Idealize.ShloMosaic.ValueIdx

variable {α : Type}

/-! ## The column forms of a cast and a broadcast -/

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, j)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-! ## A reduction over axis 1 runs over the row -/

/-- The reduced index `p` with column `k` put back on axis 1 is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The kernel's `add` reduction of an `[a, b]` array over axis 1, read at row `p`: the sum over the row. -/
theorem multiReduction_add_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] (⟨1, ![a]⟩ : Shape) src acc h hφ hacc (ix1 p) = ∑ j : Fin b, src (ix2 p j) := by
  refine (Ideal.multiReduction_add_single src acc h hφ hacc (ix1 p)).trans ?_
  exact Finset.sum_congr rfl fun k _ => congrArg src (lift_row h p k)

/-- The kernel's `maximumf` reduction of an `[a, b]` array over axis 1, read at row `p`: the fold of `max` from the
    accumulator's value over the row. -/
theorem multiReduction_maximumf_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) fun j => src (ix2 p j) := by
  refine (Ideal.multiReduction_maximumf_single src acc h hφ hacc (ix1 p)).trans ?_
  have hf : (src ∘ h.lift (ix1 p)) = fun k : Fin b => src (ix2 p k) :=
    funext fun k => congrArg src (lift_row h p k)
  exact congrArg (fun f => Finset.fold max (Ideal.ofBits .f32 acc) f (Finset.univ : Finset (Fin b))) hf

/-- The host's reduce with a maximum body of an `[a, b]` array over axis 1, read at row `p`: the fold of `max` from the
    initial value's element over the row. -/
theorem hostReduce_maximumf_row {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) fun j => x (ix2 p j) := by
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Cert.RowLayout

end
-- ==== Proof.LibColumnSum.lean ====
/-
  The sum of the rows' values, taken two ways: the host's sum of a `[1024, 1]` column over both of its axes and the
  host's sum of a `[1024]` vector over its one axis. Each is the initial value plus the sum of all entries; the
  column's entries are indexed by `(r, 0)`, the vector's by `r`, so when the two agree entry by entry the two sums
  are one.
-/
import Idealize.ShloMosaic.PureOps.Ideal.Laws
import Idealize.ShloMosaic.Lib.ValueIdx

noncomputable section

open scoped BigOperators

namespace Cert.RowSum

open Idealize.ShloMosaic Idealize.ShloMosaic.ValueIdx

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the index set of an `[n, 1]` column is the sum over its rows of the entry `(r, 0)`. -/
theorem sum_column {M : Type*} [AddCommMonoid M] {n : Nat} (f : (⟨2, ![n, 1]⟩ : Shape).Idx → M) :
    ∑ i, f i = ∑ r : Fin n, f (ix2 r (0 : Fin 1)) := by
  rw [sum_idx2]
  exact Finset.sum_congr rfl fun r _ => Fin.sum_univ_one fun b : Fin 1 => f (ix2 r b)

/-- The host's sum of a `[1024, 1]` column over both axes and its sum of a `[1024]` vector over its axis, from the
    same initial value, agree when the column's entry `(r, 0)` is the vector's entry `r` for every `r`. -/
theorem hostReduceAdd_column_eq_vector (O : FVec Ideal ⟨2, ![1024, 1]⟩ .f32) (R : FVec Ideal ⟨1, ![1024]⟩ .f32)
    (hOR : ∀ r : Fin 1024, O (ix2 r (0 : Fin 1)) = R (ix1 r))
    (h1 : (⟨2, ![1024, 1]⟩ : Shape).ReducesTo [0, 1] ⟨0, ![]⟩) (h2 : (⟨1, ![1024]⟩ : Shape).ReducesTo [0] ⟨0, ![]⟩)
    (hu : 0 < (⟨0, ![]⟩ : Shape).numel) (init : FVec Ideal ⟨0, ![]⟩ .f32) :
    Host.reduceAdd (F := Ideal) O init h1 hu = Host.reduceAdd (F := Ideal) R init h2 hu := by
  funext i
  simp only [Host.reduceAdd, Ideal.hostReduceAdd_def]
  rw [Ideal.hostReduceAdd_total h1 (fun b => b.elim0), Ideal.hostReduceAdd_total h2 (fun b => b.elim0),
    sum_column, sum_idx1]
  exact congrArg (init (Shape.Idx.first hu) + ·) (Finset.sum_congr rfl fun r _ => hOR r)

end Cert.RowSum

end
-- ==== Proof.LossSpec.lean ====
/-
  The per-row quantities of the YOLO-style loss, on the extended reals. A row has 30 entries: two boxes of five
  (centre offsets, sizes, confidence) and 20 class scores; the target row's entry 10 doubles as class index (after
  truncation) and as object indicator (when positive).
-/
import Idealize.ShloMosaic.PureOps.Ideal
import Idealize.ShloMosaic.Lib.ValueIdx

noncomputable section

open scoped BigOperators

namespace Cert.Loss

open Idealize.ShloMosaic Idealize.ShloMosaic.ValueIdx

/-- The object mask of a row from its target slot: 1 if the slot is positive, else 0. -/
def maskOf (tv : EReal) : EReal :=
  FloatOps.sitofp (F := Ideal) .f32 (BitVec.setWidth 32 (FloatOps.cmpf (F := Ideal) .ogt tv (FloatOps.ofBits .f32 0#32)))

/-- The squared difference of two entries. -/
def sq (a b : EReal) : EReal := (a - b) * (a - b)

/-- The row's squared box error: entries 0, 1 and 5, 6 (the centre offsets of the two boxes), then 2, 3 and 7, 8 (their sizes). -/
def boxErr (x y : Fin 30 → EReal) : EReal :=
  ((sq (x 0) (y 0) + sq (x 1) (y 1)) + (sq (x 5) (y 5) + sq (x 6) (y 6)))
    + ((sq (x 2) (y 2) + sq (x 3) (y 3)) + (sq (x 7) (y 7) + sq (x 8) (y 8)))

/-- The largest of a row's 20 class scores. -/
def rowMax (s : Fin 20 → EReal) : EReal := (Finset.univ : Finset (Fin 20)).fold max ⊥ s
/-- The log-softmax of class c. -/
def logSoft (s : Fin 20 → EReal) (c : Fin 20) : EReal :=
  (s c - rowMax s) - Ideal.log (∑ k : Fin 20, Ideal.exp (s k - rowMax s))
/-- The one-hot selection of the log-softmax at the class index the target slot truncates to, summed over the classes. -/
def pick (s : Fin 20 → EReal) (tv : EReal) : EReal :=
  ∑ c : Fin 20, Scalar.select (IntOp.cmpi .eq (BitVec.ofNat 32 c.val) (FloatOps.fptosi (F := Ideal) (φ := .f32) 32 tv)) (logSoft s c) (FloatOps.ofBits (F := Ideal) .f32 0#32)

/-- Row r of a [802816, 30] array, and its 20 class scores. -/
abbrev grow (x : (⟨2, ![802816, 30]⟩ : Shape).Idx → EReal) (r : Fin 802816) : Fin 30 → EReal := fun k => x (ix2 r k)
abbrev gscores (x : (⟨2, ![802816, 30]⟩ : Shape).Idx → EReal) (r : Fin 802816) : Fin 20 → EReal := fun c => x (ix2 r ⟨10 + c.val, by omega⟩)

end Cert.Loss

end
-- ==== Proof.IdealRows.lean ====
/-
  The three accumulator updates of one grid point, read entry by entry on the extended reals. With p and q the
  prediction and target blocks (12544 rows of 30), row r contributes: to the first accumulator minus the
  log-softmax of its 20 class scores p[r, 10..29] at the class index trunc(q[r, 10]) (written as the sum over the 20
  classes of the one-hot selection); to the second its object mask [q[r, 10] > 0]; to the third the mask times the
  squared differences of entries 0,1,5,6 and 2,3,7,8. Each update adds the sum over the block's rows.
-/
import proofs.«142171_j11467562680721_2_alg».proof.Proof.Gen.KernelIdeal.Skeleton
import proofs.«142171_j11467562680721_2_alg».proof.Proof.LibRowLayout
import proofs.«142171_j11467562680721_2_alg».proof.Proof.LibColumnSum
import proofs.«142171_j11467562680721_2_alg».proof.Proof.LossSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Rows

open Cert.KernelIdeal Cert.KernelIdeal.Gen Cert.Loss
open Idealize.ShloMosaic Idealize.ShloMosaic.ValueIdx

/-- Row r of a block as a function of the column. -/
abbrev row (x : Vec Ideal S12544x30 .f32) (r : Fin 12544) : Fin 30 → EReal := fun k => x (ix2 r k)
/-- The 20 class scores of row r. -/
abbrev scores (x : Vec Ideal S12544x30 .f32) (r : Fin 12544) : Fin 20 → EReal := fun c => x (ix2 r ⟨10 + c.val, by omega⟩)

/-- A reduction of an [a, 1] column over axis 0 runs over the column. -/
theorem lift_col {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

theorem multiReduction_add_col {a : ℕ} (src : FVec Ideal ⟨2, ![a, 1]⟩ .f32) (acc : BitVec 32)
    (h : (⟨2, ![a, 1]⟩ : Shape).Reduces [0] (⟨1, ![1]⟩ : Shape)) (hφ : FKind.Formats .f32)
    (hacc : acc = FKind.add.neutral .f32 hφ) (u : Fin 1) :
    multiReduction .add [0] (⟨1, ![1]⟩ : Shape) src acc h hφ hacc (ix1 u) = ∑ r : Fin a, src (ix2 r u) := by
  refine (Ideal.multiReduction_add_single src acc h hφ hacc (ix1 u)).trans ?_
  exact Finset.sum_congr rfl fun k _ => congrArg src (lift_col h u k)

/-- A column slice of a block: entry (r, j) of the slice from column o is entry (r, o + j). -/
theorem slice_apply {mw : ℕ} (o : ℕ) (x : Vec Ideal S12544x30 .f32)
    (h : (⟨2, ![12544, 30]⟩ : Shape).Slices ![0, o] ⟨2, ![12544, mw]⟩) (hs : S12544x30.ShapeCasts S12544x30)
    (r : Fin 12544) (j : Fin mw) (k : Fin 30) (hk : k.val = o + j.val) :
    extractStridedSlice ⟨2, ![12544, mw]⟩ ![0, o] (shapeCast S12544x30 x hs) h (ix2 r j) = x (ix2 r k) :=
  (slice2_axis1_apply o _ h r j k hk).trans (congrFun (shapeCast_self x hs) _)

theorem pay7_apply (q : Vec Ideal S12544x30 .f32) (r : Fin 12544) (u : Fin 1) :
    k0_pay7 q (ix2 r u) = q (ix2 r (10 : Fin 30)) := by
  unfold k0_pay7 k0_pay6
  exact slice_apply 10 q _ _ r u 10 (by have := u.isLt; show 10 = 10 + u.val; omega)

theorem pay9_apply (q : Vec Ideal S12544x30 .f32) (r : Fin 12544) (u : Fin 1) :
    k0_pay9 q (ix2 r u) = maskOf (q (ix2 r (10 : Fin 30))) := by
  unfold k0_pay9
  show FloatOps.sitofp .f32 ((FloatOps.cmpf .ogt (k0_pay7 q (ix2 r u)) (Scalar.ofBits .f32 0x00000000#32)).setWidth 32) = _
  rw [pay7_apply]
  rfl

/-- The word of minus infinity denotes the bottom of the extended reals; the zero word denotes zero. -/
theorem ofBits_neg_inf : Ideal.ofBits .f32 0xFF800000#32 = (⊥ : EReal) := by
  simp [Ideal.ofBits, Ideal.ieee]

/-- The lane sum of a [12544, w] array cast to a column, at row r: the sum over the row. -/
theorem rowsum {w : ℕ} (x : FVec Ideal ⟨2, ![12544, w]⟩ .f32)
    (h : (⟨2, ![12544, w]⟩ : Shape).Reduces [1] (⟨1, ![12544]⟩ : Shape)) (hφ : FKind.Formats .f32)
    (hacc : (0x00000000#32 : BitVec 32) = FKind.add.neutral .f32 hφ)
    (hc : (⟨1, ![12544]⟩ : Shape).ShapeCasts ⟨2, ![12544, 1]⟩) (r : Fin 12544) (u : Fin 1) :
    shapeCast ⟨2, ![12544, 1]⟩ (multiReduction .add [1] (⟨1, ![12544]⟩ : Shape) x 0x00000000#32 h hφ hacc) hc (ix2 r u)
      = ∑ k : Fin w, x (ix2 r k) :=
  (Cert.RowLayout.shapeCast_a_a1_apply _ hc r u).trans (Cert.RowLayout.multiReduction_add_row x _ h hφ hacc r)

/-- The lane maximum of a [12544, w] array from minus infinity, cast to a column and broadcast back, at (r, c):
    the largest entry of row r. -/
theorem rowmax {w : ℕ} (x : FVec Ideal ⟨2, ![12544, w]⟩ .f32)
    (h : (⟨2, ![12544, w]⟩ : Shape).Reduces [1] (⟨1, ![12544]⟩ : Shape)) (hφ : FKind.Formats .f32)
    (hacc : (0xFF800000#32 : BitVec 32) = FKind.maximumf.neutral .f32 hφ)
    (hc : (⟨1, ![12544]⟩ : Shape).ShapeCasts ⟨2, ![12544, 1]⟩)
    (hb : (⟨2, ![12544, 1]⟩ : Shape).Broadcasts ⟨2, ![12544, w]⟩) (r : Fin 12544) (c : Fin w) :
    broadcastTo ⟨2, ![12544, w]⟩ (shapeCast ⟨2, ![12544, 1]⟩ (multiReduction .maximumf [1] (⟨1, ![12544]⟩ : Shape) x 0xFF800000#32 h hφ hacc) hc) hb (ix2 r c)
      = (Finset.univ : Finset (Fin w)).fold max ⊥ fun k => x (ix2 r k) := by
  rw [Cert.RowLayout.broadcastTo_a1_ab_apply _ hb r c, Cert.RowLayout.shapeCast_a_a1_apply _ hc r (0 : Fin 1),
    Cert.RowLayout.multiReduction_maximumf_row x _ h hφ hacc r, ofBits_neg_inf]

/-- A column broadcast to 20 lanes reads the column's entry. -/
theorem colcast {α : Type} {w : ℕ} (v : (⟨2, ![12544, 1]⟩ : Shape).Idx → α)
    (hb : (⟨2, ![12544, 1]⟩ : Shape).Broadcasts ⟨2, ![12544, w]⟩) (r : Fin 12544) (c : Fin w) :
    broadcastTo ⟨2, ![12544, w]⟩ v hb (ix2 r c) = v (ix2 r (0 : Fin 1)) :=
  Cert.RowLayout.broadcastTo_a1_ab_apply v hb r c

/-- A column sum cast to the 1x1 result, added to what the accumulator held. -/
theorem colsum_add (v : FVec Ideal S12544x1 .f32) (a : Vec Ideal S1x1 .f32)
    (h : S12544x1.Reduces [0] S1) (hφ : FKind.Formats .f32) (hacc : (0x00000000#32 : BitVec 32) = FKind.add.neutral .f32 hφ)
    (hc : S1.ShapeCasts S1x1) (hs : S1x1.ShapeCasts S1x1) (i j : Fin 1) :
    shapeCast S1x1 (addf a (shapeCast S1x1 (multiReduction .add [0] S1 v 0x00000000#32 h hφ hacc) hc)) hs (ix2 i j)
      = a (ix2 i j) + ∑ r : Fin 12544, v (ix2 r i) := by
  rw [shapeCast_self]
  show a (ix2 i j) + shapeCast S1x1 (multiReduction .add [0] S1 v 0x00000000#32 h hφ hacc) hc (ix2 i j) = _
  rw [Cert.RowLayout.shapeCast_a_a1_apply _ hc i j, multiReduction_add_col v _ h hφ hacc i]

/-- The second accumulator's update: plus the block's object count. -/
theorem pay18_apply (q : Vec Ideal S12544x30 .f32) (a1 : Vec Ideal S1x1 .f32) (i j : Fin 1) :
    k0_pay18 (k0_pay9 q) a1 (ix2 i j) = a1 (ix2 i j) + ∑ r : Fin 12544, maskOf (q (ix2 r (10 : Fin 30))) := by
  unfold k0_pay18
  refine (colsum_add (k0_pay9 q) a1 _ _ _ _ _ i j).trans ?_
  exact congrArg (a1 (ix2 i j) + ·) (Finset.sum_congr rfl fun r _ => pay9_apply q r i)

/-- The two columns o, o + 1 of a block, and the squared difference of those columns of two blocks. -/
abbrev cols (o : ℕ) (x : Vec Ideal S12544x30 .f32)
    (h : (⟨2, ![12544, 30]⟩ : Shape).Slices ![0, o] ⟨2, ![12544, 2]⟩) (hs : S12544x30.ShapeCasts S12544x30) :
    FVec Ideal ⟨2, ![12544, 2]⟩ .f32 :=
  extractStridedSlice ⟨2, ![12544, 2]⟩ ![0, o] (shapeCast S12544x30 x hs) h
abbrev sqcols (o : ℕ) (p q : Vec Ideal S12544x30 .f32)
    (h : (⟨2, ![12544, 30]⟩ : Shape).Slices ![0, o] ⟨2, ![12544, 2]⟩) (hs : S12544x30.ShapeCasts S12544x30) :
    FVec Ideal ⟨2, ![12544, 2]⟩ .f32 :=
  mulf (subf (cols o p h hs) (cols o q h hs)) (subf (cols o p h hs) (cols o q h hs))

/-- At (r, j) the squared difference of the column slices is the squared difference of entries o + j. -/
theorem sqslice (o : ℕ) (p q : Vec Ideal S12544x30 .f32)
    (h : (⟨2, ![12544, 30]⟩ : Shape).Slices ![0, o] ⟨2, ![12544, 2]⟩) (hs : S12544x30.ShapeCasts S12544x30)
    (r : Fin 12544) (j : Fin 2) (k : Fin 30) (hk : k.val = o + j.val) :
    sqcols o p q h hs (ix2 r j) = sq (p (ix2 r k)) (q (ix2 r k)) := by
  show (cols o p h hs (ix2 r j) - cols o q h hs (ix2 r j)) * (cols o p h hs (ix2 r j) - cols o q h hs (ix2 r j)) = _
  rw [show cols o p h hs (ix2 r j) = p (ix2 r k) from slice_apply o p h hs r j k hk,
    show cols o q h hs (ix2 r j) = q (ix2 r k) from slice_apply o q h hs r j k hk]
  rfl

/-- The pair sum of squared differences of entries o and o + 1 of row r. -/
theorem pairsum (o : ℕ) (p q : Vec Ideal S12544x30 .f32)
    (h : (⟨2, ![12544, 30]⟩ : Shape).Slices ![0, o] ⟨2, ![12544, 2]⟩) (hs : S12544x30.ShapeCasts S12544x30)
    (hr : (⟨2, ![12544, 2]⟩ : Shape).Reduces [1] (⟨1, ![12544]⟩ : Shape)) (hφ : FKind.Formats .f32)
    (hacc : (0x00000000#32 : BitVec 32) = FKind.add.neutral .f32 hφ)
    (hc : (⟨1, ![12544]⟩ : Shape).ShapeCasts ⟨2, ![12544, 1]⟩) (r : Fin 12544) (u : Fin 1)
    (k0 k1 : Fin 30) (h0 : k0.val = o) (h1 : k1.val = o + 1) :
    shapeCast ⟨2, ![12544, 1]⟩ (multiReduction .add [1] (⟨1, ![12544]⟩ : Shape) (sqcols o p q h hs) 0x00000000#32 hr hφ hacc) hc (ix2 r u)
      = sq (p (ix2 r k0)) (q (ix2 r k0)) + sq (p (ix2 r k1)) (q (ix2 r k1)) := by
  rw [rowsum _ hr hφ hacc hc r u, Fin.sum_univ_two, sqslice o p q h hs r 0 k0 (by rw [h0]; rfl), sqslice o p q h hs r 1 k1 (by rw [h1]; rfl)]

set_option maxHeartbeats 1000000 in
/-- The third accumulator's update: plus the block's masked squared box error. -/
theorem pay19_apply (p q : Vec Ideal S12544x30 .f32) (a2 : Vec Ideal S1x1 .f32) (i j : Fin 1) :
    k0_pay19 (k0_pay9 q) (k0_pay10 p) (k0_pay11 q) (k0_pay12 p) (k0_pay13 q) (k0_pay14 p) (k0_pay15 q) (k0_pay16 p q) a2 (ix2 i j)
      = a2 (ix2 i j) + ∑ r : Fin 12544, maskOf (q (ix2 r (10 : Fin 30))) * boxErr (row p r) (row q r) := by
  unfold k0_pay19 k0_pay10 k0_pay11 k0_pay12 k0_pay13 k0_pay14 k0_pay15 k0_pay16 k0_pay5 k0_pay6
  refine (colsum_add _ a2 _ _ _ _ _ i j).trans ?_
  refine congrArg (a2 (ix2 i j) + ·) (Finset.sum_congr rfl fun r _ => ?_)
  refine (mulf_apply _ _ _).trans ?_
  refine congrArg₂ (· * ·) (pay9_apply q r i) ?_
  refine (addf_apply _ _ _).trans ?_
  refine congrArg₂ (· + ·) ((addf_apply _ _ _).trans ?_) ((addf_apply _ _ _).trans ?_)
  · exact congrArg₂ (· + ·) (pairsum 0 p q _ _ _ _ _ _ r i 0 1 rfl rfl) (pairsum 5 p q _ _ _ _ _ _ r i 5 6 rfl rfl)
  · exact congrArg₂ (· + ·) (pairsum 2 p q _ _ _ _ _ _ r i 2 3 rfl rfl) (pairsum 7 p q _ _ _ _ _ _ r i 7 8 rfl rfl)

/-- The log-softmax of a block's 20 class columns, at (r, c), once the broadcast row maximum M is known to be the
    largest score of the row. -/
theorem logsoft_apply (s7 M : FVec Ideal S12544x20 .f32) (hr : S12544x20.Reduces [1] S12544) (hφ : FKind.Formats .f32)
    (hadd : (0x00000000#32 : BitVec 32) = FKind.add.neutral .f32 hφ) (hc : S12544.ShapeCasts S12544x1)
    (hb : S12544x1.Broadcasts S12544x20) (r : Fin 12544)
    (hM : ∀ k : Fin 20, M (ix2 r k) = rowMax fun k => s7 (ix2 r k)) (c : Fin 20) :
    (subf (subf s7 M) (broadcastTo S12544x20 (log (shapeCast S12544x1 (multiReduction .add [1] S12544 (exp (subf s7 M)) 0x00000000#32 hr hφ hadd) hc)) hb) : FVec Ideal S12544x20 .f32) (ix2 r c)
      = logSoft (fun k => s7 (ix2 r k)) c := by
  show (s7 (ix2 r c) - M (ix2 r c))
      - broadcastTo S12544x20 (log (shapeCast S12544x1 (multiReduction .add [1] S12544 (exp (subf s7 M)) 0x00000000#32 hr hφ hadd) hc)) hb (ix2 r c) = _
  rw [hM c, colcast _ hb r c]
  show _ - Ideal.log (shapeCast S12544x1 (multiReduction .add [1] S12544 (exp (subf s7 M)) 0x00000000#32 hr hφ hadd) hc (ix2 r (0 : Fin 1))) = _
  rw [rowsum _ hr hφ hadd hc r 0]
  unfold logSoft
  refine congrArg (fun z => _ - Ideal.log z) (Finset.sum_congr rfl fun k _ => ?_)
  show Ideal.exp (s7 (ix2 r k) - M (ix2 r k)) = _
  rw [hM k]

/-- The class columns of a block: entry (r, c) of the slice from column 10 is score c of row r. -/
theorem scores_apply (p : Vec Ideal S12544x30 .f32)
    (h : (⟨2, ![12544, 30]⟩ : Shape).Slices ![0, 10] ⟨2, ![12544, 20]⟩) (hs : S12544x30.ShapeCasts S12544x30)
    (r : Fin 12544) (c : Fin 20) :
    extractStridedSlice ⟨2, ![12544, 20]⟩ ![0, 10] (shapeCast S12544x30 p hs) h (ix2 r c) = scores p r c :=
  slice_apply 10 p h hs r c ⟨10 + c.val, by omega⟩ rfl

set_option maxHeartbeats 2000000 in
/-- The first accumulator's increment: zero minus the block's sum, over its rows, of the selected log-softmax. -/
theorem pay8_apply (p q : Vec Ideal S12544x30 .f32) (i j : Fin 1) :
    k0_pay8 p q (ix2 i j) = Ideal.ofBits .f32 0#32 - ∑ r : Fin 12544, pick (scores p r) (q (ix2 r (10 : Fin 30))) := by
  unfold k0_pay8 k0_pay5
  refine (subf_apply _ _ _).trans ?_
  refine congrArg (Ideal.ofBits .f32 0#32 - ·) ?_
  refine (Cert.RowLayout.shapeCast_a_a1_apply _ _ i j).trans ((multiReduction_add_col _ _ _ _ _ i).trans (Finset.sum_congr rfl fun r _ => ?_))
  refine (rowsum _ _ _ _ _ r i).trans (Finset.sum_congr rfl fun c _ => ?_)
  refine (select_apply _ _ _ _).trans ?_
  have hcond : ∀ (v9 : IVec S12544x1 32) (hb : S12544x1.Broadcasts S12544x20) (hi : S12544x20.Iotas .tc 32 [1]),
      v9 (ix2 r (0 : Fin 1)) = FloatOps.fptosi (F := Ideal) (φ := .f32) 32 (q (ix2 r (10 : Fin 30))) →
      cmpi .eq (iota .tc S12544x20 32 [1] hi) (broadcastTo S12544x20 v9 hb) (ix2 r c)
        = IntOp.cmpi .eq (BitVec.ofNat 32 c.val) (FloatOps.fptosi (F := Ideal) (φ := .f32) 32 (q (ix2 r (10 : Fin 30)))) := by
    intro v9 hb hi hv
    show IntOp.cmpi .eq (BitVec.ofNat 32 (0 * 20 + c.val)) (broadcastTo S12544x20 v9 hb (ix2 r c)) = _
    rw [colcast v9 hb r c, hv, Nat.zero_mul, Nat.zero_add]
  refine congr (congr (congrArg Scalar.select (hcond _ _ _ ?_)) ?_) rfl
  · show FloatOps.fptosi (F := Ideal) (φ := .f32) 32 (k0_pay7 q (ix2 r (0 : Fin 1))) = _
    rw [pay7_apply]
  · refine (logsoft_apply _ _ _ _ _ _ _ r (fun k => ?_) c).trans ?_
    · refine (rowmax _ _ _ _ _ _ r k).trans ?_
      rfl
    · exact congrArg (fun s => logSoft s c) (funext fun k => scores_apply p _ _ r k)

end Cert.KernelIdeal.Rows

end
-- ==== Proof.IdealTotals.lean ====
/-
  The accumulators over the whole grid, on the extended reals. Block t of the prediction and target arrays is
  rows 12544 t .. 12544 t + 12543. After the last point the first accumulator holds the sum over the blocks of
  (zero minus the block's selected log-softmax sum), the second the sum of the blocks' object counts, the third
  the sum of the blocks' masked squared box errors; the total is  a0 / N + 5 (a2 / (4 a1)).
-/
import proofs.«142171_j11467562680721_2_alg».proof.Proof.IdealValue
import proofs.«142171_j11467562680721_2_alg».proof.Proof.IdealRows

set_option maxRecDepth 16384

noncomputable section

open scoped BigOperators

namespace Cert.KernelIdeal.Hand

open Cert.KernelIdeal Cert.KernelIdeal.Gen Cert.KernelIdeal.Rows Cert.Loss
open Idealize.ShloMosaic Idealize.ShloMosaic.ValueIdx Idealize.ShloMosaic.TcCoe
open Idealize.SL.Sem

variable (m : (ℓ : Loc nD τ sig) → Buf (Elt Ideal) ℓ)

theorem N64 : cfg0.N = 64 := N_0

/-- One point's increments from its two blocks. -/
def inc0 (p q : Vec Ideal S12544x30 .f32) : EReal := Ideal.ofBits .f32 0#32 - ∑ r : Fin 12544, pick (scores p r) (q (ix2 r (10 : Fin 30)))
def inc1 (q : Vec Ideal S12544x30 .f32) : EReal := ∑ r : Fin 12544, maskOf (q (ix2 r (10 : Fin 30)))
def inc2 (p q : Vec Ideal S12544x30 .f32) : EReal := ∑ r : Fin 12544, maskOf (q (ix2 r (10 : Fin 30))) * boxErr (row p r) (row q r)

theorem upd0_apply (p q : Vec Ideal S12544x30 .f32) (a : Vec Ideal S1x1 .f32) (i j : Fin 1) :
    upd0 p q a (ix2 i j) = a (ix2 i j) + inc0 p q := by
  unfold upd0 k0_pay17
  rw [shapeCast_self]
  exact congrArg (a (ix2 i j) + ·) (pay8_apply p q i j)
theorem upd1_apply (q : Vec Ideal S12544x30 .f32) (a : Vec Ideal S1x1 .f32) (i j : Fin 1) :
    upd1 q a (ix2 i j) = a (ix2 i j) + inc1 q := pay18_apply q a i j
theorem upd2_apply (p q : Vec Ideal S12544x30 .f32) (a : Vec Ideal S1x1 .f32) (i j : Fin 1) :
    upd2 p q a (ix2 i j) = a (ix2 i j) + inc2 p q := pay19_apply p q a i j

theorem zero2_apply (i j : Fin 1) : (k0_pay2 (F := Ideal)) (ix2 i j) = 0 := by
  unfold k0_pay2; rw [shapeCast_self]; exact Ideal.ofBits_zero_f32
theorem zero3_apply (i j : Fin 1) : (k0_pay3 (F := Ideal)) (ix2 i j) = 0 := by
  unfold k0_pay3; rw [shapeCast_self]; exact Ideal.ofBits_zero_f32
theorem zero4_apply (i j : Fin 1) : (k0_pay4 (F := Ideal)) (ix2 i j) = 0 := by
  unfold k0_pay4; rw [shapeCast_self]; exact Ideal.ofBits_zero_f32

/-- The increments of point t (zero past the grid). -/
def I0 (c : Dev nD) (t : ℕ) : EReal := if h : t < cfg0.N then inc0 (iblk m c 0 ⟨t, h⟩) (iblk m c 1 ⟨t, h⟩) else 0
def I1 (c : Dev nD) (t : ℕ) : EReal := if h : t < cfg0.N then inc1 (iblk m c 1 ⟨t, h⟩) else 0
def I2 (c : Dev nD) (t : ℕ) : EReal := if h : t < cfg0.N then inc2 (iblk m c 0 ⟨t, h⟩) (iblk m c 1 ⟨t, h⟩) else 0

/-- After point n each accumulator is the sum of the increments of points 0..n. -/
theorem accs_sum (c : Dev nD) (i j : Fin 1) : ∀ (n : ℕ) (h : n < cfg0.N),
    (accs m c n h).1 (ix2 i j) = ∑ t ∈ Finset.range (n + 1), I0 m c t
    ∧ (accs m c n h).2.1 (ix2 i j) = ∑ t ∈ Finset.range (n + 1), I1 m c t
    ∧ (accs m c n h).2.2 (ix2 i j) = ∑ t ∈ Finset.range (n + 1), I2 m c t
  | 0, h => by
    have s0 : ∀ f : ℕ → EReal, ∑ t ∈ Finset.range (0 + 1), f t = f 0 := fun f => by simp
    rw [accs_zero]
    refine ⟨?_, ?_, ?_⟩
    · show upd0 _ _ k0_pay2 (ix2 i j) = _
      rw [upd0_apply, zero2_apply, zero_add, s0]; simp only [I0, dif_pos h]
    · show upd1 _ k0_pay3 (ix2 i j) = _
      rw [upd1_apply, zero3_apply, zero_add, s0]; simp only [I1, dif_pos h]
    · show upd2 _ _ k0_pay4 (ix2 i j) = _
      rw [upd2_apply, zero4_apply, zero_add, s0]; simp only [I2, dif_pos h]
  | n + 1, h => by
    obtain ⟨e0, e1, e2⟩ := accs_sum c i j n (Nat.lt_of_succ_lt h)
    rw [accs_succ]
    refine ⟨?_, ?_, ?_⟩
    · show upd0 _ _ _ (ix2 i j) = _
      rw [upd0_apply, e0, Finset.sum_range_succ _ (n + 1)]; simp only [I0, dif_pos h]
    · show upd1 _ _ (ix2 i j) = _
      rw [upd1_apply, e1, Finset.sum_range_succ _ (n + 1)]; simp only [I1, dif_pos h]
    · show upd2 _ _ _ (ix2 i j) = _
      rw [upd2_apply, e2, Finset.sum_range_succ _ (n + 1)]; simp only [I2, dif_pos h]

/-- The loss of three 1x1 accumulators, read at the one entry. -/
theorem lossOf_apply (a0 a1 a2 : Vec Ideal S1x1 .f32) (i j : Fin 1) :
    lossOf a0 a1 a2 (ix2 i j)
      = Ideal.div (a0 (ix2 i j)) (Ideal.ofBits .f32 0x49440000#32)
        + Ideal.ofBits .f32 0x40A00000#32 * Ideal.div (a2 (ix2 i j)) (a1 (ix2 i j) * Ideal.ofBits .f32 0x40800000#32) := rfl

/-- The total: the loss of the three sums over the 64 points. -/
theorem total_apply (c : Dev nD) (i j : Fin 1) :
    total m c (ix2 i j)
      = Ideal.div (∑ t ∈ Finset.range 64, I0 m c t) (Ideal.ofBits .f32 0x49440000#32)
        + Ideal.ofBits .f32 0x40A00000#32 * Ideal.div (∑ t ∈ Finset.range 64, I2 m c t) ((∑ t ∈ Finset.range 64, I1 m c t) * Ideal.ofBits .f32 0x40800000#32) := by
  obtain ⟨e0, e1, e2⟩ := accs_sum m c i j 63 last_lt
  unfold total
  rw [lossOf_apply, e0, e1, e2]

end Cert.KernelIdeal.Hand

end
-- ==== Proof.IdealGlobal.lean ====
/-
  The blocks as rows of the whole arrays. Block t of the flattened prediction P and of the flattened target T is
  rows 12544 t .. 12544 t + 12543; so a point's increments are sums over those global rows, the object count and the
  masked box error over all 64 points are sums over all 802816 rows, and the first accumulator is the sum over the
  blocks of zero minus the block's selected log-softmax sum.
-/
import proofs.«142171_j11467562680721_2_alg».proof.Proof.IdealTotals

set_option maxRecDepth 16384

noncomputable section

open scoped BigOperators

namespace Cert.KernelIdeal.Hand

open Cert.KernelIdeal Cert.KernelIdeal.Gen Cert.KernelIdeal.Rows Cert.Loss
open Idealize.ShloMosaic Idealize.ShloMosaic.ValueIdx Idealize.ShloMosaic.TcCoe
open Idealize.SL.Sem

variable (m : (ℓ : Loc nD τ sig) → Buf (Elt Ideal) ℓ)

/-- The flattened prediction and the flattened encoded target, as the region finds them. -/
def Parr (c : Dev nD) : (⟨2, ![802816, 30]⟩ : Shape).Idx → EReal := V m c (Pipeline.arrRef spec0 0)
def Tarr (c : Dev nD) : (⟨2, ![802816, 30]⟩ : Shape).Idx → EReal := V m c (Pipeline.arrRef spec0 1)

/-- Both input windows walk their arrays block by block along the rows. -/
theorem idx01 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem grow_lt (t : Fin cfg0.N) (r : Fin 12544) : t.val * 12544 + r.val < 802816 := by
  have : t.val < 64 := lt_of_lt_of_eq t.isLt N_0
  have := r.isLt
  omega

/-- Entry (r, k) of block t of an array the first window walks is entry (12544 t + r, k) of the array. -/
theorem blk0_read (A : (⟨2, ![802816, 30]⟩ : Shape).Idx → EReal) (t : Fin cfg0.N) (r : Fin 12544) (k : Fin 30) :
    ((cfg0.win 0).blk t).view.read (Elt Ideal) A (ix2 r k) = A (ix2 ⟨t.val * 12544 + r.val, grow_lt t r⟩ k) := by
  obtain ⟨e0, e1, e2, e3⟩ := idx01 t
  show A (((cfg0.win 0).blk t).view.emb (ix2 r k)) = _
  refine congrArg A (funext fun a => Fin.ext ?_)
  match a with
  | ⟨0, _⟩ => show win0_0.index t (0 : Fin 2) * 12544 + 1 * r.val = t.val * 12544 + r.val; omega
  | ⟨1, _⟩ => show win0_0.index t (1 : Fin 2) * 30 + 1 * k.val = k.val; omega

/-- The same for the second window. -/
theorem blk1_read (A : (⟨2, ![802816, 30]⟩ : Shape).Idx → EReal) (t : Fin cfg0.N) (r : Fin 12544) (k : Fin 30) :
    ((cfg0.win 1).blk t).view.read (Elt Ideal) A (ix2 r k) = A (ix2 ⟨t.val * 12544 + r.val, grow_lt t r⟩ k) := by
  obtain ⟨e0, e1, e2, e3⟩ := idx01 t
  show A (((cfg0.win 1).blk t).view.emb (ix2 r k)) = _
  refine congrArg A (funext fun a => Fin.ext ?_)
  match a with
  | ⟨0, _⟩ => show win0_1.index t (0 : Fin 2) * 12544 + 1 * r.val = t.val * 12544 + r.val; omega
  | ⟨1, _⟩ => show win0_1.index t (1 : Fin 2) * 30 + 1 * k.val = k.val; omega

/-- A window's block is that block of its array. -/
theorem iblk0_eq (c : Dev nD) (t : Fin cfg0.N) : iblk m c 0 t = ((cfg0.win 0).blk t).view.read (Elt Ideal) (Parr m c) := by
  unfold iblk Parr; rfl
theorem iblk1_eq (c : Dev nD) (t : Fin cfg0.N) : iblk m c 1 t = ((cfg0.win 1).blk t).view.read (Elt Ideal) (Tarr m c) := by
  unfold iblk Tarr; rfl

theorem iblk0_apply (c : Dev nD) (t : Fin cfg0.N) (r : Fin 12544) (k : Fin 30) :
    iblk m c 0 t (ix2 r k) = Parr m c (ix2 ⟨t.val * 12544 + r.val, grow_lt t r⟩ k) := by
  rw [iblk0_eq]; exact blk0_read (Parr m c) t r k
theorem iblk1_apply (c : Dev nD) (t : Fin cfg0.N) (r : Fin 12544) (k : Fin 30) :
    iblk m c 1 t (ix2 r k) = Tarr m c (ix2 ⟨t.val * 12544 + r.val, grow_lt t r⟩ k) := by
  rw [iblk1_eq]; exact blk1_read (Tarr m c) t r k

theorem lt_cfg {t : ℕ} (h : t < 64) : t < cfg0.N := by rw [show cfg0.N = 64 from N_0]; exact h
theorem lt_64 {t : ℕ} (h : t < cfg0.N) : t < 64 := by rw [show cfg0.N = 64 from N_0] at h; exact h

/-- The object count of point t, over its global rows. -/
theorem I1_global (c : Dev nD) (t : ℕ) :
    I1 m c t = if h : t < 64 then ∑ r : Fin 12544, maskOf (Tarr m c (ix2 ⟨t * 12544 + r.val, by omega⟩ (10 : Fin 30))) else 0 := by
  unfold I1
  by_cases h : t < 64
  · rw [dif_pos (lt_cfg h), dif_pos h]
    unfold inc1
    exact Finset.sum_congr rfl fun r _ => by rw [iblk1_apply]
  · rw [dif_neg (fun h' => h (lt_64 h')), dif_neg h]

/-- The masked box error of point t, over its global rows. -/
theorem I2_global (c : Dev nD) (t : ℕ) :
    I2 m c t = if h : t < 64 then ∑ r : Fin 12544, maskOf (Tarr m c (ix2 ⟨t * 12544 + r.val, by omega⟩ (10 : Fin 30)))
        * boxErr (grow (Parr m c) ⟨t * 12544 + r.val, by omega⟩) (grow (Tarr m c) ⟨t * 12544 + r.val, by omega⟩) else 0 := by
  unfold I2
  by_cases h : t < 64
  · rw [dif_pos (lt_cfg h), dif_pos h]
    unfold inc2
    refine Finset.sum_congr rfl fun r _ => ?_
    rw [iblk1_apply]
    refine congrArg₂ (fun a b => maskOf _ * boxErr a b) (funext fun k => ?_) (funext fun k => ?_)
    · exact iblk0_apply m c ⟨t, lt_cfg h⟩ r k
    · exact iblk1_apply m c ⟨t, lt_cfg h⟩ r k
  · rw [dif_neg (fun h' => h (lt_64 h')), dif_neg h]

/-- The first accumulator's increment of point t, over its global rows. -/
theorem I0_global (c : Dev nD) (t : ℕ) :
    I0 m c t = if h : t < 64 then (Ideal.ofBits .f32 0#32 - ∑ r : Fin 12544, pick (gscores (Parr m c) ⟨t * 12544 + r.val, by omega⟩)
        (Tarr m c (ix2 ⟨t * 12544 + r.val, by omega⟩ (10 : Fin 30)))) else 0 := by
  unfold I0
  by_cases h : t < 64
  · rw [dif_pos (lt_cfg h), dif_pos h]
    unfold inc0
    refine congrArg (Ideal.ofBits .f32 0#32 - ·) (Finset.sum_congr rfl fun r _ => ?_)
    rw [iblk1_apply]
    refine congrArg (fun s => pick s _) (funext fun k => ?_)
    exact iblk0_apply m c ⟨t, lt_cfg h⟩ r ⟨10 + k.val, by omega⟩
  · rw [dif_neg (fun h' => h (lt_64 h')), dif_neg h]

/-- The kernel's total over global rows. -/
theorem total_global (c : Dev nD) (i j : Fin 1) :
    total m c (ix2 i j)
      = Ideal.div (∑ t ∈ Finset.range 64, (if h : t < 64 then (Ideal.ofBits .f32 0#32 - ∑ r : Fin 12544, pick (gscores (Parr m c) ⟨t * 12544 + r.val, by omega⟩)
            (Tarr m c (ix2 ⟨t * 12544 + r.val, by omega⟩ (10 : Fin 30)))) else 0)) (Ideal.ofBits .f32 0x49440000#32)
        + Ideal.ofBits .f32 0x40A00000#32 * Ideal.div (∑ t ∈ Finset.range 64, (if h : t < 64 then ∑ r : Fin 12544, maskOf (Tarr m c (ix2 ⟨t * 12544 + r.val, by omega⟩ (10 : Fin 30)))
              * boxErr (grow (Parr m c) ⟨t * 12544 + r.val, by omega⟩) (grow (Tarr m c) ⟨t * 12544 + r.val, by omega⟩) else 0))
            ((∑ t ∈ Finset.range 64, (if h : t < 64 then ∑ r : Fin 12544, maskOf (Tarr m c (ix2 ⟨t * 12544 + r.val, by omega⟩ (10 : Fin 30))) else 0)) * Ideal.ofBits .f32 0x40800000#32) := by
  rw [total_apply]
  simp only [I0_global, I1_global, I2_global]

end Cert.KernelIdeal.Hand

end
-- ==== Proof.IdealEncK.lean ====
/-
  The arrays the region reads as functions of the arguments: the flattened target is the encode of the labels, the
  flattened prediction the prediction reshaped; and the encode's outer shape — two row scatters of box sizes times 7
  and of centre offsets, then the scatter into cells of a zero array, then two reshapes — from which every cell's
  class slot is 0 or some box's height times 7.
-/
import proofs.«142171_j11467562680721_2_alg».proof.Proof.IdealPre48
import proofs.«142171_j11467562680721_2_alg».proof.Proof.IdealPre51
import proofs.«142171_j11467562680721_2_alg».proof.Proof.IdealPre68
import proofs.«142171_j11467562680721_2_alg».proof.Proof.IdealPre69
import proofs.«142171_j11467562680721_2_alg».proof.Proof.IdealPre70
import proofs.«142171_j11467562680721_2_alg».proof.Proof.IdealGlobal

set_option maxRecDepth 65536

noncomputable section

namespace Cert.KernelIdeal.Hand

open Cert.KernelIdeal Cert.KernelIdeal.Gen Cert.Loss
open Idealize.ShloMosaic Idealize.ShloMosaic.ValueIdx Idealize.ShloMosaic.TcCoe Idealize.ShloMosaic.StableHlo Idealize.SL.Sem

/-- The encoded, flattened target as a function of the labels; the flattened prediction as a function of the prediction. -/
def encK (L : FVec Ideal S16384x8x5 .f32) : FVec Ideal S802816x30 .f32 :=
  encTail (pre51.1 L) (pre68.1 L) (pre69.1 L) (pre70.1 L) (pre48.1 L)
def flatK (P0 : FVec Ideal S16384x1470 .f32) : FVec Ideal S802816x30 .f32 :=
  shapeCast S802816x30 (shapeCast S16384x49x30 P0 shapeCasts_S16384x1470_S16384x49x30) shapeCasts_S16384x49x30_S802816x30

set_option maxHeartbeats 4000000 in
/-- No operation before the tail writes the prediction argument. -/
theorem pre_arg0 (W : Valuation τ sig (Elt Ideal)) : StableHlo.after preOps W (Proc.devRef .tc main_arg0) = W (Proc.devRef .tc main_arg0) :=
  StableHlo.after_of_forall_not_mem (b := Proc.devRef .tc main_arg0) _ _ (List.forall_iff_forall_mem.mp (by
    simp only [preOps, hostOps0, hostOps0_1, hostOps0_2, List.take_succ_cons, List.take_zero, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

theorem V75_eq (W : Valuation τ sig (Elt Ideal)) :
    StableHlo.after (List.flatten (before (F := Ideal))) W (Proc.devRef .tc main_v75) = encK (W (Proc.devRef .tc main_arg1)) := by
  rw [split_ops, StableHlo.after_append, post_read75, pre51.2, pre68.2, pre69.2, pre70.2, pre48.2]
  rfl

theorem V76_eq (W : Valuation τ sig (Elt Ideal)) :
    StableHlo.after (List.flatten (before (F := Ideal))) W (Proc.devRef .tc main_v76) = flatK (W (Proc.devRef .tc main_arg0)) := by
  rw [split_ops, StableHlo.after_append, post_read76, pre_arg0]
  rfl

/-- The fold read at two references that are the same reference. -/
theorem after_at_ref (ops : List (HloOp τ sig (Elt Ideal))) (W : Valuation τ sig (Elt Ideal)) {b b' : Ref sig .tc} (h : b = b') :
    HEq (StableHlo.after ops W (Proc.devRef .tc b)) (StableHlo.after ops W (Proc.devRef .tc b')) := by
  subst h; rfl

variable (m : (ℓ : Loc nD τ sig) → Buf (Elt Ideal) ℓ)

theorem Tarr_eq (c : Dev nD) : Tarr m c = encK (m ((c : Thread nD τ).loc main_arg1)) := by
  have h1 : HEq (V m c (Pipeline.arrRef spec0 1)) (StableHlo.after (List.flatten (before (F := Ideal))) (fun b => m (c, b)) (Proc.devRef .tc main_v75)) :=
    after_at_ref _ _ rfl
  unfold Tarr
  exact (eq_of_heq h1).trans (V75_eq _)

theorem Parr_eq (c : Dev nD) : Parr m c = flatK (m ((c : Thread nD τ).loc main_arg0)) := by
  have h1 : HEq (V m c (Pipeline.arrRef spec0 0)) (StableHlo.after (List.flatten (before (F := Ideal))) (fun b => m (c, b)) (Proc.devRef .tc main_v76)) :=
    after_at_ref _ _ rfl
  unfold Parr
  exact (eq_of_heq h1).trans (V76_eq _)

end Cert.KernelIdeal.Hand

end
-- ==== Proof.LibScatterSet.lean ====
import Idealize.ShloMosaic.PureOps

/-!
# Reading a "set" scatter at an index

`Host.scatter d f x idx upd` is the left fold, over the update indices in row-major order, of the
step "replace the element at the update's result index by `f` of that element and the update's".
When the body returns the update (`f = fun _ b => b`) each step overwrites, and the value of the
result at an operand index `i` is

* the operand's own value `x i`, or the update's value `upd j` at some update index `j` whose
  result index is `i` (`scatter_set_cases`);
* `upd j` when `j` is the only update index whose result index is `i` (`scatter_set_of_unique`);
* `x i` when no update index has result index `i` (`scatter_set_of_none`).

The proofs go by induction along the fold, for an arbitrary list of update positions and an
arbitrary starting array, and then specialise to the list of all positions, in which every update
index `j` occurs (as position `u.rowMajor j`).
-/

namespace Cert.ScatterSet

open Idealize.ShloMosaic

variable {s si u : Shape} {α : Type} {w : Nat}

/-- One step of the fold of a scatter whose body returns the update: position `n` of the updates
    (in row-major order) overwrites the element at its result index, when it has one. -/
def step (d : ScatterDims s si u) (idx : IVec si w) (upd : u.Idx → α) (r : s.Idx → α)
    (n : Fin u.numel) : s.Idx → α :=
  match d.resultIdx? (u.rowMajor.symm n) idx with
  | some i => fun i' => if i' = i then upd (u.rowMajor.symm n) else r i'
  | none => r

/-- The scatter whose body returns the update is the fold of `step` over all update positions. -/
theorem scatter_eq_foldl (d : ScatterDims s si u) (x : s.Idx → α) (idx : IVec si w)
    (upd : u.Idx → α) :
    Host.scatter d (fun _ b => b) x idx upd = (List.finRange u.numel).foldl (step d idx upd) x :=
  rfl

/-- One step at an index `i`: either the position's result index is `i` and the new value is the
    update's, or the value at `i` is unchanged. -/
theorem step_cases (d : ScatterDims s si u) (idx : IVec si w) (upd : u.Idx → α) (r : s.Idx → α)
    (n : Fin u.numel) (i : s.Idx) :
    (d.resultIdx? (u.rowMajor.symm n) idx = some i ∧ step d idx upd r n i = upd (u.rowMajor.symm n))
      ∨ (d.resultIdx? (u.rowMajor.symm n) idx ≠ some i ∧ step d idx upd r n i = r i) := by
  unfold step
  cases h : d.resultIdx? (u.rowMajor.symm n) idx with
  | none => exact Or.inr ⟨by simp, rfl⟩
  | some i0 =>
    by_cases hi : i = i0
    · subst hi; exact Or.inl ⟨rfl, by simp⟩
    · refine Or.inr ⟨fun h' => hi (Option.some.inj h').symm, ?_⟩
      simp [hi]

/-- Along the fold over any list of positions, from any starting array `r`: the value at `i` is
    the starting one, or the update's at a listed position whose result index is `i`. -/
theorem foldl_cases (d : ScatterDims s si u) (idx : IVec si w) (upd : u.Idx → α)
    (l : List (Fin u.numel)) (r : s.Idx → α) (i : s.Idx) :
    l.foldl (step d idx upd) r i = r i
      ∨ ∃ n ∈ l, d.resultIdx? (u.rowMajor.symm n) idx = some i
          ∧ l.foldl (step d idx upd) r i = upd (u.rowMajor.symm n) := by
  induction l generalizing r with
  | nil => exact Or.inl rfl
  | cons n l ih =>
    rw [List.foldl_cons]
    rcases ih (step d idx upd r n) with h | ⟨n', hn', hres, hval⟩
    · rcases step_cases d idx upd r n i with ⟨hres, hval⟩ | ⟨_, hval⟩
      · exact Or.inr ⟨n, List.mem_cons_self, hres, h.trans hval⟩
      · exact Or.inl (h.trans hval)
    · exact Or.inr ⟨n', List.mem_cons_of_mem _ hn', hres, hval⟩

/-- Along the fold over a list of positions that contains `n₀`, whose result index is `i`, and no
    other position with result index `i`: the value at `i` is the update's at `n₀`. -/
theorem foldl_of_unique (d : ScatterDims s si u) (idx : IVec si w) (upd : u.Idx → α)
    (l : List (Fin u.numel)) (r : s.Idx → α) (i : s.Idx) (n₀ : Fin u.numel) (hmem : n₀ ∈ l)
    (hres : d.resultIdx? (u.rowMajor.symm n₀) idx = some i)
    (huniq : ∀ n ∈ l, d.resultIdx? (u.rowMajor.symm n) idx = some i → n = n₀) :
    l.foldl (step d idx upd) r i = upd (u.rowMajor.symm n₀) := by
  induction l generalizing r with
  | nil => exact absurd hmem List.not_mem_nil
  | cons n l ih =>
    rw [List.foldl_cons]
    by_cases hn : n = n₀
    · subst hn
      rcases foldl_cases d idx upd l (step d idx upd r n) i with h | ⟨n', hn', hres', hval⟩
      · rcases step_cases d idx upd r n i with ⟨_, hval⟩ | ⟨hne, _⟩
        · exact h.trans hval
        · exact absurd hres hne
      · rw [huniq n' (List.mem_cons_of_mem _ hn') hres'] at hval
        exact hval
    · have hmem' : n₀ ∈ l := by
        rcases List.mem_cons.1 hmem with h | h
        · exact absurd h.symm hn
        · exact h
      exact ih (step d idx upd r n) hmem' fun n' hn' => huniq n' (List.mem_cons_of_mem _ hn')

/-- **(A)** The result of a scatter whose body returns the update, at an operand index `i`: the
    operand's value there, or the update's value at an update index whose result index is `i`. -/
theorem scatter_set_cases (d : ScatterDims s si u) (x : s.Idx → α) (idx : IVec si w)
    (upd : u.Idx → α) (i : s.Idx) :
    Host.scatter d (fun _ b => b) x idx upd i = x i
      ∨ ∃ j, d.resultIdx? j idx = some i ∧ Host.scatter d (fun _ b => b) x idx upd i = upd j := by
  rw [scatter_eq_foldl]
  rcases foldl_cases d idx upd (List.finRange u.numel) x i with h | ⟨n, _, hres, hval⟩
  · exact Or.inl h
  · exact Or.inr ⟨u.rowMajor.symm n, hres, hval⟩

/-- **(B)** When `j` is the one update index whose result index is `i`, the result at `i` is the
    update's value at `j`. -/
theorem scatter_set_of_unique (d : ScatterDims s si u) (x : s.Idx → α) (idx : IVec si w)
    (upd : u.Idx → α) (i : s.Idx) (j : u.Idx) (hres : d.resultIdx? j idx = some i)
    (huniq : ∀ j', d.resultIdx? j' idx = some i → j' = j) :
    Host.scatter d (fun _ b => b) x idx upd i = upd j := by
  rw [scatter_eq_foldl]
  have h := foldl_of_unique d idx upd (List.finRange u.numel) x i (u.rowMajor j)
    (List.mem_finRange _) (by rw [Equiv.symm_apply_apply]; exact hres)
    (fun n _ hn => by
      have := huniq _ hn
      rw [← this, Equiv.apply_symm_apply])
  rw [Equiv.symm_apply_apply] at h
  exact h

/-- **(C)** When no update index has result index `i`, the result at `i` is the operand's value. -/
theorem scatter_set_of_none (d : ScatterDims s si u) (x : s.Idx → α) (idx : IVec si w)
    (upd : u.Idx → α) (i : s.Idx) (hnone : ∀ j, d.resultIdx? j idx ≠ some i) :
    Host.scatter d (fun _ b => b) x idx upd i = x i := by
  rcases scatter_set_cases d x idx upd i with h | ⟨j, hres, _⟩
  · exact h
  · exact absurd hres (hnone j)

/-- The result index of update index `j` is `i` exactly when, on every operand axis, the start of
    the window plus the window coordinate is `i`'s coordinate. -/
theorem resultIdx?_eq_some_iff (d : ScatterDims s si u) (idx : IVec si w) (j : u.Idx) (i : s.Idx) :
    d.resultIdx? j idx = some i
      ↔ ∀ a, d.start j idx a + (d.window j a : Int) = ((i a).val : Int) := by
  unfold ScatterDims.resultIdx?
  split
  · rename_i h
    constructor
    · intro he a
      have hi := Option.some.inj he
      subst hi
      have := (h a).1
      simp only
      omega
    · intro he
      congr 1
      funext a
      apply Fin.ext
      have := he a
      simp only
      omega
  · rename_i h
    constructor
    · intro he; exact absurd he (by simp)
    · intro he
      exfalso; apply h
      intro a
      have := he a
      have := (i a).isLt
      omega

end Cert.ScatterSet
-- ==== Proof.ClassRange.lean ====
import proofs.«142171_j11467562680721_2_alg».proof.KernelIdeal
import proofs.«142171_j11467562680721_2_alg».proof.Proof.LibScatterSet
import Idealize.ShloMosaic.Lib.ValueIdx

/-!
# The two kinds of scatter of the box encoding, read at an index

The encoding of the boxes writes each box's row of 30 numbers by scatters with ONE start index `k`
on the last axis and a window of two columns, the update covering all boxes (`dRow` below): the
result's columns `k` and `k + 1` are the update's two columns, every other column is the operand's.
It then writes the rows into the grid of cells by one scatter over all boxes whose window is the row
(`dBox` below): whatever cell a box's row lands in, column `c` of the cell receives column `c` of the
row, so an element of the result is the operand's or some box's row at the same column.
-/

namespace Cert.KernelIdeal.ClassRange

open Idealize.ShloMosaic Idealize.ShloMosaic.ValueIdx Cert.ScatterSet

variable [Facts₀] {α : Type}

/-- The scatter of a two-column update, over all boxes, at one start index on the last axis. -/
local notation "dRow" => scatter_S16384x8x30_S1_S16384x8x2_012_n_2_0
/-- The scatter of the boxes' rows into the grid of cells. -/
local notation "dBox" => scatter_S16384x7x7x30_S16384x8x3_S16384x8x30_2_012_012_2

/-! ## The two-column scatter -/

/-- The window of the two-column scatter starts at the start index on the last axis. -/
theorem row_start2 (j : S16384x8x2.Idx) (idx : IVec S1 32) :
    (dRow).start j idx 2 = (idx (ix1 (0 : Fin 1))).toInt := by
  unfold ScatterDims.start
  rw [dif_pos (show (2 : Fin S16384x8x30.rank) ∈ (dRow).scatterDimsToOperandDims from
    List.mem_singleton.mpr rfl)]
  congr 2
  funext b
  match b with
  | ⟨0, _⟩ => rfl

/-- Update index `(b', n', c')` of the two-column scatter with start index `k` lands at
    `(b', n', k + c')`. -/
theorem row_resultIdx_iff (idx : IVec S1 32) (k : Nat) (hk : (idx (ix1 (0 : Fin 1))).toInt = k)
    (b b' : Fin 16384) (n n' : Fin 8) (c : Fin 30) (c' : Fin 2) :
    (dRow).resultIdx? (ix3 b' n' c') idx = some (ix3 b n c)
      ↔ b' = b ∧ n' = n ∧ c.val = k + c'.val := by
  rw [resultIdx?_eq_some_iff]
  have hs2 : (dRow).start (ix3 b' n' c') idx 2 = (k : Int) := (row_start2 _ idx).trans hk
  constructor
  · intro h
    have h0 := h 0
    have h1 := h 1
    have h2 := h 2
    rw [hs2] at h2
    change (0 : Int) + (b'.val : Int) = (b.val : Int) at h0
    change (0 : Int) + (n'.val : Int) = (n.val : Int) at h1
    change (k : Int) + (c'.val : Int) = (c.val : Int) at h2
    exact ⟨Fin.ext (by omega), Fin.ext (by omega), by omega⟩
  · rintro ⟨rfl, rfl, hc⟩ a
    match a with
    | ⟨0, _⟩ => show (0 : Int) + (b'.val : Int) = (b'.val : Int); omega
    | ⟨1, _⟩ => show (0 : Int) + (n'.val : Int) = (n'.val : Int); omega
    | ⟨2, _⟩ =>
      show (dRow).start (ix3 b' n' c') idx 2 + (c'.val : Int) = (c.val : Int)
      rw [hs2]; omega

/-- **The two-column scatter at a written column**: with start index `k`, column `k + c'` of the
    result is column `c'` of the update, box by box. -/
theorem row_scatter_hit (x : S16384x8x30.Idx → α) (idx : IVec S1 32) (upd : S16384x8x2.Idx → α)
    (k : Nat) (hk : (idx (ix1 (0 : Fin 1))).toInt = k)
    (b : Fin 16384) (n : Fin 8) (c : Fin 30) (c' : Fin 2) (hc : c.val = k + c'.val) :
    Host.scatter (dRow) (fun _ b => b) x idx upd (ix3 b n c) = upd (ix3 b n c') := by
  refine scatter_set_of_unique (dRow) x idx upd _ _
    ((row_resultIdx_iff idx k hk b b n n c c').2 ⟨rfl, rfl, hc⟩) ?_
  intro j hj
  obtain ⟨b', n', c'', rfl⟩ : ∃ (b' : Fin 16384) (n' : Fin 8) (c'' : Fin 2), j = ix3 b' n' c'' :=
    ⟨j 0, j 1, j 2, eq_ix3 j⟩
  obtain ⟨rfl, rfl, h2⟩ := (row_resultIdx_iff idx k hk b b' n n' c c'').1 hj
  obtain rfl : c'' = c' := Fin.ext (by omega)
  rfl

/-- **The two-column scatter at any other column**: with start index `k`, a column outside
    `k, k + 1` of the result is the operand's. -/
theorem row_scatter_miss (x : S16384x8x30.Idx → α) (idx : IVec S1 32) (upd : S16384x8x2.Idx → α)
    (k : Nat) (hk : (idx (ix1 (0 : Fin 1))).toInt = k)
    (b : Fin 16384) (n : Fin 8) (c : Fin 30) (hc : c.val < k ∨ k + 2 ≤ c.val) :
    Host.scatter (dRow) (fun _ b => b) x idx upd (ix3 b n c) = x (ix3 b n c) := by
  refine scatter_set_of_none (dRow) x idx upd _ ?_
  intro j hj
  obtain ⟨b', n', c', rfl⟩ : ∃ (b' : Fin 16384) (n' : Fin 8) (c' : Fin 2), j = ix3 b' n' c' :=
    ⟨j 0, j 1, j 2, eq_ix3 j⟩
  obtain ⟨-, -, h2⟩ := (row_resultIdx_iff idx k hk b b' n n' c c').1 hj
  have := c'.isLt
  omega

/-! ## The scatter of the rows into the cells -/

/-- Wherever a box's row lands, its column `c` lands in column `c` of the cell. -/
theorem box_resultIdx_last (idx : IVec S16384x8x3 32) (j : S16384x8x30.Idx) (i : S16384x7x7x30.Idx)
    (h : (dBox).resultIdx? j idx = some i) : (i 3).val = (j 2).val := by
  have h3 := (resultIdx?_eq_some_iff (dBox) idx j i).1 h 3
  change (0 : Int) + ((j 2).val : Int) = ((i 3).val : Int) at h3
  omega

/-- **The scatter of the rows at a cell's column `c`**: the operand's value there, or column `c` of
    some box's row. -/
theorem box_scatter_cases (x : S16384x7x7x30.Idx → α) (idx : IVec S16384x8x3 32)
    (upd : S16384x8x30.Idx → α) (b : Fin 16384) (y x' : Fin 7) (c : Fin 30) :
    Host.scatter (dBox) (fun _ b => b) x idx upd (ix4 b y x' c) = x (ix4 b y x' c)
      ∨ ∃ (b' : Fin 16384) (n : Fin 8),
          Host.scatter (dBox) (fun _ b => b) x idx upd (ix4 b y x' c) = upd (ix3 b' n c) := by
  rcases scatter_set_cases (dBox) x idx upd (ix4 b y x' c) with h | ⟨j, hres, hval⟩
  · exact Or.inl h
  · obtain ⟨b', n, c', rfl⟩ : ∃ (b' : Fin 16384) (n : Fin 8) (c' : Fin 30), j = ix3 b' n c' :=
      ⟨j 0, j 1, j 2, eq_ix3 j⟩
    have hlast : c.val = c'.val := box_resultIdx_last idx _ _ hres
    obtain rfl : c' = c := Fin.ext hlast.symm
    exact Or.inr ⟨b', n, hval⟩

/-! ## Column 10 of the encoded target -/

/-- **Column 10 of every cell of the encoded target.** The rows are finished by a two-column
    scatter at start index 9 (which writes columns 9 and 10 from the update `u`) followed by one at
    start index 7 (which writes columns 7 and 8 and leaves column 10 alone); the rows are then
    scattered into the cells over the operand `z`. So column 10 of a cell is the operand's value
    there, or column 1 of `u` at some box. -/
theorem class_column_cases (x₀ : S16384x8x30.Idx → α) (idx9 idx7 : IVec S1 32)
    (u v : S16384x8x2.Idx → α) (z : S16384x7x7x30.Idx → α) (idxB : IVec S16384x8x3 32)
    (h9 : (idx9 (ix1 (0 : Fin 1))).toInt = 9) (h7 : (idx7 (ix1 (0 : Fin 1))).toInt = 7)
    (b : Fin 16384) (y x' : Fin 7) :
    Host.scatter (dBox) (fun _ b => b) z idxB
        (Host.scatter (dRow) (fun _ b => b) (Host.scatter (dRow) (fun _ b => b) x₀ idx9 u) idx7 v)
        (ix4 b y x' (10 : Fin 30)) = z (ix4 b y x' (10 : Fin 30))
      ∨ ∃ (b' : Fin 16384) (n : Fin 8),
          Host.scatter (dBox) (fun _ b => b) z idxB
            (Host.scatter (dRow) (fun _ b => b) (Host.scatter (dRow) (fun _ b => b) x₀ idx9 u) idx7 v)
            (ix4 b y x' (10 : Fin 30)) = u (ix3 b' n (1 : Fin 2)) := by
  rcases box_scatter_cases z idxB
      (Host.scatter (dRow) (fun _ b => b) (Host.scatter (dRow) (fun _ b => b) x₀ idx9 u) idx7 v)
      b y x' (10 : Fin 30) with h | ⟨b', n, h⟩
  · exact Or.inl h
  · refine Or.inr ⟨b', n, h.trans ?_⟩
    rw [row_scatter_miss _ idx7 v 7 (by rw [h7]; rfl) b' n (10 : Fin 30) (Or.inr (by decide)),
      row_scatter_hit x₀ idx9 u 9 (by rw [h9]; rfl) b' n (10 : Fin 30) (1 : Fin 2) (by decide)]

end Cert.KernelIdeal.ClassRange
-- ==== Proof.LibFiniteEntries.lean ====
/-
  "Every entry is finite", read back from its printed test.

  A precondition `jnp.all(|a| < +∞)` prints, for an argument `a` of any shape, as the comparison of `|a|` with the
  word of `+∞` broadcast from a scalar to the argument's shape, reduced by `and` over all axes from `1`; several such
  tests are joined by `and` on one-bit scalars.  On the extended reals `|x|` is `max x (−x)`, the word `0x7F800000` is
  `⊤`, and an extended real whose absolute value is below `⊤` is a real number.  So: a conjunction that is `1` has both
  conjuncts `1`, and a test that is `1` gives a real number at every entry of its argument.
-/
import Idealize.ShloMosaic.Lib.ReduceAll
import Idealize.ShloMosaic.Lib.Pipeline.Value
import Idealize.ShloMosaic.Lib.ValueIdx
import Idealize.ShloMosaic.PureOps.Ideal.Laws

noncomputable section

namespace Idealize.ShloMosaic.FiniteEntries

open Idealize.ShloMosaic Idealize.ShloMosaic.ValueIdx

/-- The rank-0 shape has one index. -/
instance : Subsingleton (⟨0, ![]⟩ : Shape).Idx := ⟨fun a b => funext fun d => d.elim0⟩

/-- The binary32 word of `+∞` denotes `⊤`. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A conjunction of two one-bit scalars that is `1` has both conjuncts `1`. -/
theorem and_split {x y : IVec ⟨0, ![]⟩ 1} (h : andi x y ix0 = 1#1) : x ix0 = 1#1 ∧ y ix0 = 1#1 :=
  IntOp.andi_eq_one.1 h

/-- One argument's test: if "all `|a| < +∞`" came out `1`, every entry of `a` is real. -/
theorem entries_real {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf a) (broadcastInDim s ![] hb (constant (F := Ideal) ⟨0, ![]⟩ .f32 0x7F800000#32)))
        (constantI ⟨0, ![]⟩ 1 1#1) hr hu ix0 = 1#1)
    (i : s.Idx) : ∃ r : ℝ, a i = (r : EReal) := by
  have h := Host.reduce_andi_all _ _ hr hu ix0 e i
  have h' : Ideal.cmp .olt (max (a i) (-(a i)))
      (broadcastInDim s ![] hb (constant (F := Ideal) ⟨0, ![]⟩ .f32 0x7F800000#32) i) = 1#1 := h
  rw [broadcastInDim_apply ![] hb _ i ix0 (fun ax => ax.elim0)] at h'
  have h'' : Ideal.cmp .olt (max (a i) (-(a i))) (Ideal.ofBits .f32 0x7F800000#32) = 1#1 := h'
  rw [ofBits_inf] at h''
  refine real_of_abs_lt_top (a i) ?_
  by_contra hn
  have : Ideal.cmp .olt (max (a i) (-(a i))) ⊤ = 0#1 := by
    unfold Ideal.cmp
    simp [hn]
  rw [this] at h''
  exact absurd h'' (by decide)

end Idealize.ShloMosaic.FiniteEntries

end
-- ==== Proof.ClassIndex.lean ====
import proofs.«142171_j11467562680721_2_alg».proof.Proof.ClassRange
import proofs.«142171_j11467562680721_2_alg».proof.Pre_finite_inputs
import proofs.«142171_j11467562680721_2_alg».proof.Proof.LibFiniteEntries
import Idealize.ShloMosaic.Lib.ReduceAll
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ClassRange

open Idealize.ShloMosaic Idealize.ShloMosaic.ValueIdx Cert.ScatterSet

/-! ## The words of the bounds, and truncation of a real between them -/

/-- The binary32 word `0xBF800000` denotes `−1`. -/
theorem ofBits_neg_one : Ideal.ofBits .f32 0xBF800000#32 = ((-1 : ℝ) : EReal) := by
  simp [Ideal.ofBits, Ideal.ieee, -EReal.coe_mul]; norm_num

/-- The binary32 word `0x41A00000` denotes `20`. -/
theorem ofBits_twenty : Ideal.ofBits .f32 0x41A00000#32 = ((20 : ℝ) : EReal) := by
  simp [Ideal.ofBits, Ideal.ieee, -EReal.coe_mul]; norm_num

/-- An extended real strictly between `−1` and `20` is a real number strictly between them. -/
theorem real_of_between (T : EReal) (hlo : ((-1 : ℝ) : EReal) < T) (hhi : T < ((20 : ℝ) : EReal)) :
    ∃ v : ℝ, T = (v : EReal) ∧ -1 < v ∧ v < 20 := by
  induction T using EReal.rec with
  | bot => exact absurd hlo (by simp)
  | coe v => exact ⟨v, rfl, EReal.coe_lt_coe_iff.1 hlo, EReal.coe_lt_coe_iff.1 hhi⟩
  | top => exact absurd hhi (by simp)

/-- A real number strictly between `−1` and `20`, rounded toward zero to a 32-bit integer, is one
    of `0, …, 19`: below zero it rounds up to `0`, from zero on it rounds down to its integer part. -/
theorem fptosi_of_between (v : ℝ) (hlo : -1 < v) (hhi : v < 20) :
    ∃ k : Fin 20, Ideal.fptosi 32 (v : EReal) = BitVec.ofNat 32 k.val := by
  have hz : ∃ z : Int, (if 0 ≤ v then ⌊v⌋ else ⌈v⌉) = z ∧ 0 ≤ z ∧ z < 20 := by
    by_cases h0 : 0 ≤ v
    · refine ⟨⌊v⌋, if_pos h0, Int.floor_nonneg.2 h0, ?_⟩
      exact Int.floor_lt.2 (by exact_mod_cast hhi)
    · refine ⟨⌈v⌉, if_neg h0, ?_, ?_⟩
      · have : (-1 : Int) < ⌈v⌉ := Int.lt_ceil.2 (by exact_mod_cast hlo)
        omega
      · have : ⌈v⌉ ≤ (0 : Int) := Int.ceil_le.2 (by exact_mod_cast (le_of_lt (not_le.1 h0)))
        omega
  obtain ⟨z, hz, hz0, hz20⟩ := hz
  refine ⟨⟨z.toNat, by omega⟩, ?_⟩
  rw [Ideal.fptosi, Ideal.toIntClamped_coe, hz]
  have hclamp : max (-((2 ^ (32 - 1) : Nat) : Int)) (min (((2 ^ (32 - 1) : Nat) : Int) - 1) z) = z := by
    have : ((2 ^ (32 - 1) : Nat) : Int) = 2147483648 := by norm_num
    rw [this]; omega
  rw [hclamp]
  show BitVec.ofInt 32 z = BitVec.ofNat 32 z.toNat
  have hcast : BitVec.ofInt 32 ((z.toNat : Nat) : Int) = BitVec.ofNat 32 z.toNat :=
    BitVec.ofInt_natCast _ _
  rwa [Int.toNat_of_nonneg hz0] at hcast

/-- The comparison "greater than" that came out `1` is the strict order. -/
theorem lt_of_cmp_ogt {x y : EReal} (h : Ideal.cmp .ogt x y = 1#1) : y < x := by
  by_contra hn
  have h0 : Ideal.cmp .ogt x y = 0#1 := by
    show BitVec.ofBool (decide (y < x)) = 0#1
    rw [decide_eq_false hn]; rfl
  rw [h0] at h; exact absurd h (by decide)

/-- The comparison "less than" that came out `1` is the strict order. -/
theorem lt_of_cmp_olt {x y : EReal} (h : Ideal.cmp .olt x y = 1#1) : x < y := by
  by_contra hn
  have h0 : Ideal.cmp .olt x y = 0#1 := by
    show BitVec.ofBool (decide (x < y)) = 0#1
    rw [decide_eq_false hn]; rfl
  rw [h0] at h; exact absurd h (by decide)

/-- A value the comparisons place strictly between the words of `−1` and `20` truncates to one of
    `0, …, 19`. -/
theorem fptosi_of_cmp (T : EReal)
    (hlo : Ideal.cmp .ogt T (Ideal.ofBits .f32 0xBF800000#32) = 1#1)
    (hhi : Ideal.cmp .olt T (Ideal.ofBits .f32 0x41A00000#32) = 1#1) :
    ∃ k : Fin 20, Ideal.fptosi 32 T = BitVec.ofNat 32 k.val := by
  rw [ofBits_neg_one] at hlo
  rw [ofBits_twenty] at hhi
  have h1 : ((-1 : ℝ) : EReal) < T := lt_of_cmp_ogt hlo
  have h2 : T < ((20 : ℝ) : EReal) := lt_of_cmp_olt hhi
  obtain ⟨v, rfl, hv1, hv2⟩ := real_of_between T h1 h2
  exact fptosi_of_between v hv1 hv2

/-- Zero truncates to `0`. -/
theorem fptosi_zero : ∃ k : Fin 20, Ideal.fptosi 32 (0 : EReal) = BitVec.ofNat 32 k.val := by
  have := fptosi_of_between 0 (by norm_num) (by norm_num)
  simpa using this

/-! ## The encoded target and its class column -/

section Target

variable [Facts₀]
open Facts₀

/-- The scatter of a two-column update, over all boxes, at one start index on the last axis. -/
local notation "dRow" => scatter_S16384x8x30_S1_S16384x8x2_012_n_2_0
/-- The scatter of the boxes' rows into the grid of cells. -/
local notation "dBox" => scatter_S16384x7x7x30_S16384x8x3_S16384x8x30_2_012_012_2

/-- Seven times the boxes' widths and heights: columns 2, 3 minus columns 0, 1 of the labels' first
    four columns, times the constant `7.0`. -/
def wh7 (L : FVec Ideal S16384x8x5 .f32) : FVec Ideal S16384x8x2 .f32 :=
  mulf
    (subf
      (extractStridedSlice S16384x8x2 ![0, 0, 2]
        (extractStridedSlice S16384x8x4 ![0, 0, 0] L slices_S16384x8x5_S16384x8x4_0_0_0)
        slices_S16384x8x4_S16384x8x2_0_0_2)
      (extractStridedSlice S16384x8x2 ![0, 0, 0]
        (extractStridedSlice S16384x8x4 ![0, 0, 0] L slices_S16384x8x5_S16384x8x4_0_0_0)
        slices_S16384x8x4_S16384x8x2_0_0_0))
    (broadcastInDim S16384x8x2 ![] bcast_S_S16384x8x2 (constant (F := Ideal) S_ .f32 0x40E00000#32))

/-- The encoded target as the kernel reads it, one row of 30 numbers per cell: the boxes' rows —
    finished by the two-column writes at start indices 9 and 7 — scattered into the zero grid of
    cells, the grid then flattened to one axis of cells. -/
def target (L : FVec Ideal S16384x8x5 .f32) (rowPrev : FVec Ideal S16384x8x30 .f32)
    (dxy : FVec Ideal S16384x8x2 .f32) (i9 i7 : IVec S1 32) (idx3 : IVec S16384x8x3 32) :
    FVec Ideal S802816x30 .f32 :=
  shapeCast S802816x30
    (shapeCast S16384x49x30
      (Host.scatter (dBox) (fun _ b => b)
        (broadcastInDim S16384x7x7x30 ![] bcast_S_S16384x7x7x30 (constant (F := Ideal) S_ .f32 0x00000000#32))
        idx3
        (Host.scatter (dRow) (fun _ b => b) (Host.scatter (dRow) (fun _ b => b) rowPrev i9 (wh7 L)) i7 dxy))
      shapeCasts_S16384x7x7x30_S16384x49x30)
    shapeCasts_S16384x49x30_S802816x30

/-- Column 1 of `wh7`: seven times a box's height `y2 − y1` (columns 3 and 1 of the labels). -/
theorem wh7_col1 (L : FVec Ideal S16384x8x5 .f32) (b : Fin 16384) (n : Fin 8) :
    wh7 L (ix3 b n (1 : Fin 2))
      = (L (ix3 b n (3 : Fin 5)) - L (ix3 b n (1 : Fin 5))) * Ideal.ofBits .f32 0x40E00000#32 := by
  have h4 : ∀ c4 : Fin 4, ∀ c5 : Fin 5, c5.val = c4.val →
      extractStridedSlice S16384x8x4 ![0, 0, 0] L slices_S16384x8x5_S16384x8x4_0_0_0 (ix3 b n c4)
        = L (ix3 b n c5) := fun c4 c5 hc =>
    extractStridedSlice_apply _ _ _ (ix3 b n c4) (ix3 b n c5) (fun a => by
      match a with
      | ⟨0, _⟩ => exact (Nat.zero_add _).symm
      | ⟨1, _⟩ => exact (Nat.zero_add _).symm
      | ⟨2, _⟩ => exact hc.trans (Nat.zero_add _).symm)
  have hA : extractStridedSlice S16384x8x2 ![0, 0, 2]
        (extractStridedSlice S16384x8x4 ![0, 0, 0] L slices_S16384x8x5_S16384x8x4_0_0_0)
        slices_S16384x8x4_S16384x8x2_0_0_2 (ix3 b n (1 : Fin 2)) = L (ix3 b n (3 : Fin 5)) :=
    (extractStridedSlice_apply _ _ _ (ix3 b n (1 : Fin 2)) (ix3 b n (3 : Fin 4)) (fun a => by
      match a with
      | ⟨0, _⟩ => exact (Nat.zero_add _).symm
      | ⟨1, _⟩ => exact (Nat.zero_add _).symm
      | ⟨2, _⟩ => rfl)).trans (h4 3 3 rfl)
  have hB : extractStridedSlice S16384x8x2 ![0, 0, 0]
        (extractStridedSlice S16384x8x4 ![0, 0, 0] L slices_S16384x8x5_S16384x8x4_0_0_0)
        slices_S16384x8x4_S16384x8x2_0_0_0 (ix3 b n (1 : Fin 2)) = L (ix3 b n (1 : Fin 5)) :=
    (extractStridedSlice_apply _ _ _ (ix3 b n (1 : Fin 2)) (ix3 b n (1 : Fin 4)) (fun a => by
      match a with
      | ⟨0, _⟩ => exact (Nat.zero_add _).symm
      | ⟨1, _⟩ => exact (Nat.zero_add _).symm
      | ⟨2, _⟩ => rfl)).trans (h4 1 1 rfl)
  unfold wh7
  rw [mulf_apply, subf_apply, hA, hB,
    broadcastInDim_apply ![] bcast_S_S16384x8x2 _ (ix3 b n (1 : Fin 2)) ix0 (fun ax => ax.elim0)]
  rfl

/-- The two flattenings keep a cell's columns: row `r`, column `c` of the flattened grid is column
    `c` of some cell. -/
theorem flat_cell {α : Type} (X : S16384x7x7x30.Idx → α) (r : Fin 802816) (c : Fin 30) :
    ∃ (b : Fin 16384) (y x' : Fin 7),
      shapeCast S802816x30 (shapeCast S16384x49x30 X shapeCasts_S16384x7x7x30_S16384x49x30)
        shapeCasts_S16384x49x30_S802816x30 (ix2 r c) = X (ix4 b y x' c) := by
  obtain ⟨i, hi⟩ : ∃ i : S16384x7x7x30.Idx,
      i = Shape.reshapeEquiv shapeCasts_S16384x7x7x30_S16384x49x30
            (Shape.reshapeEquiv shapeCasts_S16384x49x30_S802816x30 (ix2 r c)) := ⟨_, rfl⟩
  have hval : shapeCast S802816x30 (shapeCast S16384x49x30 X shapeCasts_S16384x7x7x30_S16384x49x30)
      shapeCasts_S16384x49x30_S802816x30 (ix2 r c) = X i := by rw [hi]; rfl
  have e1 : (S16384x7x7x30.rowMajor i : Nat) = S802816x30.rowMajor (ix2 r c) := by
    rw [hi, Shape.rowMajor_reshapeEquiv, Shape.rowMajor_reshapeEquiv]
  have e4 := Shape.rowMajor_val_four i
  have e2 := Shape.rowMajor_val_two (ix2 r c)
  change (S16384x7x7x30.rowMajor i).val
    = (((i 0).val * 7 + (i 1).val) * 7 + (i 2).val) * 30 + (i 3).val at e4
  change (S802816x30.rowMajor (ix2 r c)).val = r.val * 30 + c.val at e2
  have h3 : (i 3).val < 30 := (i 3).isLt
  have hc : (i 3).val = c.val := by omega
  have h3c : (i 3 : Fin 30) = c := Fin.ext hc
  exact ⟨i 0, i 1, i 2, hval.trans (congrArg X ((eq_ix4 i).trans
    (congrArg (fun q : Fin 30 => ix4 (i 0) (i 1) (i 2) q) h3c)))⟩

/-- **The class index is in range.** When every box's seven-fold height lies strictly between the
    words of `−1` and `20`, column 10 of every row of the encoded target — zero, or some box's
    seven-fold height — truncates toward zero to one of `0, …, 19`. -/
theorem class_index_in_range (L : FVec Ideal S16384x8x5 .f32) (rowPrev : FVec Ideal S16384x8x30 .f32)
    (dxy : FVec Ideal S16384x8x2 .f32) (i9 i7 : IVec S1 32) (idx3 : IVec S16384x8x3 32)
    (h9 : (i9 (ix1 (0 : Fin 1))).toInt = 9) (h7 : (i7 (ix1 (0 : Fin 1))).toInt = 7)
    (hlo : ∀ (b : Fin 16384) (n : Fin 8), FloatOps.cmpf (F := Ideal) .ogt
      ((L (ix3 b n (3 : Fin 5)) - L (ix3 b n (1 : Fin 5))) * Ideal.ofBits .f32 0x40E00000#32)
      (Ideal.ofBits .f32 0xBF800000#32) = 1#1)
    (hhi : ∀ (b : Fin 16384) (n : Fin 8), FloatOps.cmpf (F := Ideal) .olt
      ((L (ix3 b n (3 : Fin 5)) - L (ix3 b n (1 : Fin 5))) * Ideal.ofBits .f32 0x40E00000#32)
      (Ideal.ofBits .f32 0x41A00000#32) = 1#1)
    (r : Fin 802816) :
    ∃ k : Fin 20, FloatOps.fptosi (F := Ideal) (φ := .f32) 32
      (target L rowPrev dxy i9 i7 idx3 (ix2 r (10 : Fin 30))) = BitVec.ofNat 32 k.val := by
  unfold target
  obtain ⟨b, y, x', hX⟩ := flat_cell
    (Host.scatter (dBox) (fun _ b => b)
      (broadcastInDim S16384x7x7x30 ![] bcast_S_S16384x7x7x30 (constant (F := Ideal) S_ .f32 0x00000000#32))
      idx3
      (Host.scatter (dRow) (fun _ b => b) (Host.scatter (dRow) (fun _ b => b) rowPrev i9 (wh7 L)) i7 dxy))
    r (10 : Fin 30)
  rw [hX]
  rcases class_column_cases rowPrev i9 i7 (wh7 L) dxy
      (broadcastInDim S16384x7x7x30 ![] bcast_S_S16384x7x7x30 (constant (F := Ideal) S_ .f32 0x00000000#32))
      idx3 h9 h7 b y x' with h | ⟨b', n, h⟩
  · rw [h, broadcastInDim_apply ![] bcast_S_S16384x7x7x30 _ (ix4 b y x' (10 : Fin 30)) ix0 (fun ax => ax.elim0)]
    show ∃ k : Fin 20, Ideal.fptosi 32 (Ideal.ofBits .f32 0x00000000#32) = BitVec.ofNat 32 k.val
    rw [Ideal.ofBits_zero_f32]
    exact fptosi_zero
  · rw [h, wh7_col1]
    exact fptosi_of_cmp _ (hlo b' n) (hhi b' n)

end Target

/-! ## The precondition, decoded -/

section Pre

variable [Cert.Pre_finite_inputs.Facts]
open Cert.Pre_finite_inputs.Facts

/-- Seven times a box's height as the precondition spells it: column 3 minus column 1 of the labels,
    each cut out as a one-column array, times the constant `7.0`. -/
theorem pre_h7_apply (L : FVec Ideal S16384x8x5 .f32) (b : Fin 16384) (n : Fin 8) :
    mulf
      (subf
        (extractStridedSlice Cert.Pre_finite_inputs.S16384x8x1 ![0, 0, 3] L slices_S16384x8x5_S16384x8x1_0_0_3)
        (extractStridedSlice Cert.Pre_finite_inputs.S16384x8x1 ![0, 0, 1] L slices_S16384x8x5_S16384x8x1_0_0_1))
      (broadcastInDim Cert.Pre_finite_inputs.S16384x8x1 ![] bcast_S_S16384x8x1
        (constant (F := Ideal) Cert.Pre_finite_inputs.S_ .f32 0x40E00000#32))
      (ix3 b n (0 : Fin 1))
      = (L (ix3 b n (3 : Fin 5)) - L (ix3 b n (1 : Fin 5))) * Ideal.ofBits .f32 0x40E00000#32 := by
  have hA : extractStridedSlice Cert.Pre_finite_inputs.S16384x8x1 ![0, 0, 3] L
      slices_S16384x8x5_S16384x8x1_0_0_3 (ix3 b n (0 : Fin 1)) = L (ix3 b n (3 : Fin 5)) :=
    extractStridedSlice_apply _ _ _ (ix3 b n (0 : Fin 1)) (ix3 b n (3 : Fin 5)) (fun a => by
      match a with
      | ⟨0, _⟩ => exact (Nat.zero_add _).symm
      | ⟨1, _⟩ => exact (Nat.zero_add _).symm
      | ⟨2, _⟩ => rfl)
  have hB : extractStridedSlice Cert.Pre_finite_inputs.S16384x8x1 ![0, 0, 1] L
      slices_S16384x8x5_S16384x8x1_0_0_1 (ix3 b n (0 : Fin 1)) = L (ix3 b n (1 : Fin 5)) :=
    extractStridedSlice_apply _ _ _ (ix3 b n (0 : Fin 1)) (ix3 b n (1 : Fin 5)) (fun a => by
      match a with
      | ⟨0, _⟩ => exact (Nat.zero_add _).symm
      | ⟨1, _⟩ => exact (Nat.zero_add _).symm
      | ⟨2, _⟩ => rfl)
  rw [mulf_apply, subf_apply, hA, hB,
    broadcastInDim_apply ![] bcast_S_S16384x8x1 _ (ix3 b n (0 : Fin 1)) ix0 (fun ax => ax.elim0)]
  rfl

/-- **The precondition read back.** If the printed test of the inputs came out `1`, then every entry
    of the predictions and of the labels is a real number, and every box's seven-fold height lies
    strictly between the words of `−1` and `20`. -/
theorem pre_decoded (P : FVec Ideal S16384x1470 .f32) (L : FVec Ideal S16384x8x5 .f32)
    (h : Cert.Pre_finite_inputs.fn (F := Ideal) P L = fun _ => 1#1) :
    (∀ i, ∃ x : ℝ, P i = (x : EReal)) ∧ (∀ i, ∃ x : ℝ, L i = (x : EReal)) ∧
    (∀ (b : Fin 16384) (n : Fin 8), FloatOps.cmpf (F := Ideal) .ogt
      ((L (ix3 b n (3 : Fin 5)) - L (ix3 b n (1 : Fin 5))) * Ideal.ofBits .f32 0x40E00000#32)
      (Ideal.ofBits .f32 0xBF800000#32) = 1#1) ∧
    (∀ (b : Fin 16384) (n : Fin 8), FloatOps.cmpf (F := Ideal) .olt
      ((L (ix3 b n (3 : Fin 5)) - L (ix3 b n (1 : Fin 5))) * Ideal.ofBits .f32 0x40E00000#32)
      (Ideal.ofBits .f32 0x41A00000#32) = 1#1) := by
  have h0 := congrFun h ix0
  unfold Cert.Pre_finite_inputs.fn Cert.Pre_finite_inputs.fn_part1 at h0
  dsimp only at h0
  obtain ⟨h123, h4⟩ := FiniteEntries.and_split h0
  obtain ⟨h12, h3⟩ := FiniteEntries.and_split h123
  obtain ⟨h1, h2⟩ := FiniteEntries.and_split h12
  refine ⟨fun i => FiniteEntries.entries_real P _ _ _ h1 i,
    fun i => FiniteEntries.entries_real L _ _ _ h2 i, fun b n => ?_, fun b n => ?_⟩
  · have key := Host.reduce_andi_all _ _ _ _ ix0 h3 (ix3 b n (0 : Fin 1))
    rw [cmpf_apply, pre_h7_apply,
      broadcastInDim_apply ![] bcast_S_S16384x8x1 _ (ix3 b n (0 : Fin 1)) ix0 (fun ax => ax.elim0)] at key
    exact key
  · have key := Host.reduce_andi_all _ _ _ _ ix0 h4 (ix3 b n (0 : Fin 1))
    rw [cmpf_apply, pre_h7_apply,
      broadcastInDim_apply ![] bcast_S_S16384x8x1 _ (ix3 b n (0 : Fin 1)) ix0 (fun ax => ax.elim0)] at key
    exact key

end Pre

end Cert.KernelIdeal.ClassRange

end
-- ==== Proof.IdealEncShape.lean ====
/-
  The encode's outer shape: the array of per-box rows ends with two single-start scatters, the box sizes times 7 at
  columns 9, 10 and then the centre offsets at columns 7, 8; the rows are scattered into the cells of a zero array.
  From this shape every cell's class slot (column 10) is 0 or some box's height times 7.
-/
import proofs.«142171_j11467562680721_2_alg».proof.Proof.IdealEncK
import proofs.«142171_j11467562680721_2_alg».proof.Proof.ClassIndex

set_option maxRecDepth 65536

noncomputable section

namespace Cert.KernelIdeal.Hand

open Cert.KernelIdeal Cert.KernelIdeal.Gen Cert.Loss
open Idealize.ShloMosaic Idealize.ShloMosaic.ValueIdx Idealize.ShloMosaic.TcCoe Idealize.ShloMosaic.StableHlo Idealize.SL.Sem

attribute [local irreducible] Host.scatter concatenate

set_option maxHeartbeats 1000000 in
/-- The cells start from zero. -/
theorem pre51_zero (L : FVec Ideal S16384x8x5 .f32) :
    pre51.1 L = broadcastInDim S16384x7x7x30 ![] bcast_S_S16384x7x7x30 (constant (F := Ideal) S_ .f32 0x00000000#32) := rfl

set_option maxHeartbeats 1000000 in
/-- The rows end with the two scatters at columns 9 and 7. -/
theorem pre48_shape (L : FVec Ideal S16384x8x5 .f32) :
    ∃ (rowPrev : FVec Ideal S16384x8x30 .f32) (dxy : FVec Ideal S16384x8x2 .f32) (i9 i7 : IVec S1 32),
      (i9 (ix1 (0 : Fin 1))).toInt = 9 ∧ (i7 (ix1 (0 : Fin 1))).toInt = 7
      ∧ pre48.1 L = Host.scatter scatter_S16384x8x30_S1_S16384x8x2_012_n_2_0 (fun _ b => b)
          (Host.scatter scatter_S16384x8x30_S1_S16384x8x2_012_n_2_0 (fun _ b => b) rowPrev i9 (Cert.KernelIdeal.ClassRange.wh7 L)) i7 dxy := by
  refine ⟨?rowPrev, ?dxy, ?i9, ?i7, ?h9, ?h7, ?eq⟩
  case eq => exact rfl
  case h9 => rfl
  case h7 => rfl

/-- The encode's outer shape. -/
theorem encK_shape (L : FVec Ideal S16384x8x5 .f32) :
    ∃ (rowPrev : FVec Ideal S16384x8x30 .f32) (dxy : FVec Ideal S16384x8x2 .f32) (i9 i7 : IVec S1 32) (idx3 : IVec S16384x8x3 32),
      (i9 (ix1 (0 : Fin 1))).toInt = 9 ∧ (i7 (ix1 (0 : Fin 1))).toInt = 7
      ∧ encK L = Cert.KernelIdeal.ClassRange.target L rowPrev dxy i9 i7 idx3 := by
  obtain ⟨rowPrev, dxy, i9, i7, h9, h7, e⟩ := pre48_shape L
  refine ⟨rowPrev, dxy, i9, i7, concatenate S16384x8x3 2 [⟨S16384x8x1, pre68.1 L⟩, ⟨S16384x8x1, pre69.1 L⟩, ⟨S16384x8x1, pre70.1 L⟩] concatenates_S16384x8x1_S16384x8x1_S16384x8x1_S16384x8x3_d2, h9, h7, ?_⟩
  unfold encK encTail Cert.KernelIdeal.ClassRange.target
  rw [pre51_zero, e]

end Cert.KernelIdeal.Hand

end
-- ==== Proof.RefEncode.lean ====
import proofs.«142171_j11467562680721_2_alg».proof.Proof.RefRun
import proofs.«142171_j11467562680721_2_alg».proof.Proof.IdealEncode

/-!
# The reference's flattened target and prediction, read back

The reference program computes the flattened target by the same last six host operations as the kernel's
program — the concatenate of the three index columns, the scatter of the per-box rows into the zero
array's cells, and the reshapes — and no later operation writes the two flattened arrays. So, after the
whole program, the flattened target is the same function of five earlier arrays as on the kernel's side, and
the flattened prediction is the prediction argument reshaped twice.
-/

set_option maxRecDepth 65536

noncomputable section

namespace Cert.ReferenceIdeal.Hand

open Cert.ReferenceIdeal Cert.ReferenceIdeal.Gen
open Idealize.ShloMosaic Idealize.ShloMosaic.TcCoe Idealize.ShloMosaic.StableHlo Idealize.SL.Sem

/-- The last six operations of the encode (the concatenate, the scatter into the cells, four reshapes), the
    operations before them, and the operations after them. -/
abbrev postR : List (HloOp τ sig (Elt Ideal)) := (ops3 (F := Ideal)).drop 34
abbrev preR : List (HloOp τ sig (Elt Ideal)) :=
  ops0 (F := Ideal) ++ ops1 (F := Ideal) ++ ops2 (F := Ideal) ++ (ops3 (F := Ideal)).take 34
abbrev restR : List (HloOp τ sig (Elt Ideal)) :=
  List.flatten [ops4 (F := Ideal), ops5 (F := Ideal), ops6 (F := Ideal), ops7 (F := Ideal), ops8 (F := Ideal), ops9 (F := Ideal)]

/-- The program's operations are those three stretches in order. -/
theorem split_opsR : (ops (F := Ideal)) = preR ++ postR ++ restR := by
  have h3 : ∀ R : List (HloOp τ sig (Elt Ideal)),
      (ops3 (F := Ideal)).take 34 ++ ((ops3 (F := Ideal)).drop 34 ++ R) = ops3 (F := Ideal) ++ R := fun R => by
    rw [← List.append_assoc, List.take_append_drop]
  show List.flatten [ops0 (F := Ideal), ops1 (F := Ideal), ops2 (F := Ideal), ops3 (F := Ideal), ops4 (F := Ideal),
      ops5 (F := Ideal), ops6 (F := Ideal), ops7 (F := Ideal), ops8 (F := Ideal), ops9 (F := Ideal)]
    = (ops0 (F := Ideal) ++ ops1 (F := Ideal) ++ ops2 (F := Ideal) ++ (ops3 (F := Ideal)).take 34)
        ++ (ops3 (F := Ideal)).drop 34
        ++ List.flatten [ops4 (F := Ideal), ops5 (F := Ideal), ops6 (F := Ideal), ops7 (F := Ideal), ops8 (F := Ideal), ops9 (F := Ideal)]
  rw [List.flatten_cons, List.flatten_cons, List.flatten_cons, List.flatten_cons, List.append_assoc, List.append_assoc,
    List.append_assoc, List.append_assoc, h3]

/-- Closes "no operation of these stretches writes the reference": each operation writes its own result buffer only, and
    that is another reference. -/
local macro "result_is_another" : tactic => `(tactic| (
  simp only [ops4, ops5, ops6, ops7, ops8, ops9, List.Forall, StableHlo.nullary_writes, StableHlo.unary_writes,
    StableHlo.binary_writes, StableHlo.ternary_writes, StableHlo.reshape_writes, StableHlo.nary_writes, Finset.mem_singleton]
  repeat' apply And.intro
  all_goals exact StableHlo.devRef_ne_of_ne (by decide)))

/-- No later operation writes the flattened target. -/
theorem v75_not_written : ([ops4 (F := Ideal), ops5 (F := Ideal), ops6 (F := Ideal), ops7 (F := Ideal), ops8 (F := Ideal),
    ops9 (F := Ideal)]).Forall fun l => l.Forall fun op => Proc.devRef (τ := τ) .tc main_v75 ∉ op.writes :=
  ⟨by result_is_another, by result_is_another, by result_is_another, by result_is_another, by result_is_another,
   by result_is_another⟩

/-- Nor the flattened prediction. -/
theorem v76_not_written : ([ops4 (F := Ideal), ops5 (F := Ideal), ops6 (F := Ideal), ops7 (F := Ideal), ops8 (F := Ideal),
    ops9 (F := Ideal)]).Forall fun l => l.Forall fun op => Proc.devRef (τ := τ) .tc main_v76 ∉ op.writes :=
  ⟨by result_is_another, by result_is_another, by result_is_another, by result_is_another, by result_is_another,
   by result_is_another⟩

/-- The flattened target after the whole program is what the encode's last six operations leave. -/
theorem after_ops_v75 (V : Valuation τ sig (Elt Ideal)) :
    StableHlo.after (ops (F := Ideal)) V (Proc.devRef .tc main_v75)
      = StableHlo.after postR (StableHlo.after preR V) (Proc.devRef .tc main_v75) := by
  rw [split_opsR, StableHlo.after_append, StableHlo.after_append,
    StableHlo.after_of_forall_not_mem restR _ (List.forall_iff_forall_mem.mp (forall_flatten v75_not_written))]

/-- The flattened prediction likewise. -/
theorem after_ops_v76 (V : Valuation τ sig (Elt Ideal)) :
    StableHlo.after (ops (F := Ideal)) V (Proc.devRef .tc main_v76)
      = StableHlo.after postR (StableHlo.after preR V) (Proc.devRef .tc main_v76) := by
  rw [split_opsR, StableHlo.after_append, StableHlo.after_append,
    StableHlo.after_of_forall_not_mem restR _ (List.forall_iff_forall_mem.mp (forall_flatten v76_not_written))]

set_option maxHeartbeats 4000000 in
/-- The encode's tail on the reference's side is the kernel's: the same function of the zero array, the three
    index columns and the rows. -/
theorem post_read75R (V0 : Valuation τ sig (Elt Ideal)) :
    StableHlo.after postR V0 (Proc.devRef .tc main_v75)
      = Cert.KernelIdeal.Hand.encTail (V0 (Proc.devRef .tc main_v51)) (V0 (Proc.devRef .tc main_v68))
          (V0 (Proc.devRef .tc main_v69)) (V0 (Proc.devRef .tc main_v70)) (V0 (Proc.devRef .tc main_v48)) := by
  simp only [postR, ops3, List.drop_succ_cons, List.drop_zero]
  after_results
  rfl

set_option maxHeartbeats 4000000 in
/-- The flattened prediction is the prediction argument reshaped twice. -/
theorem post_read76R (V0 : Valuation τ sig (Elt Ideal)) :
    StableHlo.after postR V0 (Proc.devRef .tc main_v76)
      = shapeCast S802816x30 (shapeCast S16384x49x30 (V0 (Proc.devRef .tc main_arg0)) shapeCasts_S16384x1470_S16384x49x30)
          shapeCasts_S16384x49x30_S802816x30 := by
  simp only [postR, ops3, List.drop_succ_cons, List.drop_zero]
  after_results
  rfl

end Cert.ReferenceIdeal.Hand

end
-- ==== Proof.RefPre48.lean ====
/-
  What the reference's host operations before the encode's tail leave in one of the buffers the tail consumes, as a
  function of the labels argument alone (every buffer read on the way is written before it is read).
-/
import proofs.«142171_j11467562680721_2_alg».proof.Proof.RefEncode

set_option maxRecDepth 65536

noncomputable section

namespace Cert.ReferenceIdeal.Hand

open Cert.ReferenceIdeal Cert.ReferenceIdeal.Gen
open Idealize.ShloMosaic Idealize.ShloMosaic.TcCoe Idealize.ShloMosaic.StableHlo Idealize.SL.Sem

set_option maxHeartbeats 16000000 in
def pre48R : { G : ((⟨S16384x8x5, .f32⟩ : BufTy).Contents (Elt Ideal)) → ((⟨S16384x8x30, .f32⟩ : BufTy).Contents (Elt Ideal)) //
    ∀ W : Valuation τ sig (Elt Ideal), StableHlo.after preR W (Proc.devRef .tc main_v48) = G (W (Proc.devRef .tc main_arg1)) } := by
  refine ⟨?G, fun W => ?_⟩
  show StableHlo.after (ops0 (F := Ideal) ++ ops1 (F := Ideal) ++ ops2 (F := Ideal) ++ (ops3 (F := Ideal)).take 34) W (Proc.devRef .tc main_v48) = _
  simp only [ops0, ops1, ops2, ops3, List.take_succ_cons, List.take_zero, List.cons_append, List.nil_append]
  after_results_simp
  generalize W (Proc.devRef .tc main_arg1) = L
  exact rfl

end Cert.ReferenceIdeal.Hand

end
-- ==== Proof.RefPre51.lean ====
/-
  What the reference's host operations before the encode's tail leave in one of the buffers the tail consumes, as a
  function of the labels argument alone (every buffer read on the way is written before it is read).
-/
import proofs.«142171_j11467562680721_2_alg».proof.Proof.RefEncode

set_option maxRecDepth 65536

noncomputable section

namespace Cert.ReferenceIdeal.Hand

open Cert.ReferenceIdeal Cert.ReferenceIdeal.Gen
open Idealize.ShloMosaic Idealize.ShloMosaic.TcCoe Idealize.ShloMosaic.StableHlo Idealize.SL.Sem

set_option maxHeartbeats 16000000 in
def pre51R : { G : ((⟨S16384x8x5, .f32⟩ : BufTy).Contents (Elt Ideal)) → ((⟨S16384x7x7x30, .f32⟩ : BufTy).Contents (Elt Ideal)) //
    ∀ W : Valuation τ sig (Elt Ideal), StableHlo.after preR W (Proc.devRef .tc main_v51) = G (W (Proc.devRef .tc main_arg1)) } := by
  refine ⟨?G, fun W => ?_⟩
  show StableHlo.after (ops0 (F := Ideal) ++ ops1 (F := Ideal) ++ ops2 (F := Ideal) ++ (ops3 (F := Ideal)).take 34) W (Proc.devRef .tc main_v51) = _
  simp only [ops0, ops1, ops2, ops3, List.take_succ_cons, List.take_zero, List.cons_append, List.nil_append]
  after_results_simp
  generalize W (Proc.devRef .tc main_arg1) = L
  exact rfl

end Cert.ReferenceIdeal.Hand

end
-- ==== Proof.RefPre68.lean ====
/-
  What the reference's host operations before the encode's tail leave in one of the buffers the tail consumes, as a
  function of the labels argument alone (every buffer read on the way is written before it is read).
-/
import proofs.«142171_j11467562680721_2_alg».proof.Proof.RefEncode

set_option maxRecDepth 65536

noncomputable section

namespace Cert.ReferenceIdeal.Hand

open Cert.ReferenceIdeal Cert.ReferenceIdeal.Gen
open Idealize.ShloMosaic Idealize.ShloMosaic.TcCoe Idealize.ShloMosaic.StableHlo Idealize.SL.Sem

set_option maxHeartbeats 16000000 in
def pre68R : { G : ((⟨S16384x8x5, .f32⟩ : BufTy).Contents (Elt Ideal)) → ((⟨S16384x8x1, .i32⟩ : BufTy).Contents (Elt Ideal)) //
    ∀ W : Valuation τ sig (Elt Ideal), StableHlo.after preR W (Proc.devRef .tc main_v68) = G (W (Proc.devRef .tc main_arg1)) } := by
  refine ⟨?G, fun W => ?_⟩
  show StableHlo.after (ops0 (F := Ideal) ++ ops1 (F := Ideal) ++ ops2 (F := Ideal) ++ (ops3 (F := Ideal)).take 34) W (Proc.devRef .tc main_v68) = _
  simp only [ops0, ops1, ops2, ops3, List.take_succ_cons, List.take_zero, List.cons_append, List.nil_append]
  after_results_simp
  generalize W (Proc.devRef .tc main_arg1) = L
  exact rfl

end Cert.ReferenceIdeal.Hand

end
-- ==== Proof.RefPre69.lean ====
/-
  What the reference's host operations before the encode's tail leave in one of the buffers the tail consumes, as a
  function of the labels argument alone (every buffer read on the way is written before it is read).
-/
import proofs.«142171_j11467562680721_2_alg».proof.Proof.RefEncode

set_option maxRecDepth 65536

noncomputable section

namespace Cert.ReferenceIdeal.Hand

open Cert.ReferenceIdeal Cert.ReferenceIdeal.Gen
open Idealize.ShloMosaic Idealize.ShloMosaic.TcCoe Idealize.ShloMosaic.StableHlo Idealize.SL.Sem

set_option maxHeartbeats 16000000 in
def pre69R : { G : ((⟨S16384x8x5, .f32⟩ : BufTy).Contents (Elt Ideal)) → ((⟨S16384x8x1, .i32⟩ : BufTy).Contents (Elt Ideal)) //
    ∀ W : Valuation τ sig (Elt Ideal), StableHlo.after preR W (Proc.devRef .tc main_v69) = G (W (Proc.devRef .tc main_arg1)) } := by
  refine ⟨?G, fun W => ?_⟩
  show StableHlo.after (ops0 (F := Ideal) ++ ops1 (F := Ideal) ++ ops2 (F := Ideal) ++ (ops3 (F := Ideal)).take 34) W (Proc.devRef .tc main_v69) = _
  simp only [ops0, ops1, ops2, ops3, List.take_succ_cons, List.take_zero, List.cons_append, List.nil_append]
  after_results_simp
  generalize W (Proc.devRef .tc main_arg1) = L
  exact rfl

end Cert.ReferenceIdeal.Hand

end
-- ==== Proof.RefPre70.lean ====
/-
  What the reference's host operations before the encode's tail leave in one of the buffers the tail consumes, as a
  function of the labels argument alone (every buffer read on the way is written before it is read).
-/
import proofs.«142171_j11467562680721_2_alg».proof.Proof.RefEncode

set_option maxRecDepth 65536

noncomputable section

namespace Cert.ReferenceIdeal.Hand

open Cert.ReferenceIdeal Cert.ReferenceIdeal.Gen
open Idealize.ShloMosaic Idealize.ShloMosaic.TcCoe Idealize.ShloMosaic.StableHlo Idealize.SL.Sem

set_option maxHeartbeats 16000000 in
def pre70R : { G : ((⟨S16384x8x5, .f32⟩ : BufTy).Contents (Elt Ideal)) → ((⟨S16384x8x1, .i32⟩ : BufTy).Contents (Elt Ideal)) //
    ∀ W : Valuation τ sig (Elt Ideal), StableHlo.after preR W (Proc.devRef .tc main_v70) = G (W (Proc.devRef .tc main_arg1)) } := by
  refine ⟨?G, fun W => ?_⟩
  show StableHlo.after (ops0 (F := Ideal) ++ ops1 (F := Ideal) ++ ops2 (F := Ideal) ++ (ops3 (F := Ideal)).take 34) W (Proc.devRef .tc main_v70) = _
  simp only [ops0, ops1, ops2, ops3, List.take_succ_cons, List.take_zero, List.cons_append, List.nil_append]
  after_results_simp
  generalize W (Proc.devRef .tc main_arg1) = L
  exact rfl

end Cert.ReferenceIdeal.Hand

end
-- ==== Proof.RefKerEq.lean ====
/-
  The arrays the encode's tail consumes are the same functions of the labels in the two programs: the reference's host
  operations before the tail and the kernel program's are the same operations in the same order.
-/
import proofs.«142171_j11467562680721_2_alg».proof.Proof.RefPre48
import proofs.«142171_j11467562680721_2_alg».proof.Proof.RefPre51
import proofs.«142171_j11467562680721_2_alg».proof.Proof.RefPre68
import proofs.«142171_j11467562680721_2_alg».proof.Proof.RefPre69
import proofs.«142171_j11467562680721_2_alg».proof.Proof.RefPre70
import proofs.«142171_j11467562680721_2_alg».proof.Proof.IdealPre48
import proofs.«142171_j11467562680721_2_alg».proof.Proof.IdealPre51
import proofs.«142171_j11467562680721_2_alg».proof.Proof.IdealPre68
import proofs.«142171_j11467562680721_2_alg».proof.Proof.IdealPre69
import proofs.«142171_j11467562680721_2_alg».proof.Proof.IdealPre70

set_option maxRecDepth 65536

noncomputable section

namespace Cert.ReferenceIdeal.Hand

open Idealize.ShloMosaic

/-- The rows. -/
theorem pre48_eq (L : (⟨Cert.KernelIdeal.S16384x8x5, .f32⟩ : BufTy).Contents (Elt Ideal)) :
    pre48R.1 L = Cert.KernelIdeal.Hand.pre48.1 L := rfl
/-- The zero array. -/
theorem pre51_eq (L : (⟨Cert.KernelIdeal.S16384x8x5, .f32⟩ : BufTy).Contents (Elt Ideal)) :
    pre51R.1 L = Cert.KernelIdeal.Hand.pre51.1 L := rfl
/-- The image index column. -/
theorem pre68_eq (L : (⟨Cert.KernelIdeal.S16384x8x5, .f32⟩ : BufTy).Contents (Elt Ideal)) :
    pre68R.1 L = Cert.KernelIdeal.Hand.pre68.1 L := rfl
/-- The cell row index column. -/
theorem pre69_eq (L : (⟨Cert.KernelIdeal.S16384x8x5, .f32⟩ : BufTy).Contents (Elt Ideal)) :
    pre69R.1 L = Cert.KernelIdeal.Hand.pre69.1 L := rfl
/-- The cell column index column. -/
theorem pre70_eq (L : (⟨Cert.KernelIdeal.S16384x8x5, .f32⟩ : BufTy).Contents (Elt Ideal)) :
    pre70R.1 L = Cert.KernelIdeal.Hand.pre70.1 L := rfl

open Cert.ReferenceIdeal Cert.ReferenceIdeal.Gen Idealize.ShloMosaic.TcCoe Idealize.ShloMosaic.StableHlo Idealize.SL.Sem

/-- Every operation before the encode's tail is one of the program's. -/
theorem preR_sub_ops : ∀ op ∈ preR, op ∈ ops (F := Ideal) := by
  intro op hop
  rw [split_opsR]
  exact List.mem_append_left _ (List.mem_append_left _ hop)

/-- The operations before the encode's tail leave the prediction argument as it was. -/
theorem after_preR_arg0 (V : Valuation τ sig (Elt Ideal)) :
    StableHlo.after preR V (Proc.devRef .tc main_arg0) = V (Proc.devRef .tc main_arg0) :=
  StableHlo.after_of_forall_not_mem _ _ fun op hop =>
    (List.forall_iff_forall_mem.mp (forall_flatten arg0_not_written)) op (preR_sub_ops op hop)

/-- **The reference's flattened target** after the whole program: the kernel program's encode of the labels — its
    tail applied to its five functions of the labels argument. -/
theorem ref_target (V : Valuation τ sig (Elt Ideal)) :
    StableHlo.after (ops (F := Ideal)) V (Proc.devRef .tc main_v75)
      = Cert.KernelIdeal.Hand.encTail
          (Cert.KernelIdeal.Hand.pre51.1 (V (Proc.devRef .tc main_arg1)))
          (Cert.KernelIdeal.Hand.pre68.1 (V (Proc.devRef .tc main_arg1)))
          (Cert.KernelIdeal.Hand.pre69.1 (V (Proc.devRef .tc main_arg1)))
          (Cert.KernelIdeal.Hand.pre70.1 (V (Proc.devRef .tc main_arg1)))
          (Cert.KernelIdeal.Hand.pre48.1 (V (Proc.devRef .tc main_arg1))) := by
  rw [after_ops_v75, post_read75R, pre51R.2, pre68R.2, pre69R.2, pre70R.2, pre48R.2,
    pre51_eq, pre68_eq, pre69_eq, pre70_eq, pre48_eq]

/-- **The reference's flattened prediction** after the whole program: the prediction argument reshaped twice. -/
theorem ref_pred (V : Valuation τ sig (Elt Ideal)) :
    StableHlo.after (ops (F := Ideal)) V (Proc.devRef .tc main_v76)
      = shapeCast S802816x30 (shapeCast S16384x49x30 (V (Proc.devRef .tc main_arg0)) shapeCasts_S16384x1470_S16384x49x30)
          shapeCasts_S16384x49x30_S802816x30 := by
  rw [after_ops_v76, post_read76R, after_preR_arg0]

end Cert.ReferenceIdeal.Hand

end
-- ==== Proof.LibBlockSum.lean ====
/-
  A sum over `a · b` (or `a · b · c`) consecutive positions, grouped into `a` runs of `b` (of `b` runs of `c`).

  In a commutative monoid, for `f` on `Fin n` with `n = a · b`,
      ∑ₖ f k = ∑ᵢ ∑ⱼ f (i · b + j),
  the positions `i · b + j` (`i < a`, `j < b`) being exactly the positions below `a · b`, each once; applied twice,
  for `n = a · b · c`,  ∑ₖ f k = ∑ᵢ ∑ₛ ∑ᵣ f ((i · b + s) · c + r).
-/
import Mathlib

namespace Idealize.ShloMosaic.BlockSum

theorem pos_lt {a b : ℕ} (i : Fin a) (j : Fin b) : i.val * b + j.val < a * b :=
  Nat.lt_of_lt_of_le (Nat.add_lt_add_left j.2 _) (by rw [← Nat.succ_mul]; exact Nat.mul_le_mul_right _ i.2)

/-- Two levels. -/
theorem sum_runs {M : Type*} [AddCommMonoid M] (a b n : ℕ) (h : a * b = n) (f : Fin n → M) :
    ∑ k, f k = ∑ i : Fin a, ∑ j : Fin b, f ⟨i.val * b + j.val, h ▸ pos_lt i j⟩ := by
  subst h
  rw [← (finProdFinEquiv (m := a) (n := b)).sum_comp, Fintype.sum_prod_type]
  refine Finset.sum_congr rfl fun i _ => Finset.sum_congr rfl fun j _ => congrArg f (Fin.ext ?_)
  simp only [finProdFinEquiv, Equiv.coe_fn_mk]
  rw [Nat.add_comm, Nat.mul_comm]

/-- Three levels. -/
theorem sum_runs3 {M : Type*} [AddCommMonoid M] (a b c n : ℕ) (h : a * b * c = n) (f : Fin n → M) :
    ∑ k, f k = ∑ i : Fin a, ∑ s : Fin b, ∑ r : Fin c,
      f ⟨(i.val * b + s.val) * c + r.val, h ▸ pos_lt (⟨i.val * b + s.val, pos_lt i s⟩ : Fin (a * b)) r⟩ := by
  rw [sum_runs (a * b) c n h f, sum_runs a b (a * b) rfl]

end Idealize.ShloMosaic.BlockSum
-- ==== Proof.LossMath.lean ====
import proofs.«142171_j11467562680721_2_alg».proof.Proof.LossSpec
import proofs.«142171_j11467562680721_2_alg».proof.Proof.LibBlockSum
import Idealize.ShloMosaic.PureOps.Ideal.Laws

/-!
# Arithmetic facts about the per-row loss on the extended reals

* the one-hot selection of the log-softmax picks the class the target slot truncates to;
* the log-softmax of real scores is a real number;
* the object mask is `0` or `1`, and such a factor distributes over a sum;
* a sum over all `802816 = 64 · 12544` rows is the sum over 64 blocks of the sums over each block's
  12544 rows, also when each block's sum is negated;
* dividing a negated value by the word of `802816` negates the quotient.
-/

noncomputable section

open scoped BigOperators

namespace Cert.Loss

open Idealize.ShloMosaic Idealize.ShloMosaic.ValueIdx

/-! ## Sums of real numbers inside the extended reals -/

/-- A finite sum of real numbers, taken in the extended reals, is the real sum. -/
theorem coe_sum {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-! ## The one-hot selection -/

/-- If the target slot truncates to the class index `k`, the one-hot selection of the log-softmax,
    summed over the classes, is the log-softmax of class `k`: the comparison of the class number
    with the index is `1` exactly at `k`, and every other term is the zero word. -/
theorem pick_of_index (s : Fin 20 → EReal) (tv : EReal) (k : Fin 20)
    (hk : FloatOps.fptosi (F := Ideal) (φ := .f32) 32 tv = BitVec.ofNat 32 k.val) :
    pick s tv = logSoft s k := by
  unfold pick
  rw [hk, Finset.sum_eq_single k]
  · have h1 : IntOp.cmpi .eq (BitVec.ofNat 32 k.val) (BitVec.ofNat 32 k.val) = 1#1 := by
      simp [IntOp.cmpi]
    rw [h1, select_one]
  · intro c _ hc
    have hne : BitVec.ofNat 32 c.val ≠ BitVec.ofNat 32 k.val := by
      intro h
      apply hc
      have h' := congrArg BitVec.toNat h
      simp only [BitVec.toNat_ofNat] at h'
      have hc' := c.isLt
      have hk' := k.isLt
      exact Fin.ext (by omega)
    have hb : (BitVec.ofNat 32 c.val == BitVec.ofNat 32 k.val) = false := beq_eq_false_iff_ne.2 hne
    have h0 : IntOp.cmpi .eq (BitVec.ofNat 32 c.val) (BitVec.ofNat 32 k.val) = 0#1 := by
      show BitVec.ofBool (BitVec.ofNat 32 c.val == BitVec.ofNat 32 k.val) = 0#1
      rw [hb]; rfl
    rw [h0, select_zero]
    exact Ideal.ofBits_zero_f32
  · intro h
    exact absurd (Finset.mem_univ k) h

/-! ## The log-softmax of real scores -/

/-- The running maximum of real numbers over a nonempty finite set, started from `⊥`, is a real number. -/
theorem fold_max_real {ι : Type*} (t : Finset ι) (ht : t.Nonempty) (f : ι → ℝ) :
    ∃ m : ℝ, t.fold max ⊥ (fun c => ((f c : ℝ) : EReal)) = (m : EReal) := by
  classical
  induction t using Finset.induction_on with
  | empty => exact absurd ht (by simp)
  | insert a t ha ih =>
    rw [Finset.fold_insert ha]
    rcases t.eq_empty_or_nonempty with h | h
    · subst h
      exact ⟨f a, by simp⟩
    · obtain ⟨m, hm⟩ := ih h
      exact ⟨max (f a) m, by rw [hm]; exact (EReal.coe_strictMono.monotone.map_max).symm⟩

/-- The log-softmax of 20 real scores at a class is a real number: the maximum is real, every
    exponential is a positive real, so is their sum, and its logarithm is real. -/
theorem logSoft_real (s' : Fin 20 → ℝ) (k : Fin 20) :
    ∃ x : ℝ, logSoft (fun c => ((s' c : ℝ) : EReal)) k = (x : EReal) := by
  obtain ⟨m, hm⟩ := fold_max_real (Finset.univ : Finset (Fin 20)) Finset.univ_nonempty s'
  have hexp : ∀ c : Fin 20, Ideal.exp (((s' c : ℝ) : EReal) - (m : EReal))
      = ((Real.exp (s' c - m) : ℝ) : EReal) := fun c => by
    rw [← EReal.coe_sub, Ideal.exp_coe]
  have hpos : 0 < ∑ c : Fin 20, Real.exp (s' c - m) :=
    Finset.sum_pos (fun c _ => Real.exp_pos _) Finset.univ_nonempty
  refine ⟨(s' k - m) - Real.log (∑ c : Fin 20, Real.exp (s' c - m)), ?_⟩
  unfold logSoft rowMax
  rw [hm]
  simp only [hexp]
  rw [coe_sum, Ideal.log_coe, if_neg (not_le.2 hpos), ← EReal.coe_sub, ← EReal.coe_sub]

/-! ## The object mask -/

/-- The object mask is `0` or `1`. -/
theorem maskOf_zero_or_one (tv : EReal) : maskOf tv = 0 ∨ maskOf tv = 1 := by
  unfold maskOf
  rcases BitVec.eq_zero_or_eq_one (FloatOps.cmpf (F := Ideal) .ogt tv (FloatOps.ofBits .f32 0#32)) with h | h
  · left
    rw [h]
    show (((BitVec.setWidth 32 (0#1)).toInt : ℝ) : EReal) = 0
    have : (BitVec.setWidth 32 (0#1)).toInt = 0 := by decide
    rw [this]; simp
  · right
    rw [h]
    show (((BitVec.setWidth 32 (1#1)).toInt : ℝ) : EReal) = 1
    have : (BitVec.setWidth 32 (1#1)).toInt = 1 := by decide
    rw [this]; simp

/-- A factor that is `0` or `1` distributes over a sum of extended reals. -/
theorem mask_distrib (mk u v : EReal) (h : mk = 0 ∨ mk = 1) : mk * (u + v) = mk * u + mk * v := by
  rcases h with h | h
  · rw [h, zero_mul, zero_mul, zero_mul, add_zero]
  · rw [h, one_mul, one_mul, one_mul]

/-! ## The rows in 64 blocks of 12544 -/

/-- The sum over all rows is the sum over the 64 blocks of the sums over each block's 12544 rows. -/
theorem sum_blocks (f : Fin 802816 → EReal) :
    ∑ t ∈ Finset.range 64,
        (if h : t < 64 then ∑ r : Fin 12544, f ⟨t * 12544 + r.val, by omega⟩ else 0)
      = ∑ g : Fin 802816, f g := by
  rw [Idealize.ShloMosaic.BlockSum.sum_runs 64 12544 802816 rfl f, Finset.sum_range]
  refine Finset.sum_congr rfl fun t _ => ?_
  rw [dif_pos t.isLt]

/-- The same with every block's sum of real numbers negated (as `0 − ·`): the negated real sum over
    all rows. -/
theorem sum_blocks_neg (x' : Fin 802816 → ℝ) :
    ∑ t ∈ Finset.range 64,
        (if h : t < 64 then
          ((0 : EReal) - ∑ r : Fin 12544, ((x' ⟨t * 12544 + r.val, by omega⟩ : ℝ) : EReal)) else 0)
      = -(((∑ g : Fin 802816, x' g : ℝ)) : EReal) := by
  rw [Idealize.ShloMosaic.BlockSum.sum_runs 64 12544 802816 rfl x', Finset.sum_range]
  have hterm : ∀ t : Fin 64,
      (if h : t.val < 64 then
          ((0 : EReal) - ∑ r : Fin 12544, ((x' ⟨t.val * 12544 + r.val, by omega⟩ : ℝ) : EReal)) else 0)
        = ((-(∑ r : Fin 12544, x' ⟨t.val * 12544 + r.val, by omega⟩) : ℝ) : EReal) := fun t => by
    rw [dif_pos t.isLt, coe_sum, zero_sub, EReal.coe_neg]
  rw [Finset.sum_congr rfl fun t _ => hterm t, coe_sum, Finset.sum_neg_distrib, EReal.coe_neg]

/-! ## Division by the number of rows -/

/-- The binary32 word `0x49440000` denotes `802816`. -/
theorem ofBits_rows : Ideal.ofBits .f32 0x49440000#32 = ((802816 : ℝ) : EReal) := by
  simp [Ideal.ofBits, Ideal.ieee, -EReal.coe_mul]; norm_num

/-- Dividing a negated value by the word of `802816` negates the quotient. -/
theorem div_rows_neg (a : EReal) :
    Ideal.div (-a) (Ideal.ofBits .f32 0x49440000#32) = -(Ideal.div a (Ideal.ofBits .f32 0x49440000#32)) := by
  rw [ofBits_rows, Ideal.div_coe (by norm_num), Ideal.div_coe (by norm_num), EReal.neg_mul]

end Cert.Loss

end
-- ==== Proof.LossBridge.lean ====
import proofs.«142171_j11467562680721_2_alg».proof.Proof.LossMath

/-!
# The kernel's and the reference's closed forms of the loss are one number

The kernel accumulates, block by block over 64 blocks of 12544 rows, the negated sum of the selected
log-softmax, the masked box error and the mask count; the reference sums the same three quantities
over all 802816 rows, the box error as its centre part plus its size part, each sum started from the
zero word. With real predictions and a target slot that truncates to a class index in range, the two
final expressions are equal.
-/

noncomputable section

open scoped BigOperators

namespace Cert.Loss

open Idealize.ShloMosaic Idealize.ShloMosaic.ValueIdx

/-- The centre part of a row's squared box error, started from the zero word. -/
def xyE (x y : Fin 30 → EReal) : EReal :=
  Ideal.ofBits .f32 0x00000000#32 + ((sq (x 0) (y 0) + sq (x 1) (y 1)) + (sq (x 5) (y 5) + sq (x 6) (y 6)))

/-- The size part of a row's squared box error, started from the zero word. -/
def whE (x y : Fin 30 → EReal) : EReal :=
  Ideal.ofBits .f32 0x00000000#32 + ((sq (x 2) (y 2) + sq (x 3) (y 3)) + (sq (x 7) (y 7) + sq (x 8) (y 8)))

/-- A row's squared box error is its centre part plus its size part. -/
theorem boxErr_eq (x y : Fin 30 → EReal) : boxErr x y = xyE x y + whE x y := by
  unfold boxErr xyE whE
  rw [Ideal.ofBits_zero_f32, zero_add, zero_add]

/-- Row `r` of block `t`. -/
local macro "ρ[" t:term ", " r:term "]" : term => `((⟨$t * 12544 + Fin.val $r, by omega⟩ : Fin 802816))

/-- **The two closed forms agree.** -/
theorem loss_bridge (Pg Tg : (⟨2, ![802816, 30]⟩ : Shape).Idx → EReal) (κ : Fin 802816 → Fin 20)
    (hP : ∀ i, ∃ x : ℝ, Pg i = (x : EReal))
    (hκ : ∀ r : Fin 802816, FloatOps.fptosi (F := Ideal) (φ := .f32) 32 (Tg (ix2 r (10 : Fin 30)))
      = BitVec.ofNat 32 (κ r).val) :
    Ideal.div
        (∑ t ∈ Finset.range 64, (if h : t < 64 then
          (Ideal.ofBits .f32 0#32 - ∑ r : Fin 12544,
            pick (gscores Pg ρ[t, r]) (Tg (ix2 ρ[t, r] (10 : Fin 30)))) else 0))
        (Ideal.ofBits .f32 0x49440000#32)
      + Ideal.ofBits .f32 0x40A00000#32 * Ideal.div
          (∑ t ∈ Finset.range 64, (if h : t < 64 then
            ∑ r : Fin 12544, maskOf (Tg (ix2 ρ[t, r] (10 : Fin 30)))
              * boxErr (grow Pg ρ[t, r]) (grow Tg ρ[t, r]) else 0))
          ((∑ t ∈ Finset.range 64, (if h : t < 64 then
            ∑ r : Fin 12544, maskOf (Tg (ix2 ρ[t, r] (10 : Fin 30))) else 0))
            * Ideal.ofBits .f32 0x40800000#32)
    = -(Ideal.div
          (Ideal.ofBits .f32 0x00000000#32 + ∑ r : Fin 802816, logSoft (gscores Pg r) (κ r))
          (Ideal.ofBits .f32 0x49440000#32))
      + Ideal.ofBits .f32 0x40A00000#32 * Ideal.div
          ((Ideal.ofBits .f32 0x00000000#32
              + ∑ r : Fin 802816, maskOf (Tg (ix2 r (10 : Fin 30))) * xyE (grow Pg r) (grow Tg r))
            + (Ideal.ofBits .f32 0x00000000#32
              + ∑ r : Fin 802816, maskOf (Tg (ix2 r (10 : Fin 30))) * whE (grow Pg r) (grow Tg r)))
          ((Ideal.ofBits .f32 0x00000000#32 + ∑ r : Fin 802816, maskOf (Tg (ix2 r (10 : Fin 30))))
            * Ideal.ofBits .f32 0x40800000#32) := by
  -- the selected log-softmax of every row is a real number
  choose P' hP' using hP
  have hx : ∀ r : Fin 802816, ∃ x : ℝ, logSoft (gscores Pg r) (κ r) = (x : EReal) := fun r => by
    have hs : gscores Pg r = fun c : Fin 20 => ((P' (ix2 r ⟨10 + c.val, by omega⟩) : ℝ) : EReal) :=
      funext fun c => hP' _
    rw [hs]
    exact logSoft_real _ _
  choose x' hx' using hx
  have hpick : ∀ r : Fin 802816,
      pick (gscores Pg r) (Tg (ix2 r (10 : Fin 30))) = ((x' r : ℝ) : EReal) := fun r =>
    (pick_of_index _ _ (κ r) (hκ r)).trans (hx' r)
  -- the class term, block by block
  have hcls : (∑ t ∈ Finset.range 64, (if h : t < 64 then
        (Ideal.ofBits .f32 0#32 - ∑ r : Fin 12544,
          pick (gscores Pg ρ[t, r]) (Tg (ix2 ρ[t, r] (10 : Fin 30)))) else 0))
      = -(((∑ g : Fin 802816, x' g : ℝ)) : EReal) := by
    rw [← sum_blocks_neg x']
    refine Finset.sum_congr rfl fun t _ => ?_
    by_cases h : t < 64
    · rw [dif_pos h, dif_pos h, Ideal.ofBits_zero_f32]
      exact congrArg (fun s : EReal => (0 : EReal) - s) (Finset.sum_congr rfl fun r _ => hpick _)
    · rw [dif_neg h, dif_neg h]
  -- the count and the box error, block by block
  have hcnt := sum_blocks (fun g : Fin 802816 => maskOf (Tg (ix2 g (10 : Fin 30))))
  have hbox := sum_blocks (fun g : Fin 802816 =>
    maskOf (Tg (ix2 g (10 : Fin 30))) * boxErr (grow Pg g) (grow Tg g))
  beta_reduce at hcnt hbox
  -- the box error in its two parts
  have hsplit : (∑ g : Fin 802816, maskOf (Tg (ix2 g (10 : Fin 30))) * boxErr (grow Pg g) (grow Tg g))
      = (Ideal.ofBits .f32 0x00000000#32
            + ∑ r : Fin 802816, maskOf (Tg (ix2 r (10 : Fin 30))) * xyE (grow Pg r) (grow Tg r))
          + (Ideal.ofBits .f32 0x00000000#32
            + ∑ r : Fin 802816, maskOf (Tg (ix2 r (10 : Fin 30))) * whE (grow Pg r) (grow Tg r)) := by
    rw [Ideal.ofBits_zero_f32, zero_add, zero_add, ← Finset.sum_add_distrib]
    refine Finset.sum_congr rfl fun r _ => ?_
    rw [boxErr_eq, mask_distrib _ _ _ (maskOf_zero_or_one _)]
  -- the reference's class sum and count
  have hrcls : Ideal.ofBits .f32 0x00000000#32 + ∑ r : Fin 802816, logSoft (gscores Pg r) (κ r)
      = (((∑ g : Fin 802816, x' g : ℝ)) : EReal) := by
    rw [Ideal.ofBits_zero_f32, zero_add, ← coe_sum]
    exact Finset.sum_congr rfl fun r _ => hx' r
  have hrcnt : Ideal.ofBits .f32 0x00000000#32 + ∑ r : Fin 802816, maskOf (Tg (ix2 r (10 : Fin 30)))
      = ∑ r : Fin 802816, maskOf (Tg (ix2 r (10 : Fin 30))) := by
    rw [Ideal.ofBits_zero_f32, zero_add]
  rw [hcls, hcnt, hbox, hsplit, hrcls, hrcnt, div_rows_neg]

end Cert.Loss

end
-- ==== Proof.RefTail.lean ====
/-
  The loss part of the reference program as a function of the two flattened arrays it starts from: the prediction
  reshaped to [802816, 30] (main_v76) and the encoded target reshaped to [802816, 30] (main_v75). The last 84
  operations of the program compute, from these two only: the log-softmax of the 20 class columns of the prediction,
  its entry at the class index the target's column 10 truncates to (negative indices wrapped, out-of-range ones
  filled with NaN), the mean of those entries negated; the object mask [target column 10 > 0]; the squared
  differences of the box centre and size columns, summed per row; and the closing scalar arithmetic.
-/
import proofs.«142171_j11467562680721_2_alg».proof.Proof.RefRun
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! ## The stages -/

/-- The row-wise log-softmax of a [802816, 20] array: the row maximum (from minus infinity, and once more against a
    broadcast minus infinity), the shifted scores, the logarithm of the row sum of their exponentials (from zero),
    the difference. -/
def logSoftmax20 (s : FVec F S802816x20 .f32) : FVec F S802816x20 .f32 :=
  let m0 : FVec F S802816 .f32 := Host.reduce FloatOps.maximumf s (constant S_ .f32 0xFF800000#32) reducesTo_S802816x20_S802816_d1 h_S_
  let m2 : FVec F S802816 .f32 := maximumf (broadcastInDim S802816 ![] bcast_S_S802816 (constant S_ .f32 0xFF800000#32)) m0
  let m4 : FVec F S802816x20 .f32 := broadcastInDim S802816x20 ![0, 1] bcast_S802816x1_S802816x20_0_1 (broadcastInDim S802816x1 ![0] bcast_S802816_S802816x1_0 m2)
  let v5 : FVec F S802816x20 .f32 := subf s m4
  let v7 : FVec F S802816 .f32 := Host.reduceAdd (Host.exp v5) (constant S_ .f32 0x00000000#32) reducesTo_S802816x20_S802816_d1 h_S_
  let v10 : FVec F S802816x20 .f32 := broadcastInDim S802816x20 ![0, 1] bcast_S802816x1_S802816x20_0_1 (Host.log (broadcastInDim S802816x1 ![0] bcast_S802816_S802816x1_0 v7))
  subf v5 v10

/-- The entry of each row of L at the row's index in I: a negative index is moved up by 20, an index outside 0 … 19
    after that gives NaN, otherwise the gather reads the (clamped) column. -/
def takeAlong (L : FVec F S802816x20 .f32) (I : IVec S802816x1 32) : FVec F S802816x1 .f32 :=
  let v1 : IVec S802816x1 1 := cmpi .slt I (broadcastInDim S802816x1 ![] bcast_S_S802816x1 (constantI S_ 32 0#32))
  let v3 : IVec S802816x1 32 := addi I (broadcastInDim S802816x1 ![] bcast_S_S802816x1 (constantI S_ 32 20#32))
  let v4 : IVec S802816x1 32 := select v1 v3 I
  let v5 : IVec S802816x1x1 32 := shapeCast S802816x1x1 v4 shapeCasts_S802816x1_S802816x1x1
  let v7 : IVec S802816x1x1 1 := cmpi .sge v5 (broadcastInDim S802816x1x1 ![] bcast_S_S802816x1x1 (constantI S_ 32 0#32))
  let v9 : IVec S802816x1x1 32 := broadcastInDim S802816x1x1 ![0, 1, 2] bcast_S1x1x1_S802816x1x1_0_1_2 (broadcastInDim S1x1x1 ![2] bcast_S1_S1x1x1_2 (constantI S1 32 19#32))
  let v10 : IVec S802816x1x1 1 := cmpi .sle v5 v9
  let v11 : IVec S802816x1x1 1 := andi v7 v10
  let v12 : IVec S802816x1 1 := Host.reduce IntOp.andi v11 (constantI S_ 1 1#1) reducesTo_S802816x1x1_S802816x1_d2 h_S_
  let v13 : FVec F S802816x1 .f32 := Host.gather gather_S802816x20_S802816x1x1_S802816x1_n_1_0_0_1_2_11 L v5
  let v14 : FVec F S802816x1 .f32 := broadcastInDim S802816x1 ![] bcast_S_S802816x1 (constant S_ .f32 0x7FC00000#32)
  select v12 v13 v14

/-- Column 10 of the target, as a vector. -/
def slot (T : FVec F S802816x30 .f32) : FVec F S802816 .f32 :=
  shapeCast S802816 (extractStridedSlice S802816x1 ![0, 10] T slices_S802816x30_S802816x1_0_10) shapeCasts_S802816x1_S802816

/-- The class index of each row: column 10 of the target truncated to a 32-bit integer, as a column. -/
def classIdx (T : FVec F S802816x30 .f32) : IVec S802816x1 32 :=
  broadcastInDim S802816x1 ![0] bcast_S802816_S802816x1_0 (fptosi 32 (slot T))

/-- The object mask of each row: 1 where column 10 of the target is positive, else 0. -/
def maskVec (T : FVec F S802816x30 .f32) : FVec F S802816 .f32 :=
  uitofp .f32 (cmpf .ogt (slot T) (broadcastInDim S802816 ![] bcast_S_S802816 (constant S_ .f32 0x00000000#32)))

/-- The ten box entries of each row as two boxes of five. -/
def boxes (X : FVec F S802816x30 .f32) : FVec F S802816x2x5 .f32 :=
  shapeCast S802816x2x5 (extractStridedSlice S802816x10 ![0, 0] X slices_S802816x30_S802816x10_0_0) shapeCasts_S802816x10_S802816x2x5

/-- Per row, the sum (from zero) over the two boxes of the squared differences of entries 0 and 1. -/
def errXY (P T : FVec F S802816x30 .f32) : FVec F S802816 .f32 :=
  let d : FVec F S802816x2x2 .f32 := subf (extractStridedSlice S802816x2x2 ![0, 0, 0] (boxes P) slices_S802816x2x5_S802816x2x2_0_0_0)
    (extractStridedSlice S802816x2x2 ![0, 0, 0] (boxes T) slices_S802816x2x5_S802816x2x2_0_0_0)
  Host.reduceAdd (mulf d d) (constant S_ .f32 0x00000000#32) reducesTo_S802816x2x2_S802816_d1_2 h_S_

/-- Per row, the same of entries 2 and 3. -/
def errWH (P T : FVec F S802816x30 .f32) : FVec F S802816 .f32 :=
  let d : FVec F S802816x2x2 .f32 := subf (extractStridedSlice S802816x2x2 ![0, 0, 2] (boxes P) slices_S802816x2x5_S802816x2x2_0_0_2)
    (extractStridedSlice S802816x2x2 ![0, 0, 2] (boxes T) slices_S802816x2x5_S802816x2x2_0_0_2)
  Host.reduceAdd (mulf d d) (constant S_ .f32 0x00000000#32) reducesTo_S802816x2x2_S802816_d1_2 h_S_

/-- The taken log-softmax entries: of the prediction's class columns at the target's class index. -/
def taken (P T : FVec F S802816x30 .f32) : FVec F S802816x1 .f32 :=
  takeAlong (logSoftmax20 (extractStridedSlice S802816x20 ![0, 10] P slices_S802816x30_S802816x20_0_10)) (classIdx T)

/-- The result: minus the mean of the taken entries, plus five times the masked squared box error over four times
    the object count. -/
def refTail (P T : FVec F S802816x30 .f32) : FVec F S_ .f32 :=
  let v86 : FVec F S_ .f32 := Host.negf (Host.divf (Host.reduceAdd (taken P T) (constant S_ .f32 0x00000000#32) reducesTo_S802816x1_S_d0_1 h_S_)
    (constant S_ .f32 0x49440000#32))
  let v107 : FVec F S_ .f32 := mulf (Host.reduceAdd (maskVec T) (constant S_ .f32 0x00000000#32) reducesTo_S802816_S_d0 h_S_) (constant S_ .f32 0x40800000#32)
  let v109 : FVec F S_ .f32 := Host.reduceAdd (mulf (maskVec T) (errXY P T)) (constant S_ .f32 0x00000000#32) reducesTo_S802816_S_d0 h_S_
  let v111 : FVec F S_ .f32 := Host.reduceAdd (mulf (maskVec T) (errWH P T)) (constant S_ .f32 0x00000000#32) reducesTo_S802816_S_d0 h_S_
  addf v86 (mulf (constant S_ .f32 0x40A00000#32) (Host.divf (addf v109 v111) v107))

/-! ## The program's last 84 operations compute it -/

/-- The operations up to the two flattened arrays, and the ones after. -/
abbrev headOps : List (HloOp τ sig (Elt F)) := List.flatten [ops0, ops1, ops2, ops3]
abbrev tailOps : List (HloOp τ sig (Elt F)) := List.flatten [ops4, ops5, ops6, ops7, ops8, ops9]

theorem ops_split : (ops : List (HloOp τ sig (Elt F))) = headOps ++ tailOps := by
  simp only [ops, stretches, headOps, tailOps, List.flatten_cons, List.flatten_nil, List.append_nil, List.append_assoc]

set_option maxHeartbeats 4000000 in
set_option maxRecDepth 65536 in
/-- From any contents W, the result buffer after the last 84 operations is that function of what W holds at the two
    flattened arrays: the fold's term and the stages' are the same operations applied in the same order. -/
theorem tail_eq (W : Valuation τ sig (Elt F)) :
    StableHlo.after tailOps W (Proc.devRef .tc main_v115) = refTail (W (Proc.devRef .tc main_v76)) (W (Proc.devRef .tc main_v75)) := by
  simp only [tailOps, ops4, ops5, ops6, ops7, ops8, ops9, List.flatten_cons, List.flatten_nil, List.append_nil, List.cons_append, List.nil_append]
  open Idealize.ShloMosaic.StableHlo in after_results_simp
  chain_rfl

end Cert.ReferenceIdeal.Hand

end
-- ==== Proof.LibHostRead.lean ====
/-
  Host operations of a row-wise computation read at an index written by coordinates: casts between a column [a, 1],
  a vector [a] and an [a, 1, 1] array; an [a, 10] array cast to [a, 2, 5]; a rank-3 slice along its last axis; a
  vector broadcast to a column and a column broadcast along its rows; the host's sum over the two trailing axes of
  an [a, 2, 2] array, its sum of a vector and of a column over everything; a reduction over a trailing unit axis;
  and a gather of one entry per row of an [a, b] array at a per-row column index.
-/
import proofs.«142171_j11467562680721_2_alg».proof.Proof.LibRowLayout
import proofs.«142171_j11467562680721_2_alg».proof.Proof.LibColumnSum
import Idealize.ShloMosaic.Lib.IdealHost
import Idealize.ShloMosaic.Lib.ValueLayout
import Idealize.ShloMosaic.PureOps.Reduce

noncomputable section

open scoped BigOperators

namespace Cert.HostRead

open Idealize.ShloMosaic Idealize.ShloMosaic.ValueIdx

variable {α : Type}

/-! ## Casts -/

/-- A column [a, 1] cast to a vector [a] reads, at p, the column's entry (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A column [a, 1] cast to [a, 1, 1] reads, at (p, u, v), the column's entry (p, 0). -/
theorem shapeCast_a1_a11_apply {a : ℕ} (x : (⟨2, ![a, 1]⟩ : Shape).Idx → α)
    (h : (⟨2, ![a, 1]⟩ : Shape).ShapeCasts ⟨3, ![a, 1, 1]⟩) (p : Fin a) (u v : Fin 1) :
    shapeCast ⟨3, ![a, 1, 1]⟩ x h (ix3 p u v) = x (ix2 p (0 : Fin 1)) :=
  shapeCast_apply x h _ _ (by
    have hu : u.val = 0 := by omega
    have hv : v.val = 0 := by omega
    rw [Shape.rowMajor_val_two, Shape.rowMajor_val_three]
    show p.val * 1 + 0 = (p.val * 1 + u.val) * 1 + v.val
    omega)

/-- An [a, 10] array cast to [a, 2, 5] reads, at (p, b, c), the entry (p, 5 b + c). -/
theorem shapeCast_a10_a25_apply {a : ℕ} (x : (⟨2, ![a, 10]⟩ : Shape).Idx → α)
    (h : (⟨2, ![a, 10]⟩ : Shape).ShapeCasts ⟨3, ![a, 2, 5]⟩) (p : Fin a) (b : Fin 2) (c : Fin 5) (k : Fin 10)
    (hk : k.val = 5 * b.val + c.val) : shapeCast ⟨3, ![a, 2, 5]⟩ x h (ix3 p b c) = x (ix2 p k) :=
  shapeCast_apply x h _ _ (by
    rw [Shape.rowMajor_val_two, Shape.rowMajor_val_three]
    show p.val * 10 + k.val = (p.val * 2 + b.val) * 5 + c.val
    omega)

/-! ## A slice along the last axis of a rank-3 array -/

/-- A rank-3 array cut along axis 2 from o reads, at (a, b, j), the source at (a, b, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-! ## Broadcasts in dimensions -/

/-- A vector [a] broadcast to a column [a, 1] along axis 0 reads, at (p, u), the vector's entry p. -/
theorem bcast_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ _ (fun ax => by
    match ax with
    | ⟨0, _⟩ =>
      show p.val = if a = 1 then 0 else p.val
      split
      · have := p.isLt; omega
      · rfl)

/-- A column [a, 1] broadcast to [a, b] along axes 0, 1 reads, at (p, j), the column's entry (p, 0). -/
theorem bcast_a1_ab_apply {a b : ℕ} (x : (⟨2, ![a, 1]⟩ : Shape).Idx → α)
    (h : (⟨2, ![a, 1]⟩ : Shape).BroadcastsInDim ⟨2, ![a, b]⟩ ![0, 1]) (p : Fin a) (j : Fin b) :
    broadcastInDim ⟨2, ![a, b]⟩ ![0, 1] h x (ix2 p j) = x (ix2 p (0 : Fin 1)) :=
  broadcastInDim_apply _ h x _ _ (fun ax => by
    match ax with
    | ⟨0, _⟩ =>
      show p.val = if a = 1 then 0 else p.val
      split
      · have := p.isLt; omega
      · rfl
    | ⟨1, _⟩ => rfl)

/-! ## Sums -/

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping the two trailing axes of (a, b, c) leaves a. -/
theorem drop12 {n : ℕ} (h' : (⟨3, ![n, 2, 2]⟩ : Shape).ReducesTo [1, 2] ⟨1, ![n]⟩) (a : Fin n) (b c : Fin 2) :
    h'.drop (ix3 a b c) = ix1 a := by
  funext d; apply Fin.ext
  fin_cases d; rfl

/-- The host's sum of an [n, 2, 2] array over its two trailing axes, read at row r: the initial value plus the four
    entries of the row, the first trailing axis outermost. -/
theorem hostReduceAdd_12 {n : ℕ} (x : (⟨3, ![n, 2, 2]⟩ : Shape).Idx → EReal) (init : EReal)
    (h' : (⟨3, ![n, 2, 2]⟩ : Shape).ReducesTo [1, 2] ⟨1, ![n]⟩) (r : Fin n) :
    Ideal.hostReduceAdd h' x init (ix1 r)
      = init + ((x (ix3 r 0 0) + x (ix3 r 0 1)) + (x (ix3 r 1 0) + x (ix3 r 1 1))) := by
  unfold Ideal.hostReduceAdd
  refine congrArg (init + ·) ?_
  rw [Finset.sum_filter, sum_idx3]
  have key : ∀ a : Fin n, (∑ b : Fin 2, ∑ c : Fin 2, if h'.drop (ix3 a b c) = ix1 r then x (ix3 a b c) else 0)
      = if a = r then ∑ b : Fin 2, ∑ c : Fin 2, x (ix3 a b c) else 0 := by
    intro a
    by_cases har : a = r
    · subst har
      rw [if_pos rfl]
      exact Finset.sum_congr rfl fun b _ => Finset.sum_congr rfl fun c _ => if_pos (drop12 h' a b c)
    · rw [if_neg har]
      have hne : ∀ b c : Fin 2, ¬ h'.drop (ix3 a b c) = ix1 r := fun b c e =>
        har (by rw [drop12 h' a b c] at e; exact congrFun e 0)
      simp only [hne, if_false, Finset.sum_const_zero]
  rw [Finset.sum_congr rfl fun a _ => key a, Finset.sum_ite_eq' Finset.univ r, if_pos (Finset.mem_univ r)]
  simp only [Fin.sum_univ_two]

/-- The host's sum of a vector over its one axis, at the one index of the result: the initial value plus the sum of
    the entries. -/
theorem hostReduceAdd_vector {n : ℕ} (x : (⟨1, ![n]⟩ : Shape).Idx → EReal) (init : EReal)
    (h' : (⟨1, ![n]⟩ : Shape).ReducesTo [0] ⟨0, ![]⟩) (j : (⟨0, ![]⟩ : Shape).Idx) :
    Ideal.hostReduceAdd h' x init j = init + ∑ r : Fin n, x (ix1 r) := by
  rw [Ideal.hostReduceAdd_total h' (fun b => b.elim0), Cert.RowSum.sum_idx1]

/-- The host's sum of a column over both of its axes: the initial value plus the sum of the entries (r, 0). -/
theorem hostReduceAdd_column {n : ℕ} (x : (⟨2, ![n, 1]⟩ : Shape).Idx → EReal) (init : EReal)
    (h' : (⟨2, ![n, 1]⟩ : Shape).ReducesTo [0, 1] ⟨0, ![]⟩) (j : (⟨0, ![]⟩ : Shape).Idx) :
    Ideal.hostReduceAdd h' x init j = init + ∑ r : Fin n, x (ix2 r (0 : Fin 1)) := by
  rw [Ideal.hostReduceAdd_total h' (fun b => b.elim0), Cert.RowSum.sum_column]

/-! ## A reduction over a trailing unit axis -/

/-- A fold over the one-element range is the body applied to the one value and the start. -/
theorem fold_fin_one (f : α → α → α) [Std.Commutative f] [Std.Associative f] (b : α) (g : Fin 1 → α) :
    (Finset.univ : Finset (Fin 1)).fold f b g = f (g 0) b := by
  rw [Finset.univ_unique, Finset.fold_singleton]
  rfl

/-- The reduced index (p, u) with the coordinate k put back on axis 2 is (p, u, k). -/
theorem lift_unit2 {a : ℕ} (h : (⟨3, ![a, 1, 1]⟩ : Shape).Reduces [2] (⟨2, ![a, 1]⟩ : Shape)) (p : Fin a) (u : Fin 1)
    (k : Fin ((⟨3, ![a, 1, 1]⟩ : Shape).size 2)) : h.lift (ix2 p u) k = ix3 p u (⟨k.val, k.isLt⟩ : Fin 1) := by
  funext c; apply Fin.ext
  fin_cases c <;> rfl

/-- A host reduce of an [a, 1, 1] array over its last axis with a commutative, associative body, read at (p, u): the
    body applied to the one entry and the initial value. -/
theorem hostReduce_unit2 {a : ℕ} (f : α → α → α) [Std.Commutative f] [Std.Associative f]
    (x : (⟨3, ![a, 1, 1]⟩ : Shape).Idx → α) (init : (⟨0, ![]⟩ : Shape).Idx → α)
    (h' : (⟨3, ![a, 1, 1]⟩ : Shape).ReducesTo [2] (⟨2, ![a, 1]⟩ : Shape))
    (h : (⟨3, ![a, 1, 1]⟩ : Shape).Reduces [2] (⟨2, ![a, 1]⟩ : Shape)) (hu : 0 < (⟨0, ![]⟩ : Shape).numel)
    (p : Fin a) (u : Fin 1) :
    Host.reduce f x init h' hu (ix2 p u) = f (x (ix3 p u (0 : Fin 1))) (init (Shape.Idx.first hu)) := by
  rw [Host.reduce_eq_fold_single f x init h' h hu]
  refine (fold_fin_one f (init (Shape.Idx.first hu)) (x ∘ h.lift (ix2 p u))).trans ?_
  exact congrArg (fun i => f (x i) (init (Shape.Idx.first hu))) (lift_unit2 h p u ⟨0, Nat.zero_lt_one⟩)

/-! ## A gather of one entry per row -/

section Gather

/-- The dimension numbers of "entry I[p] of row p": the operand [a, b] and the start indices [a, 1, 1] batched along
    axis 0, the operand's axis 1 collapsed and indexed, one-element slices. -/
abbrev rowTakeDims (a b : ℕ)
    (wf : GatherDims.WF ⟨2, ![a, b]⟩ ⟨3, ![a, 1, 1]⟩ ⟨2, ![a, 1]⟩ [] [1] [0] [1] [0] 2 ![1, 1]) :
    GatherDims ⟨2, ![a, b]⟩ ⟨3, ![a, 1, 1]⟩ ⟨2, ![a, 1]⟩ where
  offsetDims := []
  collapsedSliceDims := [1]
  operandBatchingDims := [0]
  startIndicesBatchingDims := [0]
  startIndexMap := [1]
  indexVectorDim := 2
  sliceSizes := ![1, 1]
  wf := wf

/-- On the batched axis the operand index of result index (p, u) is p. -/
theorem rowTake_coord0 {a b w : ℕ}
    (wf : GatherDims.WF ⟨2, ![a, b]⟩ ⟨3, ![a, 1, 1]⟩ ⟨2, ![a, 1]⟩ [] [1] [0] [1] [0] 2 ![1, 1])
    (idx : IVec ⟨3, ![a, 1, 1]⟩ w) (p : Fin a) (u : Fin 1) :
    (rowTakeDims a b wf).start (ix2 p u) idx (0 : Fin 2) + (rowTakeDims a b wf).batchCoord (ix2 p u) (0 : Fin 2)
      + (rowTakeDims a b wf).offCoord (ix2 p u) (0 : Fin 2) = p.val := by
  rw [GatherDims.start_batching _ _ _ _ (List.mem_singleton.mpr rfl),
    GatherDims.offCoord_eq_zero _ _ _ (fun h => ((GatherDims.mem_sKept _ _).mp h).2 (List.mem_singleton.mpr rfl))]
  simp only [Nat.zero_add, Nat.add_zero]
  rfl

/-- On the indexed axis it is the start index I[p, u, 0], read signed and clamped. -/
theorem rowTake_coord1 {a b w : ℕ}
    (wf : GatherDims.WF ⟨2, ![a, b]⟩ ⟨3, ![a, 1, 1]⟩ ⟨2, ![a, 1]⟩ [] [1] [0] [1] [0] 2 ![1, 1])
    (idx : IVec ⟨3, ![a, 1, 1]⟩ w) (p : Fin a) (u : Fin 1) :
    (rowTakeDims a b wf).start (ix2 p u) idx (1 : Fin 2) + (rowTakeDims a b wf).batchCoord (ix2 p u) (1 : Fin 2)
      + (rowTakeDims a b wf).offCoord (ix2 p u) (1 : Fin 2) = min (idx (ix3 p u (0 : Fin 1))).toInt.toNat (b - 1) := by
  rw [GatherDims.batchCoord_eq_zero _ _ _ (fun h => Nat.one_ne_zero (Fin.ext_iff.mp (List.mem_singleton.mp h))),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (rowTakeDims a b wf).startIndexMap from List.mem_singleton.mpr rfl)]
  have hsi : (rowTakeDims a b wf).siIdx (ix2 p u) ⟨List.idxOf (1 : Fin 2) (rowTakeDims a b wf).startIndexMap,
      List.idxOf_lt_length_iff.2 (List.mem_singleton.mpr rfl)⟩ = ix3 p u (0 : Fin 1) := by
    funext c; refine Fin.ext ?_
    match c with
    | ⟨0, _⟩ => rfl
    | ⟨1, _⟩ => rfl
    | ⟨2, _⟩ => rfl
  rw [hsi]
  rfl

/-- THE GATHER READ AT (p, u): row p of the operand at the start index I[p, u, 0], read signed and clamped into
    0 … b − 1. -/
theorem gather_rowTake_apply {a b w : ℕ} (hb : 0 < b)
    (wf : GatherDims.WF ⟨2, ![a, b]⟩ ⟨3, ![a, 1, 1]⟩ ⟨2, ![a, 1]⟩ [] [1] [0] [1] [0] 2 ![1, 1])
    (x : (⟨2, ![a, b]⟩ : Shape).Idx → α) (idx : IVec ⟨3, ![a, 1, 1]⟩ w) (p : Fin a) (u : Fin 1) :
    Host.gather (rowTakeDims a b wf) x idx (ix2 p u)
      = x (ix2 p ⟨min (idx (ix3 p u (0 : Fin 1))).toInt.toNat (b - 1), by omega⟩) := by
  unfold Host.gather
  congr 1
  funext ax
  refine Fin.ext ?_
  match ax with
  | ⟨0, _⟩ => exact rowTake_coord0 wf idx p u
  | ⟨1, _⟩ => exact rowTake_coord1 wf idx p u

end Gather

end Cert.HostRead

end
-- ==== Proof.RefValue.lean ====
/-
  The reference program's result read as a scalar formula of per-row quantities, on the extended reals. With P the
  flattened prediction and T the flattened encoded target (both [802816, 30]), and for every row r the class index
  trunc(T[r, 10]) known to be the number κ r < 20: the result is minus the mean of the rows' log-softmax entries
  logSoft(P[r, 10..29])(κ r), plus five times the masked squared box error over four times the object count, every
  host sum taken from the zero word.
-/
import proofs.«142171_j11467562680721_2_alg».proof.Proof.RefTail
import proofs.«142171_j11467562680721_2_alg».proof.Proof.LibHostRead
import proofs.«142171_j11467562680721_2_alg».proof.Proof.LossSpec

set_option maxRecDepth 16384
set_option Elab.async false

noncomputable section

open scoped BigOperators

namespace Cert.ReferenceIdeal.Hand

open Cert.ReferenceIdeal Cert.ReferenceIdeal.Gen Cert.Loss Cert.HostRead
open Idealize.ShloMosaic Idealize.ShloMosaic.ValueIdx Idealize.ShloMosaic.TcCoe Idealize.SL.Sem

/-! ## The scalar formula -/

/-- The squared error of the two boxes' centre offsets (entries 0, 1 and 5, 6), summed from the zero word. -/
def xyErr (x y : Fin 30 → EReal) : EReal :=
  Ideal.ofBits .f32 0x00000000#32 + ((sq (x 0) (y 0) + sq (x 1) (y 1)) + (sq (x 5) (y 5) + sq (x 6) (y 6)))
/-- The squared error of the two boxes' sizes (entries 2, 3 and 7, 8), summed from the zero word. -/
def whErr (x y : Fin 30 → EReal) : EReal :=
  Ideal.ofBits .f32 0x00000000#32 + ((sq (x 2) (y 2) + sq (x 3) (y 3)) + (sq (x 7) (y 7) + sq (x 8) (y 8)))

/-- The result from the rows' taken log-softmax entries x, object masks mk and squared errors a, b: minus the mean of
    x over the 802816 rows, plus five times (the masked sum of a plus the masked sum of b) over (the object count
    times four). -/
def refLoss (x mk a b : Fin 802816 → EReal) : EReal :=
  -(Ideal.div (Ideal.ofBits .f32 0x00000000#32 + ∑ r, x r) (Ideal.ofBits .f32 0x49440000#32))
    + Ideal.ofBits .f32 0x40A00000#32
      * Ideal.div ((Ideal.ofBits .f32 0x00000000#32 + ∑ r, mk r * a r) + (Ideal.ofBits .f32 0x00000000#32 + ∑ r, mk r * b r))
          ((Ideal.ofBits .f32 0x00000000#32 + ∑ r, mk r) * Ideal.ofBits .f32 0x40800000#32)

/-! ## Words -/

/-- A class index below 20, as a 32-bit word: it is not negative, so it is not moved. -/
theorem idx_kept (k : Fin 20) :
    Scalar.select (IntOp.cmpi .slt (BitVec.ofNat 32 k.val) 0#32) (IntOp.addi (BitVec.ofNat 32 k.val) 20#32) (BitVec.ofNat 32 k.val)
      = BitVec.ofNat 32 k.val := by
  fin_cases k <;> decide

/-- It is within 0 … 19. -/
theorem idx_in_range (k : Fin 20) :
    IntOp.andi (IntOp.andi (IntOp.cmpi .sge (BitVec.ofNat 32 k.val) 0#32) (IntOp.cmpi .sle (BitVec.ofNat 32 k.val) 19#32)) 1#1 = 1#1 := by
  fin_cases k <;> decide

/-- Read signed and clamped into 0 … 19 it is itself. -/
theorem idx_clamped (k : Fin 20) : min (BitVec.ofNat 32 k.val).toInt.toNat (20 - 1) = k.val := by
  fin_cases k <;> decide

/-- A one-bit word converted unsigned is its 32-bit extension converted signed. -/
theorem uitofp_bit (b : BitVec 1) :
    FloatOps.uitofp (F := Ideal) .f32 b = FloatOps.sitofp (F := Ideal) .f32 (BitVec.setWidth 32 b) := by
  show (((b.toNat : ℝ)) : EReal) = ((((b.setWidth 32).toInt : ℝ)) : EReal)
  have hn : (b.setWidth 32).toInt = (b.toNat : ℤ) := by
    rcases BitVec.eq_zero_or_eq_one b with h | h <;> subst h <;> decide
  rw [hn, Int.cast_natCast]

/-- The word of minus infinity denotes the bottom of the extended reals. -/
theorem ofBits_neg_inf : Ideal.ofBits .f32 0xFF800000#32 = (⊥ : EReal) := by
  simp [Ideal.ofBits, Ideal.ieee]

/-! ## The stages, read at a row -/

/-- Column 10 of the target at row r. -/
theorem slot_apply (T : FVec Ideal S802816x30 .f32) (r : Fin 802816) : slot T (ix1 r) = T (ix2 r (10 : Fin 30)) := by
  unfold slot
  exact (shapeCast_a1_a_apply _ _ r).trans (slice2_axis1_apply 10 T _ r (0 : Fin 1) (10 : Fin 30) rfl)

/-- The class index of row r. -/
theorem classIdx_apply (T : FVec Ideal S802816x30 .f32) (r : Fin 802816) (u : Fin 1) :
    classIdx T (ix2 r u) = FloatOps.fptosi (F := Ideal) (φ := .f32) 32 (T (ix2 r (10 : Fin 30))) := by
  unfold classIdx
  refine (bcast_a_a1_apply _ _ r u).trans ?_
  show FloatOps.fptosi (F := Ideal) (φ := .f32) 32 (slot T (ix1 r)) = _
  rw [slot_apply]

/-- The object mask of row r. -/
theorem maskVec_apply (T : FVec Ideal S802816x30 .f32) (r : Fin 802816) :
    maskVec T (ix1 r) = maskOf (T (ix2 r (10 : Fin 30))) := by
  unfold maskVec maskOf
  show FloatOps.uitofp (F := Ideal) .f32 (FloatOps.cmpf (F := Ideal) .ogt (slot T (ix1 r)) (FloatOps.ofBits .f32 0x00000000#32)) = _
  rw [slot_apply, uitofp_bit]

/-- Entry c of box b of row r is entry 5 b + c of the row. -/
theorem boxes_apply (X : FVec Ideal S802816x30 .f32) (r : Fin 802816) (b : Fin 2) (c : Fin 5) (k : Fin 30)
    (hk : k.val = 5 * b.val + c.val) : boxes X (ix3 r b c) = X (ix2 r k) := by
  unfold boxes
  refine (shapeCast_a10_a25_apply _ _ r b c ⟨5 * b.val + c.val, by omega⟩ rfl).trans ?_
  exact slice2_axis1_apply 0 X _ r _ k (by show k.val = 0 + (5 * b.val + c.val); omega)

/-- The squared difference of the two arrays' box entries o + c of box b, at row r. -/
theorem sqdiff_apply (o : ℕ) (ho : o + 2 ≤ 5) (P T : FVec Ideal S802816x30 .f32)
    (hs : S802816x2x5.Slices ![0, 0, o] S802816x2x2) (r : Fin 802816) (b c : Fin 2) (k : Fin 30)
    (hk : k.val = 5 * b.val + (o + c.val)) :
    (mulf (subf (extractStridedSlice S802816x2x2 ![0, 0, o] (boxes P) hs) (extractStridedSlice S802816x2x2 ![0, 0, o] (boxes T) hs))
      (subf (extractStridedSlice S802816x2x2 ![0, 0, o] (boxes P) hs) (extractStridedSlice S802816x2x2 ![0, 0, o] (boxes T) hs))
        : FVec Ideal S802816x2x2 .f32) (ix3 r b c) = sq (P (ix2 r k)) (T (ix2 r k)) := by
  have hc : o + c.val < 5 := by have := c.isLt; omega
  have eP : extractStridedSlice S802816x2x2 ![0, 0, o] (boxes P) hs (ix3 r b c) = P (ix2 r k) :=
    (slice3_axis2_apply o (boxes P) hs r b c ⟨o + c.val, hc⟩ rfl).trans (boxes_apply P r b _ k hk)
  have eT : extractStridedSlice S802816x2x2 ![0, 0, o] (boxes T) hs (ix3 r b c) = T (ix2 r k) :=
    (slice3_axis2_apply o (boxes T) hs r b c ⟨o + c.val, hc⟩ rfl).trans (boxes_apply T r b _ k hk)
  show (extractStridedSlice S802816x2x2 ![0, 0, o] (boxes P) hs (ix3 r b c) - extractStridedSlice S802816x2x2 ![0, 0, o] (boxes T) hs (ix3 r b c))
      * (extractStridedSlice S802816x2x2 ![0, 0, o] (boxes P) hs (ix3 r b c) - extractStridedSlice S802816x2x2 ![0, 0, o] (boxes T) hs (ix3 r b c)) = _
  rw [eP, eT]
  rfl

/-- The centre-offset error of row r. -/
theorem errXY_apply (P T : FVec Ideal S802816x30 .f32) (r : Fin 802816) :
    errXY P T (ix1 r) = xyErr (grow P r) (grow T r) := by
  unfold errXY xyErr
  refine (hostReduceAdd_12 _ _ _ r).trans ?_
  refine congrArg (Ideal.ofBits .f32 0x00000000#32 + ·) ?_
  refine congrArg₂ (· + ·) (congrArg₂ (· + ·) ?_ ?_) (congrArg₂ (· + ·) ?_ ?_)
  · exact sqdiff_apply 0 (by omega) P T _ r 0 0 0 rfl
  · exact sqdiff_apply 0 (by omega) P T _ r 0 1 1 rfl
  · exact sqdiff_apply 0 (by omega) P T _ r 1 0 5 rfl
  · exact sqdiff_apply 0 (by omega) P T _ r 1 1 6 rfl

/-- The size error of row r. -/
theorem errWH_apply (P T : FVec Ideal S802816x30 .f32) (r : Fin 802816) :
    errWH P T (ix1 r) = whErr (grow P r) (grow T r) := by
  unfold errWH whErr
  refine (hostReduceAdd_12 _ _ _ r).trans ?_
  refine congrArg (Ideal.ofBits .f32 0x00000000#32 + ·) ?_
  refine congrArg₂ (· + ·) (congrArg₂ (· + ·) ?_ ?_) (congrArg₂ (· + ·) ?_ ?_)
  · exact sqdiff_apply 2 (by omega) P T _ r 0 0 2 rfl
  · exact sqdiff_apply 2 (by omega) P T _ r 0 1 3 rfl
  · exact sqdiff_apply 2 (by omega) P T _ r 1 0 7 rfl
  · exact sqdiff_apply 2 (by omega) P T _ r 1 1 8 rfl

/-! ## The log-softmax and the taken entry -/

/-- The host's sum of an [a, b] array over axis 1, at row p: the initial value plus the row's sum. -/
theorem hostReduceAdd_row {a b : ℕ} (x : (⟨2, ![a, b]⟩ : Shape).Idx → EReal) (init : EReal)
    (h' : (⟨2, ![a, b]⟩ : Shape).ReducesTo [1] (⟨1, ![a]⟩ : Shape))
    (h : (⟨2, ![a, b]⟩ : Shape).Reduces [1] (⟨1, ![a]⟩ : Shape)) (p : Fin a) :
    Ideal.hostReduceAdd h' x init (ix1 p) = init + ∑ j : Fin b, x (ix2 p j) := by
  rw [Ideal.hostReduceAdd_single h' h]
  exact congrArg (init + ·) (Finset.sum_congr rfl fun k _ => congrArg x (Cert.RowLayout.lift_row h p k))

/-- The host's exponential, logarithm and negation at an index. -/
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl
theorem hostNegf_apply {s : Shape} {φ : FTy} (x : FVec Ideal s φ) (i : s.Idx) : Host.negf x i = -(x i) := rfl

/-- The log-softmax stage at (r, c): the log-softmax of row r's 20 scores at class c. The second maximum, against
    minus infinity, changes nothing. Each operation is read at the index by its own rule. -/
theorem logSoftmax20_apply (s : FVec Ideal S802816x20 .f32) (r : Fin 802816) (c : Fin 20) :
    logSoftmax20 s (ix2 r c) = logSoft (fun k => s (ix2 r k)) c := by
  have hR : S802816x20.Reduces [1] S802816 := by decide
  unfold logSoftmax20
  set m0 : FVec Ideal S802816 .f32 := Host.reduce FloatOps.maximumf s (constant S_ .f32 0xFF800000#32) reducesTo_S802816x20_S802816_d1 h_S_
  set m2 : FVec Ideal S802816 .f32 := maximumf (broadcastInDim S802816 ![] bcast_S_S802816 (constant S_ .f32 0xFF800000#32)) m0
  set m4 : FVec Ideal S802816x20 .f32 := broadcastInDim S802816x20 ![0, 1] bcast_S802816x1_S802816x20_0_1 (broadcastInDim S802816x1 ![0] bcast_S802816_S802816x1_0 m2)
  set v5 : FVec Ideal S802816x20 .f32 := subf s m4
  set v7 : FVec Ideal S802816 .f32 := Host.reduceAdd (Host.exp v5) (constant S_ .f32 0x00000000#32) reducesTo_S802816x20_S802816_d1 h_S_
  set v10 : FVec Ideal S802816x20 .f32 := broadcastInDim S802816x20 ![0, 1] bcast_S802816x1_S802816x20_0_1 (Host.log (broadcastInDim S802816x1 ![0] bcast_S802816_S802816x1_0 v7))
  have hm0 : m0 (ix1 r) = rowMax fun k => s (ix2 r k) := by
    refine (Cert.RowLayout.hostReduce_maximumf_row (a := 802816) (b := 20) s (constant S_ .f32 0xFF800000#32) reducesTo_S802816x20_S802816_d1 hR h_S_ r).trans ?_
    show (Finset.univ : Finset (Fin 20)).fold max (Ideal.ofBits .f32 0xFF800000#32) (fun j => s (ix2 r j)) = _
    rw [ofBits_neg_inf]; rfl
  have hbot : (broadcastInDim S802816 ![] bcast_S_S802816 (constant S_ .f32 0xFF800000#32) : FVec Ideal S802816 .f32) (ix1 r) = (⊥ : EReal) :=
    ofBits_neg_inf
  have hm2 : m2 (ix1 r) = rowMax fun k => s (ix2 r k) := by
    refine (maximumf_apply _ _ _).trans ?_
    rw [hm0, hbot]
    exact max_eq_right bot_le
  have hm4 : ∀ k : Fin 20, m4 (ix2 r k) = rowMax fun k => s (ix2 r k) := fun k =>
    (bcast_a1_ab_apply _ _ r k).trans ((bcast_a_a1_apply _ _ r 0).trans hm2)
  have hv5 : ∀ k : Fin 20, v5 (ix2 r k) = s (ix2 r k) - rowMax fun k => s (ix2 r k) := fun k =>
    (subf_apply _ _ _).trans (by rw [hm4 k])
  have hz : (constant S_ .f32 0x00000000#32 : FVec Ideal S_ .f32) (Shape.Idx.first h_S_) = (0 : EReal) := Ideal.ofBits_zero_f32
  have hv7 : v7 (ix1 r) = ∑ k : Fin 20, Ideal.exp (s (ix2 r k) - rowMax fun k => s (ix2 r k)) := by
    refine (hostReduceAdd_row _ _ _ hR r).trans ?_
    rw [hz, zero_add]
    exact Finset.sum_congr rfl fun k _ => (hostExp_apply v5 _).trans (by rw [hv5 k])
  have hv10 : v10 (ix2 r c) = Ideal.log (∑ k : Fin 20, Ideal.exp (s (ix2 r k) - rowMax fun k => s (ix2 r k))) := by
    refine (bcast_a1_ab_apply _ _ r c).trans ((hostLog_apply _ _).trans ?_)
    rw [bcast_a_a1_apply, hv7]
  refine (subf_apply _ _ _).trans ?_
  rw [hv5 c, hv10]
  rfl

/-- The take-along stage at row r, when the row's index is the word of a class k < 20: the index is not moved, it is in
    range, the gather reads column k, and the select takes the gathered entry. -/
theorem takeAlong_apply (L : FVec Ideal S802816x20 .f32) (I : IVec S802816x1 32) (r : Fin 802816) (k : Fin 20)
    (hI : I (ix2 r (0 : Fin 1)) = BitVec.ofNat 32 k.val) : takeAlong L I (ix2 r (0 : Fin 1)) = L (ix2 r k) := by
  have hR : S802816x1x1.Reduces [2] S802816x1 := by decide
  unfold takeAlong
  set v1 : IVec S802816x1 1 := cmpi .slt I (broadcastInDim S802816x1 ![] bcast_S_S802816x1 (constantI S_ 32 0#32))
  set v3 : IVec S802816x1 32 := addi I (broadcastInDim S802816x1 ![] bcast_S_S802816x1 (constantI S_ 32 20#32))
  set v4 : IVec S802816x1 32 := select v1 v3 I
  set v5 : IVec S802816x1x1 32 := shapeCast S802816x1x1 v4 shapeCasts_S802816x1_S802816x1x1
  set v7 : IVec S802816x1x1 1 := cmpi .sge v5 (broadcastInDim S802816x1x1 ![] bcast_S_S802816x1x1 (constantI S_ 32 0#32))
  set v9 : IVec S802816x1x1 32 := broadcastInDim S802816x1x1 ![0, 1, 2] bcast_S1x1x1_S802816x1x1_0_1_2 (broadcastInDim S1x1x1 ![2] bcast_S1_S1x1x1_2 (constantI S1 32 19#32))
  set v10 : IVec S802816x1x1 1 := cmpi .sle v5 v9
  set v11 : IVec S802816x1x1 1 := andi v7 v10
  set v12 : IVec S802816x1 1 := Host.reduce IntOp.andi v11 (constantI S_ 1 1#1) reducesTo_S802816x1x1_S802816x1_d2 h_S_
  set v13 : FVec Ideal S802816x1 .f32 := Host.gather gather_S802816x20_S802816x1x1_S802816x1_n_1_0_0_1_2_11 L v5
  set v14 : FVec Ideal S802816x1 .f32 := broadcastInDim S802816x1 ![] bcast_S_S802816x1 (constant S_ .f32 0x7FC00000#32)
  have h4 : v4 (ix2 r (0 : Fin 1)) = BitVec.ofNat 32 k.val := by
    show Scalar.select (IntOp.cmpi .slt (I (ix2 r (0 : Fin 1))) 0#32) (IntOp.addi (I (ix2 r (0 : Fin 1))) 20#32) (I (ix2 r (0 : Fin 1))) = _
    rw [hI]; exact idx_kept k
  have h5 : v5 (ix3 r (0 : Fin 1) (0 : Fin 1)) = BitVec.ofNat 32 k.val :=
    (shapeCast_a1_a11_apply v4 _ r 0 0).trans h4
  have h12 : v12 (ix2 r (0 : Fin 1)) = 1#1 := by
    refine (hostReduce_unit2 IntOp.andi v11 _ _ hR _ r 0).trans ?_
    show IntOp.andi (IntOp.andi (IntOp.cmpi .sge (v5 (ix3 r (0 : Fin 1) (0 : Fin 1))) 0#32)
      (IntOp.cmpi .sle (v5 (ix3 r (0 : Fin 1) (0 : Fin 1))) 19#32)) 1#1 = 1#1
    rw [h5]; exact idx_in_range k
  have h13 : v13 (ix2 r (0 : Fin 1)) = L (ix2 r k) := by
    refine (gather_rowTake_apply (a := 802816) (b := 20) (by omega) gather_S802816x20_S802816x1x1_S802816x1_n_1_0_0_1_2_11_wf L v5 r 0).trans ?_
    refine congrArg L (congrArg (ix2 r) (Fin.ext ?_))
    show min (v5 (ix3 r (0 : Fin 1) (0 : Fin 1))).toInt.toNat (20 - 1) = k.val
    rw [h5]; exact idx_clamped k
  show Scalar.select (v12 (ix2 r (0 : Fin 1))) (v13 (ix2 r (0 : Fin 1))) (v14 (ix2 r (0 : Fin 1))) = _
  rw [h12, h13, select_one]

/-- The taken entry of row r, when the target's class index at r is κ < 20: the log-softmax of the row's 20 class
    scores at κ. -/
theorem taken_apply (P T : FVec Ideal S802816x30 .f32) (r : Fin 802816) (k : Fin 20)
    (hk : FloatOps.fptosi (F := Ideal) (φ := .f32) 32 (T (ix2 r (10 : Fin 30))) = BitVec.ofNat 32 k.val) :
    taken P T (ix2 r (0 : Fin 1)) = logSoft (gscores P r) k := by
  unfold taken
  refine (takeAlong_apply _ _ r k ((classIdx_apply T r 0).trans hk)).trans ?_
  refine (logSoftmax20_apply _ r k).trans ?_
  exact congrArg (fun s => logSoft s k) (funext fun c => slice2_axis1_apply 10 P _ r c ⟨10 + c.val, by omega⟩ rfl)

/-! ## The result -/

/-- The sum of the taken entries. -/
theorem sum_taken (P T : FVec Ideal S802816x30 .f32) (κ : Fin 802816 → Fin 20)
    (hκ : ∀ r, FloatOps.fptosi (F := Ideal) (φ := .f32) 32 (T (ix2 r (10 : Fin 30))) = BitVec.ofNat 32 (κ r).val) :
    Ideal.hostReduceAdd reducesTo_S802816x1_S_d0_1 (taken P T) (Ideal.ofBits .f32 0x00000000#32) ix0
      = Ideal.ofBits .f32 0x00000000#32 + ∑ r, logSoft (gscores P r) (κ r) :=
  (hostReduceAdd_column _ _ _ _).trans
    (congrArg (Ideal.ofBits .f32 0x00000000#32 + ·) (Finset.sum_congr rfl fun r _ => taken_apply P T r (κ r) (hκ r)))

/-- The object count. -/
theorem sum_mask (T : FVec Ideal S802816x30 .f32) :
    Ideal.hostReduceAdd reducesTo_S802816_S_d0 (maskVec T) (Ideal.ofBits .f32 0x00000000#32) ix0
      = Ideal.ofBits .f32 0x00000000#32 + ∑ r, maskOf (T (ix2 r (10 : Fin 30))) :=
  (hostReduceAdd_vector _ _ _ _).trans
    (congrArg (Ideal.ofBits .f32 0x00000000#32 + ·) (Finset.sum_congr rfl fun r _ => maskVec_apply T r))

/-- The masked sum of the centre-offset errors. -/
theorem sum_xy (P T : FVec Ideal S802816x30 .f32) :
    Ideal.hostReduceAdd reducesTo_S802816_S_d0 (mulf (maskVec T) (errXY P T)) (Ideal.ofBits .f32 0x00000000#32) ix0
      = Ideal.ofBits .f32 0x00000000#32 + ∑ r, maskOf (T (ix2 r (10 : Fin 30))) * xyErr (grow P r) (grow T r) :=
  (hostReduceAdd_vector _ _ _ _).trans
    (congrArg (Ideal.ofBits .f32 0x00000000#32 + ·) (Finset.sum_congr rfl fun r _ =>
      (mulf_apply _ _ _).trans (congrArg₂ (· * ·) (maskVec_apply T r) (errXY_apply P T r))))

/-- The masked sum of the size errors. -/
theorem sum_wh (P T : FVec Ideal S802816x30 .f32) :
    Ideal.hostReduceAdd reducesTo_S802816_S_d0 (mulf (maskVec T) (errWH P T)) (Ideal.ofBits .f32 0x00000000#32) ix0
      = Ideal.ofBits .f32 0x00000000#32 + ∑ r, maskOf (T (ix2 r (10 : Fin 30))) * whErr (grow P r) (grow T r) :=
  (hostReduceAdd_vector _ _ _ _).trans
    (congrArg (Ideal.ofBits .f32 0x00000000#32 + ·) (Finset.sum_congr rfl fun r _ =>
      (mulf_apply _ _ _).trans (congrArg₂ (· * ·) (maskVec_apply T r) (errWH_apply P T r))))

/-- The stages' result at its one index is the scalar formula of the rows' quantities: each operation of the closing
    arithmetic read by its own rule at the index. -/
theorem refTail_read (P T : FVec Ideal S802816x30 .f32) (κ : Fin 802816 → Fin 20)
    (hκ : ∀ r, FloatOps.fptosi (F := Ideal) (φ := .f32) 32 (T (ix2 r (10 : Fin 30))) = BitVec.ofNat 32 (κ r).val) :
    refTail P T ix0
      = refLoss (fun r => logSoft (gscores P r) (κ r)) (fun r => maskOf (T (ix2 r (10 : Fin 30))))
          (fun r => xyErr (grow P r) (grow T r)) (fun r => whErr (grow P r) (grow T r)) := by
  unfold refTail refLoss
  refine (addf_apply _ _ _).trans (congrArg₂ (· + ·) ?_ ?_)
  · refine (hostNegf_apply _ _).trans (congrArg Neg.neg ?_)
    refine (hostDivf_apply _ _ _).trans (congrArg₂ Ideal.div ?_ (constant_apply _ _))
    exact (hostReduceAdd_apply _ _ _ _ _).trans (sum_taken P T κ hκ)
  · refine (mulf_apply _ _ _).trans (congrArg₂ (· * ·) (constant_apply _ _) ?_)
    refine (hostDivf_apply _ _ _).trans (congrArg₂ Ideal.div ?_ ?_)
    · refine (addf_apply _ _ _).trans (congrArg₂ (· + ·) ?_ ?_)
      · exact (hostReduceAdd_apply _ _ _ _ _).trans (sum_xy P T)
      · exact (hostReduceAdd_apply _ _ _ _ _).trans (sum_wh P T)
    · refine (mulf_apply _ _ _).trans (congrArg₂ (· * ·) ?_ (constant_apply _ _))
      exact (hostReduceAdd_apply _ _ _ _ _).trans (sum_mask T)

/-! ## From the program's run -/

/-- Closes "no operation of these stretches writes the reference". -/
local macro "result_is_another'" : tactic => `(tactic| (
  simp only [ops4, ops5, ops6, ops7, ops8, ops9, List.Forall, StableHlo.nullary_writes, StableHlo.unary_writes,
    StableHlo.binary_writes, StableHlo.ternary_writes, StableHlo.reshape_writes, StableHlo.nary_writes, Finset.mem_singleton]
  repeat' apply And.intro
  all_goals exact StableHlo.devRef_ne_of_ne (by decide)))

/-- The loss part writes neither of the two flattened arrays. -/
theorem tail_keeps_v76 (W : Valuation τ sig (Elt Ideal)) :
    StableHlo.after (tailOps (F := Ideal)) W (Proc.devRef .tc main_v76) = W (Proc.devRef .tc main_v76) :=
  StableHlo.after_of_forall_not_mem _ _ (List.forall_iff_forall_mem.mp (forall_flatten
    (show ([ops4, ops5, ops6, ops7, ops8, ops9] : List (List (HloOp τ sig (Elt Ideal)))).Forall
        fun l => l.Forall fun op => Proc.devRef (τ := τ) .tc main_v76 ∉ op.writes from
      ⟨by result_is_another', by result_is_another', by result_is_another', by result_is_another', by result_is_another',
       by result_is_another'⟩)))

theorem tail_keeps_v75 (W : Valuation τ sig (Elt Ideal)) :
    StableHlo.after (tailOps (F := Ideal)) W (Proc.devRef .tc main_v75) = W (Proc.devRef .tc main_v75) :=
  StableHlo.after_of_forall_not_mem _ _ (List.forall_iff_forall_mem.mp (forall_flatten
    (show ([ops4, ops5, ops6, ops7, ops8, ops9] : List (List (HloOp τ sig (Elt Ideal)))).Forall
        fun l => l.Forall fun op => Proc.devRef (τ := τ) .tc main_v75 ∉ op.writes from
      ⟨by result_is_another', by result_is_another', by result_is_another', by result_is_another', by result_is_another',
       by result_is_another'⟩)))

/-- The flattened prediction and the flattened encoded target after the program's operations. -/
abbrev flatP (V : Valuation τ sig (Elt Ideal)) : FVec Ideal S802816x30 .f32 := StableHlo.after ops V (Proc.devRef .tc main_v76)
abbrev flatT (V : Valuation τ sig (Elt Ideal)) : FVec Ideal S802816x30 .f32 := StableHlo.after ops V (Proc.devRef .tc main_v75)

/-- THE REFERENCE'S VALUE: from any contents V, when the flattened target's column 10 truncates, at every row r, to the
    class index κ r < 20, the result buffer's one element after the program's operations is the scalar formula of the
    rows' quantities. -/
theorem ref_value (V : Valuation τ sig (Elt Ideal)) (κ : Fin 802816 → Fin 20)
    (hκ : ∀ r, FloatOps.fptosi (F := Ideal) (φ := .f32) 32 (flatT V (ix2 r (10 : Fin 30))) = BitVec.ofNat 32 (κ r).val) :
    (StableHlo.after ops V (Proc.devRef .tc main_v115) : FVec Ideal S_ .f32) ix0
      = refLoss (fun r => logSoft (gscores (flatP V) r) (κ r)) (fun r => maskOf (flatT V (ix2 r (10 : Fin 30))))
          (fun r => xyErr (grow (flatP V) r) (grow (flatT V) r)) (fun r => whErr (grow (flatP V) r) (grow (flatT V) r)) := by
  have hP : flatP V = StableHlo.after headOps V (Proc.devRef .tc main_v76) := by
    show StableHlo.after ops V (Proc.devRef .tc main_v76) = _
    rw [ops_split, StableHlo.after_append, tail_keeps_v76]
  have hT : flatT V = StableHlo.after headOps V (Proc.devRef .tc main_v75) := by
    show StableHlo.after ops V (Proc.devRef .tc main_v75) = _
    rw [ops_split, StableHlo.after_append, tail_keeps_v75]
  have hR : (StableHlo.after ops V (Proc.devRef .tc main_v115) : FVec Ideal S_ .f32)
      = refTail (F := Ideal) (StableHlo.after headOps V (Proc.devRef .tc main_v76)) (StableHlo.after headOps V (Proc.devRef .tc main_v75)) := by
    rw [ops_split, StableHlo.after_append, tail_eq]
  rw [hT] at hκ
  rw [hP, hT]
  generalize StableHlo.after (headOps (F := Ideal)) V = W at hκ hR ⊢
  exact (congrFun hR ix0).trans (refTail_read _ _ κ hκ)

end Cert.ReferenceIdeal.Hand

end
-- ==== Proof.ValueBridge.lean ====
import proofs.«142171_j11467562680721_2_alg».proof.Proof.IdealEncK
import proofs.«142171_j11467562680721_2_alg».proof.Proof.IdealEncShape
import proofs.«142171_j11467562680721_2_alg».proof.Proof.RefKerEq
import proofs.«142171_j11467562680721_2_alg».proof.Proof.LossBridge
import proofs.«142171_j11467562680721_2_alg».proof.Proof.ClassIndex
import proofs.«142171_j11467562680721_2_alg».proof.Proof.Gen.Pre_finite_inputs
import proofs.«142171_j11467562680721_2_alg».proof.Proof.RefValue

/-!
# The two programs compute the same loss

From memories that agree on the two arguments, under the precondition: the reference's flattened prediction and
target are the kernel program's (the prediction reshaped, the labels encoded); the precondition makes every
prediction real and puts every box's seven-fold height strictly between −1 and 20, so the target's class slot
truncates to a class index below 20 at every row; with that the reference's scalar formula and the kernel's total over
the 64 blocks are the two sides of the arithmetic identity between the closed forms.
-/

set_option maxRecDepth 65536

noncomputable section

open scoped BigOperators

namespace Cert.Proof.Bridge

open Idealize.ShloMosaic Idealize.ShloMosaic.ValueIdx Idealize.ShloMosaic.TcCoe Idealize.ShloMosaic.StableHlo
open Idealize.SL.Sem Cert.Loss

open Cert.ReferenceIdeal.Hand (xyErr whErr refLoss flatP flatT ref_value)

/-- The reference's scalar formula over the rows' quantities is the reference side of the arithmetic identity (its
    two box-error parts are the centre part and the size part). -/
theorem refLoss_eq (Pg Tg : (⟨2, ![802816, 30]⟩ : Shape).Idx → EReal) (κ : Fin 802816 → Fin 20) :
    refLoss (fun r => logSoft (gscores Pg r) (κ r)) (fun r => maskOf (Tg (ix2 r (10 : Fin 30))))
        (fun r => xyErr (grow Pg r) (grow Tg r)) (fun r => whErr (grow Pg r) (grow Tg r))
      = -(Ideal.div
            (Ideal.ofBits .f32 0x00000000#32 + ∑ r : Fin 802816, logSoft (gscores Pg r) (κ r))
            (Ideal.ofBits .f32 0x49440000#32))
        + Ideal.ofBits .f32 0x40A00000#32 * Ideal.div
            ((Ideal.ofBits .f32 0x00000000#32
                + ∑ r : Fin 802816, maskOf (Tg (ix2 r (10 : Fin 30))) * xyE (grow Pg r) (grow Tg r))
              + (Ideal.ofBits .f32 0x00000000#32
                + ∑ r : Fin 802816, maskOf (Tg (ix2 r (10 : Fin 30))) * whE (grow Pg r) (grow Tg r)))
            ((Ideal.ofBits .f32 0x00000000#32 + ∑ r : Fin 802816, maskOf (Tg (ix2 r (10 : Fin 30))))
              * Ideal.ofBits .f32 0x40800000#32) := rfl

/-- The kernel's scalar result: the one element of the total. -/
theorem scalar_total (x : FVec Ideal Cert.KernelIdeal.S1x1 .f32) (i : Cert.KernelIdeal.S_.Idx) :
    shapeCast Cert.KernelIdeal.S_ x Cert.KernelIdeal.Facts₀.shapeCasts_S1x1_S_ i = x (ix2 (0 : Fin 1) (0 : Fin 1)) := by
  refine shapeCast_apply x _ i (ix2 (0 : Fin 1) (0 : Fin 1)) ?_
  rw [Shape.rowMajor_val_two]
  have h := (Cert.KernelIdeal.S_.rowMajor i).isLt
  have hn : Cert.KernelIdeal.S_.numel = 1 := by decide
  show (0 : Fin 1).val * 1 + (0 : Fin 1).val = _
  omega

section

/-- **The values agree.** -/
theorem values_agree
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1)
    (h0 : V (Proc.devRef .tc Cert.ReferenceIdeal.main_arg0)
      = m ((c.tc : Thread Cert.KernelIdeal.nD Cert.KernelIdeal.τ).loc Cert.KernelIdeal.main_arg0))
    (h1 : V (Proc.devRef .tc Cert.ReferenceIdeal.main_arg1)
      = m ((c.tc : Thread Cert.KernelIdeal.nD Cert.KernelIdeal.τ).loc Cert.KernelIdeal.main_arg1)) :
    StableHlo.after (Cert.ReferenceIdeal.Hand.ops (F := Ideal)) V (Proc.devRef .tc Cert.ReferenceIdeal.main_v115)
      = shapeCast Cert.KernelIdeal.S_ (Cert.KernelIdeal.Hand.total m c) Cert.KernelIdeal.Facts₀.shapeCasts_S1x1_S_ := by
  -- the precondition, read back
  obtain ⟨hP0, hL, hlo, hhi⟩ := Cert.KernelIdeal.ClassRange.pre_decoded
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) hpre
  -- the reference's flattened arrays are the kernel program's
  have hT : flatT V = Cert.KernelIdeal.Hand.Tarr m c := by
    rw [Cert.KernelIdeal.Hand.Tarr_eq]
    show StableHlo.after (Cert.ReferenceIdeal.Hand.ops (F := Ideal)) V (Proc.devRef .tc Cert.ReferenceIdeal.main_v75) = _
    rw [Cert.ReferenceIdeal.Hand.ref_target, h1]
    rfl
  have hPP : flatP V = Cert.KernelIdeal.Hand.Parr m c := by
    rw [Cert.KernelIdeal.Hand.Parr_eq]
    show StableHlo.after (Cert.ReferenceIdeal.Hand.ops (F := Ideal)) V (Proc.devRef .tc Cert.ReferenceIdeal.main_v76) = _
    rw [Cert.ReferenceIdeal.Hand.ref_pred, h0]
    rfl
  -- the flattened prediction's entries are real: each is an entry of the prediction
  have hPreal : ∀ i, ∃ x : ℝ, Cert.KernelIdeal.Hand.Parr m c i = (x : EReal) := fun i => by
    rw [Cert.KernelIdeal.Hand.Parr_eq]
    exact hP0 _
  -- the class slot truncates to a class index below 20 at every row
  have hidx : ∀ r : Fin 802816, ∃ k : Fin 20, FloatOps.fptosi (F := Ideal) (φ := .f32) 32
      (Cert.KernelIdeal.Hand.Tarr m c (ix2 r (10 : Fin 30))) = BitVec.ofNat 32 k.val := fun r => by
    rw [Cert.KernelIdeal.Hand.Tarr_eq]
    obtain ⟨rowPrev, dxy, i9, i7, idx3, h9, h7, hE⟩ := Cert.KernelIdeal.Hand.encK_shape
      (m ((c.tc : Thread Cert.KernelIdeal.nD Cert.KernelIdeal.τ).loc Cert.KernelIdeal.main_arg1))
    rw [hE]
    exact Cert.KernelIdeal.ClassRange.class_index_in_range _ rowPrev dxy i9 i7 idx3 h9 h7 hlo hhi r
  choose κ hκ using hidx
  -- the reference's value at its one index
  have href := ref_value V κ (fun r => by rw [hT]; exact hκ r)
  rw [hT, hPP, refLoss_eq,
    ← loss_bridge (Cert.KernelIdeal.Hand.Parr m c) (Cert.KernelIdeal.Hand.Tarr m c) κ hPreal hκ,
    ← Cert.KernelIdeal.Hand.total_global m c (0 : Fin 1) (0 : Fin 1)] at href
  funext i
  rw [scalar_total, ← href]
  exact congrArg _ (eq_ix0 (show (⟨0, ![]⟩ : Shape).Idx from i))

end

end Cert.Proof.Bridge

end
-- ==== Proof.lean ====
/-
  The certificate's five claims for the YOLO-style loss kernel against its jnp reference.

  Both programs first encode the labels into a target array by the same host operations (slices, the cell index of
  every box, seven scatters). The kernel then streams the flattened prediction and target through a pallas region
  of 64 grid points that keeps three running sums — minus the selected log-softmax, the object count, the masked
  squared box error — and at the last point combines them into  a0 / N + 5 (a2 / (4 a1)); the reference computes the
  same three sums over all 802816 rows at once. The three frames: the kernel's two programs by the pipeline's frame
  run with the three accumulators tracked through the points, the reference's by running its straight line of host
  operations. The values agree on the extended reals when the inputs are finite and every box's height times 7
  truncates to a class index in 0..19: then the kernel's one-hot selection and the reference's gather pick the same
  log-probability, which is a real number, so that regrouping the sum by blocks and moving the sign and the division
  across it are sound; the object count and the masked error are sums of the same terms regrouped.
-/
import proofs.«142171_j11467562680721_2_alg».proof.Defs
import proofs.«142171_j11467562680721_2_alg».proof.Proof.Gen.Kernel
import proofs.«142171_j11467562680721_2_alg».proof.Proof.Gen.KernelIdeal
import proofs.«142171_j11467562680721_2_alg».proof.Proof.Gen.ReferenceIdeal
import proofs.«142171_j11467562680721_2_alg».proof.Proof.Gen.Pre_finite_inputs
import proofs.«142171_j11467562680721_2_alg».proof.Proof.BitsArgs
import proofs.«142171_j11467562680721_2_alg».proof.Proof.IdealValue
import proofs.«142171_j11467562680721_2_alg».proof.Proof.RefRun
import proofs.«142171_j11467562680721_2_alg».proof.Proof.ValueBridge
import Idealize.ShloMosaic.Adequacy
import Idealize.ShloMosaic.Init

noncomputable section

namespace Cert.Proof

open Idealize.ShloMosaic Idealize.SL.Sem

/-- The word-level kernel program runs to the end without a fault and leaves its arguments unchanged. -/
theorem frame_p : Cert.frame_Kernel := fun m ρ _ => Cert.Kernel.Hand.frame (F := Bits) m ρ
/-- So does its reading on the extended reals. -/
theorem frame_pi : Cert.frame_KernelIdeal := fun m ρ _ => Cert.KernelIdeal.Hand.frame (F := Ideal) m ρ
/-- And the reference. -/
theorem frame_ri : Cert.frame_ReferenceIdeal := fun m ρ _ => Cert.ReferenceIdeal.Hand.frame (F := Ideal) m ρ

/-- The idealization rewrote nothing. -/
theorem preserves : Cert.preserves_Kernel_KernelIdeal := trivial

/-- From memories agreeing on the arguments both programs end with the same scalar: the loss of the three totals. -/
theorem algebraic : Cert.algebraic_KernelIdeal_ReferenceIdeal := by
  intro m ρ m' ρ' hpre hagree
  refine ⟨fun c => shapeCast Cert.KernelIdeal.S_ (Cert.KernelIdeal.Hand.total m c) Cert.KernelIdeal.Facts₀.shapeCasts_S1x1_S_,
    Cert.KernelIdeal.Hand.run_value (F := Ideal) m ρ, ?_⟩
  refine (θ_run Cert.ReferenceIdeal.defs _ _).mono (fun r h c =>
    ⟨(h c Cert.ReferenceIdeal.main_v115).trans ?_,
     (h c Cert.ReferenceIdeal.main_arg0).trans (Cert.ReferenceIdeal.Hand.after_arg0 _),
     (h c Cert.ReferenceIdeal.main_arg1).trans (Cert.ReferenceIdeal.Hand.after_arg1 _)⟩)
    (Cert.ReferenceIdeal.Hand.run_all (F := Ideal) m' ρ')
  exact Cert.Proof.Bridge.values_agree m (StableHlo.launchContents m' c) c (hpre c) (hagree c).1 (hagree c).2

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
